-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8x3 : Shape := ⟨3, ![100000, 8, 3]⟩
abbrev S2000000x1x16 : Shape := ⟨3, ![2000000, 1, 16]⟩
abbrev S1x16x1x1 : Shape := ⟨4, ![1, 16, 1, 1]⟩
abbrev S1 : Shape := ⟨1, ![1]⟩
abbrev S2x2000000 : Shape := ⟨2, ![2, 2000000]⟩
abbrev S_ : Shape := ⟨0, ![]⟩
abbrev S100000x1x1 : Shape := ⟨3, ![100000, 1, 1]⟩
abbrev S100000 : Shape := ⟨1, ![100000]⟩

class Facts : Prop where
  bcast_S_S100000x8x3 : S_.BroadcastsInDim S100000x8x3 (![] : Fin 0 → Fin S100000x8x3.rank)
  reducesTo_S100000x8x3_S_d0_1_2 : S100000x8x3.ReducesTo [0, 1, 2] S_
  h_S_ : 0 < S_.numel
  bcast_S_S2000000x1x16 : S_.BroadcastsInDim S2000000x1x16 (![] : Fin 0 → Fin S2000000x1x16.rank)
  reducesTo_S2000000x1x16_S_d0_1_2 : S2000000x1x16.ReducesTo [0, 1, 2] S_
  bcast_S_S1x16x1x1 : S_.BroadcastsInDim S1x16x1x1 (![] : Fin 0 → Fin S1x16x1x1.rank)
  reducesTo_S1x16x1x1_S_d0_1_2_3 : S1x16x1x1.ReducesTo [0, 1, 2, 3] S_
  bcast_S_S1 : S_.BroadcastsInDim S1 (![] : Fin 0 → Fin S1.rank)
  reducesTo_S1_S_d0 : S1.ReducesTo [0] S_
  slices_S100000x8x3_S100000x1x1_0_7_2 : S100000x8x3.Slices ![0, 7, 2] S100000x1x1
  shapeCasts_S100000x1x1_S100000 : S100000x1x1.ShapeCasts S100000
  bcast_S_S100000 : S_.BroadcastsInDim S100000 (![] : Fin 0 → Fin S100000.rank)
  reducesTo_S100000_S_d0 : S100000.ReducesTo [0] S_

variable [Facts]

def fn_part1 {F : FTy → Type} [FloatOps F] (main_arg0 : FVec F S100000x8x3 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S100000x1x1 .f32 := (extractStridedSlice S100000x1x1 ![0, 7, 2] · slices_S100000x8x3_S100000x1x1_0_7_2) main_arg0
  let main_v20 : FVec F S100000 .f32 := shapeCast S100000 main_v19 shapeCasts_S100000x1x1_S100000
  let main_cst_6 : FVec F S_ .f32 := constant S_ .f32 0x00000000#32
  let main_v21 : FVec F S100000 .f32 := broadcastInDim S100000 ![] bcast_S_S100000 main_cst_6
  let main_v22 : IVec S100000 1 := cmpf .une main_v20 main_v21
  let main_c_7 : IVec S_ 1 := constantI S_ 1 1#1
  let main_v23 : IVec S_ 1 := (fun x v => Host.reduce IntOp.andi x v reducesTo_S100000_S_d0 h_S_) main_v22 main_c_7
  let main_v24 : IVec S_ 1 := andi main_v18 main_v23
  main_v24

def fn {F : FTy → Type} [FloatOps F] (main_arg0 : FVec F S100000x8x3 .f32) (main_arg1 : FVec F S2000000x1x16 .f32) (main_arg2 : FVec F S1x16x1x1 .f32) (main_arg3 : FVec F S1 .f32) (main_arg4 : IVec S2x2000000 32) : IVec S_ 1 :=
  let main_v0 : FVec F S100000x8x3 .f32 := Host.absf main_arg0
  let main_cst : FVec F S_ .f32 := constant S_ .f32 0x7F800000#32
  let main_v1 : FVec F S100000x8x3 .f32 := broadcastInDim S100000x8x3 ![] bcast_S_S100000x8x3 main_cst
  let main_v2 : IVec S100000x8x3 1 := cmpf .olt main_v0 main_v1
  let main_c : IVec S_ 1 := constantI S_ 1 1#1
  let main_v3 : IVec S_ 1 := (fun x v => Host.reduce IntOp.andi x v reducesTo_S100000x8x3_S_d0_1_2 h_S_) main_v2 main_c
  let main_v4 : FVec F S2000000x1x16 .f32 := Host.absf main_arg1
  let main_cst_0 : FVec F S_ .f32 := constant S_ .f32 0x7F800000#32
  let main_v5 : FVec F S2000000x1x16 .f32 := broadcastInDim S2000000x1x16 ![] bcast_S_S2000000x1x16 main_cst_0
  let main_v6 : IVec S2000000x1x16 1 := cmpf .olt main_v4 main_v5
  let main_c_1 : IVec S_ 1 := constantI S_ 1 1#1
  let main_v7 : IVec S_ 1 := (fun x v => Host.reduce IntOp.andi x v reducesTo_S2000000x1x16_S_d0_1_2 h_S_) main_v6 main_c_1
  let main_v8 : IVec S_ 1 := andi main_v3 main_v7
  let main_v9 : FVec F S1x16x1x1 .f32 := Host.absf main_arg2
  let main_cst_2 : FVec F S_ .f32 := constant S_ .f32 0x7F800000#32
  let main_v10 : FVec F S1x16x1x1 .f32 := broadcastInDim S1x16x1x1 ![] bcast_S_S1x16x1x1 main_cst_2
  let main_v11 : IVec S1x16x1x1 1 := cmpf .olt main_v9 main_v10
  let main_c_3 : IVec S_ 1 := constantI S_ 1 1#1
  let main_v12 : IVec S_ 1 := (fun x v => Host.reduce IntOp.andi x v reducesTo_S1x16x1x1_S_d0_1_2_3 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg0 main_v13 main_v16
-- ==== Kernel.lean ====
abbrev S100000x8x3 : Shape := ⟨3, ![100000, 8, 3]⟩
abbrev S2000000x1x16 : Shape := ⟨3, ![2000000, 1, 16]⟩
abbrev S1x16x1x1 : Shape := ⟨4, ![1, 16, 1, 1]⟩
abbrev S1 : Shape := ⟨1, ![1]⟩
abbrev S2x2000000 : Shape := ⟨2, ![2, 2000000]⟩
abbrev S100000x1x1 : Shape := ⟨3, ![100000, 1, 1]⟩
abbrev S100000 : Shape := ⟨1, ![100000]⟩
abbrev S_ : Shape := ⟨0, ![]⟩
abbrev S1x2000000 : Shape := ⟨2, ![1, 2000000]⟩
abbrev S2000000 : Shape := ⟨1, ![2000000]⟩
abbrev S2000000x1 : Shape := ⟨2, ![2000000, 1]⟩
abbrev S2000000x16 : Shape := ⟨2, ![2000000, 16]⟩
abbrev S16 : Shape := ⟨1, ![16]⟩
abbrev S1x16 : Shape := ⟨2, ![1, 16]⟩
abbrev S1x1 : Shape := ⟨2, ![1, 1]⟩
abbrev S16000x16 : Shape := ⟨2, ![16000, 16]⟩
abbrev S1x16000 : Shape := ⟨2, ![1, 16000]⟩
abbrev S2000000x1x1 : Shape := ⟨3, ![2000000, 1, 1]⟩
abbrev S100000x1 : Shape := ⟨2, ![100000, 1]⟩

abbrev nBuf : Space → Nat
  | .hbm => 144
  | .vmem => 16
  | .smem => 0
  | _ => 0

abbrev hbmTy0_0 (i : Nat) : BufTy := match i % 128 with
  | 0 => ⟨S100000x8x3, .f32⟩
  | 1 => ⟨S2000000x1x16, .f32⟩
  | 2 => ⟨S1x16x1x1, .f32⟩
  | 3 => ⟨S1, .f32⟩
  | 4 => ⟨S2x2000000, .i32⟩
  | 5 => ⟨S100000x1x1, .f32⟩
  | 6 => ⟨S100000, .f32⟩
  | 7 => ⟨S100000x1x1, .f32⟩
  | 8 => ⟨S100000, .f32⟩
  | 9 => ⟨S100000x1x1, .f32⟩
  | 10 => ⟨S100000, .f32⟩
  | 11 => ⟨S100000, .f32⟩
  | 12 => ⟨S_, .f32⟩
  | 13 => ⟨S100000, .f32⟩
  | 14 => ⟨S100000, .f32⟩
  | 15 => ⟨S1x2000000, .i32⟩
  | 16 => ⟨S2000000, .i32⟩
  | 17 => ⟨S1x2000000, .i32⟩
  | 18 => ⟨S2000000, .i32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S2000000x1, .i32⟩
  | 27 => ⟨S2000000, .f32⟩
  | 28 => ⟨S_, .i32⟩
  | 29 => ⟨S2000000, .i32⟩
  | 30 => ⟨S2000000, .i1⟩
  | 31 => ⟨S_, .i32⟩
  | 32 => ⟨S2000000, .i32⟩
  | 33 => ⟨S2000000, .i32⟩
  | 34 => ⟨S2000000, .i32⟩
  | 35 => ⟨S2000000x1, .i32⟩
  | 36 => ⟨S2000000, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S2000000x1, .i32⟩
  | 45 => ⟨S2000000, .f32⟩
  | 46 => ⟨S2000000x16, .f32⟩
  | 47 => ⟨S16, .f32⟩
  | 48 => ⟨S1x16, .f32⟩
  | 49 => ⟨S1x1, .f32⟩
  | 50 => ⟨S1x2000000, .f32⟩
  | 51 => ⟨S1x2000000, .f32⟩
  | 52 => ⟨S1x2000000, .f32⟩
  | 53 => ⟨S1x2000000, .f32⟩
  | 54 => ⟨S1x2000000, .f32⟩
  | 55 => ⟨S1x2000000, .f32⟩
  | 56 => ⟨S2000000x1x1, .f32⟩
  | 57 => ⟨S2000000, .f32⟩
  | 58 => ⟨S2000000, .f32⟩
  | 59 => ⟨S2000000, .i1⟩
  | 60 => ⟨S2000000, .i32⟩
  | 61 => ⟨S_, .i32⟩
  | 62 => ⟨S2000000, .i32⟩
  | 63 => ⟨S2000000, .i32⟩
  | 64 => ⟨S_, .i32⟩
  | 65 => ⟨S_, .i32⟩
  | 66 => ⟨S2000000, .i32⟩
  | 67 => ⟨S2000000, .i32⟩
  | 68 => ⟨S_, .i32⟩
  | 69 => ⟨S2000000, .i32⟩
  | 70 => ⟨S2000000, .i32⟩
  | 71 => ⟨S_, .i32⟩
  | 72 => ⟨S2000000, .i32⟩
  | 73 => ⟨S2000000, .i32⟩
  | 74 => ⟨S_, .i32⟩
  | 75 => ⟨S_, .i32⟩
  | 76 => ⟨S2000000, .i32⟩
  | 77 => ⟨S2000000, .i32⟩
  | 78 => ⟨S_, .i32⟩
  | 79 => ⟨S100000, .i32⟩
  | 80 => ⟨S2000000x1, .i32⟩
  | 81 => ⟨S100000, .i32⟩
  | 82 => ⟨S_, .i32⟩
  | 83 => ⟨S100000, .i32⟩
  | 84 => ⟨S2000000x1, .i32⟩
  | 85 => ⟨S100000, .i32⟩
  | 86 => ⟨S100000, .i32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S2000000x1, .i32⟩
  | 95 => ⟨S2000000, .i32⟩
  | 96 => ⟨S2000000, .i1⟩
  | 97 => ⟨S2000000, .i1⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000, .i32⟩
  | 107 => ⟨S2000000, .i1⟩
  | 108 => ⟨S2000000, .i1⟩
  | 109 => ⟨S_, .f32⟩
  | 110 => ⟨S100000, .f32⟩
  | 111 => ⟨S_, .f32⟩
  | 112 => ⟨S_, .f32⟩
  | 113 => ⟨S2000000, .f32⟩
  | 114 => ⟨S2000000, .f32⟩
  | 115 => ⟨S_, .i32⟩
  | 116 => ⟨S2000000, .i32⟩
  | 117 => ⟨S2000000, .i1⟩
  | 118 => ⟨S_, .i32⟩
  | 119 => ⟨S2000000, .i32⟩
  | 120 => ⟨S2000000, .i32⟩
  | 121 => ⟨S2000000, .i32⟩
  | 122 => ⟨S2000000x1, .i32⟩
  | 123 => ⟨S100000, .f32⟩
  | 124 => ⟨S_, .f32⟩
  | 125 => ⟨S_, .f32⟩
  | 126 => ⟨S2000000, .f32⟩
  | 127 => ⟨S2000000, .f32⟩
  | _ => ⟨S100000x8x3, .f32⟩

abbrev hbmTy0_1 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i32⟩
  | 6 => ⟨S2000000, .i32⟩
  | 7 => ⟨S2000000x1, .i32⟩
  | 8 => ⟨S100000, .f32⟩
  | 9 => ⟨S_, .f32⟩
  | 10 => ⟨S100000, .f32⟩
  | 11 => ⟨S100000, .f32⟩
  | 12 => ⟨S100000, .f32⟩
  | 13 => ⟨S100000, .f32⟩
  | 14 => ⟨S100000, .f32⟩
  | 15 => ⟨S100000x1, .f32⟩
  | _ => ⟨S100000x8x3, .f32⟩

abbrev hbmTy (i : Nat) : BufTy := match i / 128 with
  | 0 => hbmTy0_0 i
  | 1 => hbmTy0_1 i
  | _ => ⟨S100000x8x3, .f32⟩

abbrev bufTy : (tb : Table) → Fin (tcTables nBuf tb) → BufTy
  | .hbm, ⟨i, _⟩ => hbmTy i
  | .local _ .vmem, ⟨0, _⟩ => ⟨S16000x16, .f32⟩
  | .local _ .vmem, ⟨1, _⟩ => ⟨S16000x16, .f32⟩
  | .local _ .vmem, ⟨2, _⟩ => ⟨S1x16, .f32⟩
  | .local _ .vmem, ⟨3, _⟩ => ⟨S1x1, .f32⟩
  | .local _ .vmem, ⟨4, _⟩ => ⟨S1x16000, .f32⟩
  | .local _ .vmem, ⟨5, _⟩ => ⟨S1x16000, .f32⟩
  | .local _ .vmem, ⟨6, _⟩ => ⟨S1x16000, .f32⟩
  | .local _ .vmem, ⟨7, _⟩ => ⟨S1x16000, .f32⟩
  | .local _ .vmem, ⟨8, _⟩ => ⟨S1x16000, .f32⟩
  | .local _ .vmem, ⟨9, _⟩ => ⟨S1x16000, .f32⟩
  | .local _ .vmem, ⟨10, _⟩ => ⟨S1x16000, .f32⟩
  | .local _ .vmem, ⟨11, _⟩ => ⟨S1x16000, .f32⟩
  | .local _ .vmem, ⟨12, _⟩ => ⟨S1x16000, .f32⟩
  | .local _ .vmem, ⟨13, _⟩ => ⟨S1x16000, .f32⟩
  | .local _ .vmem, ⟨14, _⟩ => ⟨S1x16000, .f32⟩
  | .local _ .vmem, ⟨15, _⟩ => ⟨S1x16000, .f32⟩
  | _, _ => ⟨S100000x8x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_v41_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_5 : Ref sig .tc := ⟨.hbm, 61, rfl⟩
abbrev main_v47 : Ref sig .tc := ⟨.hbm, 62, rfl⟩
abbrev main_v48 : Ref sig .tc := ⟨.hbm, 63, rfl⟩
abbrev main_c_6 : Ref sig .tc := ⟨.hbm, 64, rfl⟩
abbrev main_call0_v0 : Ref sig .tc := ⟨.hbm, 65, rfl⟩
abbrev main_call0_v1 : Ref sig .tc := ⟨.hbm, 66, rfl⟩
abbrev main_v49 : Ref sig .tc := ⟨.hbm, 67, rfl⟩
abbrev main_c_7 : Ref sig .tc := ⟨.hbm, 68, rfl⟩
abbrev main_v50 : Ref sig .tc := ⟨.hbm, 69, rfl⟩
abbrev main_v51 : Ref sig .tc := ⟨.hbm, 70, rfl⟩
abbrev main_c_8 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_call1_v0 : Ref sig .tc := ⟨.hbm, 75, rfl⟩
abbrev main_call1_v1 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_cst_17 : Ref sig .tc := ⟨.hbm, 111, rfl⟩
abbrev main_call2_v0 : Ref sig .tc := ⟨.hbm, 112, rfl⟩
abbrev main_call2_v1 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_c_19 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_20 : Ref sig .tc := ⟨.hbm, 124, rfl⟩
abbrev main_call3_v0 : Ref sig .tc := ⟨.hbm, 125, rfl⟩
abbrev main_call3_v1 : Ref sig .tc := ⟨.hbm, 126, rfl⟩
abbrev main_v89 : Ref sig .tc := ⟨.hbm, 127, rfl⟩
abbrev main_c_21 : Ref sig .tc := ⟨.hbm, 128, rfl⟩
abbrev main_v90 : Ref sig .tc := ⟨.hbm, 129, rfl⟩
abbrev main_v91 : Ref sig .tc := ⟨.hbm, 130, rfl⟩
abbrev main_c_22 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_23 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S100000x8x3_S100000x1x1_0_7_0 : S100000x8x3.Slices ![0, 7, 0] S100000x1x1
  shapeCasts_S100000x1x1_S100000 : S100000x1x1.ShapeCasts S100000
  slices_S100000x8x3_S100000x1x1_0_7_1 : S100000x8x3.Slices ![0, 7, 1] S100000x1x1
  slices_S100000x8x3_S100000x1x1_0_7_2 : S100000x8x3.Slices ![0, 7, 2] S100000x1x1
  bcast_S_S100000 : S_.BroadcastsInDim S100000 (![] : Fin 0 → Fin S100000.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000x1x16_S2000000x16 : S2000000x1x16.ShapeCasts S2000000x16
  shapeCasts_S1x16x1x1_S16 : S1x16x1x1.ShapeCasts S16
  shapeCasts_S16_S1x16 : S16.ShapeCasts S1x16
  shapeCasts_S1_S1x1 : S1.ShapeCasts S1x1
  shapeCasts_S2000000_S1x2000000 : S2000000.ShapeCasts S1x2000000
  inb_S16000x16_S16000x16_0_0 : ∀ a, (![0, 0] : Fin 2 → Nat) a + S16000x16.size a ≤ S16000x16.size a
  h_S16000x16 : 0 < S16000x16.numel
  shapeCasts_S16000x16_S16000x16 : S16000x16.ShapeCasts S16000x16
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  shapeCasts_S1x2000000_S2000000x1x1 : S1x2000000.ShapeCasts S2000000x1x1
  bcast_S100000_S100000x1_0 : S100000.BroadcastsInDim S100000x1 (![0] : Fin 1 → Fin S100000x1.rank)
  gather_S100000_S2000000x1_S2000000_n_0_n_n_0_1_1_wf : GatherDims.WF S100000 S2000000x1 S2000000 [] [0] [] [0] [] 1 ![1]
  dot_S1x16_S16000x16_S1x16000_1_1_0_0_n_n_wf : DotDims.WF S1x16 S16000x16 S1x16000 [1] [1] [0] [0] [] []
  scatter_S100000_S2000000x1_S2000000_n_0_0_1_wf : ScatterDims.WF S100000 S2000000x1 S2000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x16.size a ≤ S2000000x16.size a
  hwx0_0 : ∀ i : grid0.Coords, EltTy.bits .f32 = 32 ∨ (Rect.block (s := S2000000x16) S16000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16000.size a ≤ S1x2000000.size a
  hwx0_3 : ∀ i : grid0.Coords, EltTy.bits .f32 = 32 ∨ (Rect.block (s := S1x2000000) S1x16000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16000.size a ≤ S1x2000000.size a
  hwx0_4 : ∀ i : grid0.Coords, EltTy.bits .f32 = 32 ∨ (Rect.block (s := S1x2000000) S1x16000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16000.size a ≤ S1x2000000.size a
  hwx0_5 : ∀ i : grid0.Coords, EltTy.bits .f32 = 32 ∨ (Rect.block (s := S1x2000000) S1x16000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16000.size a ≤ S1x2000000.size a
  hwx0_6 : ∀ i : grid0.Coords, EltTy.bits .f32 = 32 ∨ (Rect.block (s := S1x2000000) S1x16000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16000.size a ≤ S1x2000000.size a
  hwx0_7 : ∀ i : grid0.Coords, EltTy.bits .f32 = 32 ∨ (Rect.block (s := S1x2000000) S1x16000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16000.size a ≤ S1x2000000.size a
  hwx0_8 : ∀ i : grid0.Coords, EltTy.bits .f32 = 32 ∨ (Rect.block (s := S1x2000000) S1x16000.size (cc0_transform_8 i) (hinb0_8 i)).WholeWords (EltTy.packing .f32)

variable [Facts₀]

def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def dot_S1x16_S16000x16_S1x16000_1_1_0_0_n_n : DotDims S1x16 S16000x16 S1x16000 where
  lhsContracting := [1]
  rhsContracting := [1]
  lhsNonContracting := [0]
  rhsNonContracting := [0]
  lhsBatch := []
  rhsBatch := []
  wf := dot_S1x16_S16000x16_S1x16000_1_1_0_0_n_n_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf

abbrev win0_0 : Pipeline.Window sig grid0 :=
  Pipeline.Window.ofSpec (Memref.whole main_v34) S16000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x16000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x16000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1x16000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v41_0) S1x16000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v41_1) S1x16000.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v41_2) S1x16000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x8x3 : Shape := ⟨3, ![100000, 8, 3]⟩
abbrev S2000000x1x16 : Shape := ⟨3, ![2000000, 1, 16]⟩
abbrev S1x16x1x1 : Shape := ⟨4, ![1, 16, 1, 1]⟩
abbrev S1 : Shape := ⟨1, ![1]⟩
abbrev S2x2000000 : Shape := ⟨2, ![2, 2000000]⟩
abbrev S100000x1x1 : Shape := ⟨3, ![100000, 1, 1]⟩
abbrev S100000 : Shape := ⟨1, ![100000]⟩
abbrev S1x16 : Shape := ⟨2, ![1, 16]⟩
abbrev S2000000x1x1 : Shape := ⟨3, ![2000000, 1, 1]⟩
abbrev S1x1x1 : Shape := ⟨3, ![1, 1, 1]⟩
abbrev S2000000 : Shape := ⟨1, ![2000000]⟩
abbrev S1x2000000 : Shape := ⟨2, ![1, 2000000]⟩
abbrev S_ : Shape := ⟨0, ![]⟩
abbrev S2000000x1 : Shape := ⟨2, ![2000000, 1]⟩
abbrev S4000000 : Shape := ⟨1, ![4000000]⟩
abbrev S4000000x1 : Shape := ⟨2, ![4000000, 1]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x8x3, .f32⟩
  | .hbm, ⟨1, _⟩ => ⟨S2000000x1x16, .f32⟩
  | .hbm, ⟨2, _⟩ => ⟨S1x16x1x1, .f32⟩
  | .hbm, ⟨3, _⟩ => ⟨S1, .f32⟩
  | .hbm, ⟨4, _⟩ => ⟨S2x2000000, .i32⟩
  | .hbm, ⟨5, _⟩ => ⟨S100000x1x1, .f32⟩
  | .hbm, ⟨6, _⟩ => ⟨S100000, .f32⟩
  | .hbm, ⟨7, _⟩ => ⟨S100000x1x1, .f32⟩
  | .hbm, ⟨8, _⟩ => ⟨S100000, .f32⟩
  | .hbm, ⟨9, _⟩ => ⟨S100000x1x1, .f32⟩
  | .hbm, ⟨10, _⟩ => ⟨S100000, .f32⟩
  | .hbm, ⟨11, _⟩ => ⟨S1x16, .f32⟩
  | .hbm, ⟨12, _⟩ => ⟨S2000000x1x1, .f32⟩
  | .hbm, ⟨13, _⟩ => ⟨S1x1x1, .f32⟩
  | .hbm, ⟨14, _⟩ => ⟨S2000000x1x1, .f32⟩
  | .hbm, ⟨15, _⟩ => ⟨S2000000x1x1, .f32⟩
  | .hbm, ⟨16, _⟩ => ⟨S2000000, .f32⟩
  | .hbm, ⟨17, _⟩ => ⟨S1x2000000, .i32⟩
  | .hbm, ⟨18, _⟩ => ⟨S2000000, .i32⟩
  | .hbm, ⟨19, _⟩ => ⟨S1x2000000, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000, .f32⟩
  | .hbm, ⟨31, _⟩ => ⟨S2000000, .f32⟩
  | .hbm, ⟨32, _⟩ => ⟨S_, .i32⟩
  | .hbm, ⟨33, _⟩ => ⟨S2000000, .i32⟩
  | .hbm, ⟨34, _⟩ => ⟨S2000000, .i1⟩
  | .hbm, ⟨35, _⟩ => ⟨S_, .i32⟩
  | .hbm, ⟨36, _⟩ => ⟨S2000000, .i32⟩
  | .hbm, ⟨37, _⟩ => ⟨S2000000, .i32⟩
  | .hbm, ⟨38, _⟩ => ⟨S2000000, .i32⟩
  | .hbm, ⟨39, _⟩ => ⟨S2000000x1, .i32⟩
  | .hbm, ⟨40, _⟩ => ⟨S2000000, .f32⟩
  | .hbm, ⟨41, _⟩ => ⟨S2000000, .f32⟩
  | .hbm, ⟨42, _⟩ => ⟨S_, .i32⟩
  | .hbm, ⟨43, _⟩ => ⟨S2000000, .i32⟩
  | .hbm, ⟨44, _⟩ => ⟨S2000000, .i1⟩
  | .hbm, ⟨45, _⟩ => ⟨S_, .i32⟩
  | .hbm, ⟨46, _⟩ => ⟨S2000000, .i32⟩
  | .hbm, ⟨47, _⟩ => ⟨S2000000, .i32⟩
  | .hbm, ⟨48, _⟩ => ⟨S2000000, .i32⟩
  | .hbm, ⟨49, _⟩ => ⟨S2000000x1, .i32⟩
  | .hbm, ⟨50, _⟩ => ⟨S2000000, .f32⟩
  | .hbm, ⟨51, _⟩ => ⟨S2000000, .f32⟩
  | .hbm, ⟨52, _⟩ => ⟨S_, .i32⟩
  | .hbm, ⟨53, _⟩ => ⟨S2000000, .i32⟩
  | .hbm, ⟨54, _⟩ => ⟨S2000000, .i1⟩
  | .hbm, ⟨55, _⟩ => ⟨S_, .i32⟩
  | .hbm, ⟨56, _⟩ => ⟨S2000000, .i32⟩
  | .hbm, ⟨57, _⟩ => ⟨S2000000, .i32⟩
  | .hbm, ⟨58, _⟩ => ⟨S2000000, .i32⟩
  | .hbm, ⟨59, _⟩ => ⟨S2000000x1, .i32⟩
  | .hbm, ⟨60, _⟩ => ⟨S2000000, .f32⟩
  | .hbm, ⟨61, _⟩ => ⟨S2000000, .f32⟩
  | .hbm, ⟨62, _⟩ => ⟨S2000000, .i32⟩
  | .hbm, ⟨63, _⟩ => ⟨S4000000, .i32⟩
  | .hbm, ⟨64, _⟩ => ⟨S4000000, .f32⟩
  | .hbm, ⟨65, _⟩ => ⟨S_, .i32⟩
  | .hbm, ⟨66, _⟩ => ⟨S2000000, .i32⟩
  | .hbm, ⟨67, _⟩ => ⟨S2000000, .i32⟩
  | .hbm, ⟨68, _⟩ => ⟨S_, .i32⟩
  | .hbm, ⟨69, _⟩ => ⟨S_, .i32⟩
  | .hbm, ⟨70, _⟩ => ⟨S2000000, .i32⟩
  | .hbm, ⟨71, _⟩ => ⟨S2000000, .i32⟩
  | .hbm, ⟨72, _⟩ => ⟨S_, .i32⟩
  | .hbm, ⟨73, _⟩ => ⟨S2000000, .i32⟩
  | .hbm, ⟨74, _⟩ => ⟨S2000000, .i32⟩
  | .hbm, ⟨75, _⟩ => ⟨S_, .i32⟩
  | .hbm, ⟨76, _⟩ => ⟨S2000000, .i32⟩
  | .hbm, ⟨77, _⟩ => ⟨S2000000, .i32⟩
  | .hbm, ⟨78, _⟩ => ⟨S_, .i32⟩
  | .hbm, ⟨79, _⟩ => ⟨S_, .i32⟩
  | .hbm, ⟨80, _⟩ => ⟨S2000000, .i32⟩
  | .hbm, ⟨81, _⟩ => ⟨S2000000, .i32⟩
  | .hbm, ⟨82, _⟩ => ⟨S4000000, .i32⟩
  | .hbm, ⟨83, _⟩ => ⟨S_, .i32⟩
  | .hbm, ⟨84, _⟩ => ⟨S100000, .i32⟩
  | .hbm, ⟨85, _⟩ => ⟨S4000000x1, .i32⟩
  | .hbm, ⟨86, _⟩ => ⟨S100000, .i32⟩
  | .hbm, ⟨87, _⟩ => ⟨S_, .i32⟩
  | .hbm, ⟨88, _⟩ => ⟨S4000000, .i32⟩
  | .hbm, ⟨89, _⟩ => ⟨S4000000, .i1⟩
  | .hbm, ⟨90, _⟩ => ⟨S_, .i32⟩
  | .hbm, ⟨91, _⟩ => ⟨S4000000, .i32⟩
  | .hbm, ⟨92, _⟩ => ⟨S4000000, .i1⟩
  | .hbm, ⟨93, _⟩ => ⟨S_, .i32⟩
  | .hbm, ⟨94, _⟩ => ⟨S4000000, .i32⟩
  | .hbm, ⟨95, _⟩ => ⟨S4000000, .i32⟩
  | .hbm, ⟨96, _⟩ => ⟨S4000000, .i32⟩
  | .hbm, ⟨97, _⟩ => ⟨S4000000x1, .i32⟩
  | .hbm, ⟨98, _⟩ => ⟨S4000000, .i32⟩
  | .hbm, ⟨99, _⟩ => ⟨S4000000, .i1⟩
  | .hbm, ⟨100, _⟩ => ⟨S4000000, .i1⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S_, .f32⟩
  | .hbm, ⟨105, _⟩ => ⟨S4000000, .f32⟩
  | .hbm, ⟨106, _⟩ => ⟨S4000000, .f32⟩
  | .hbm, ⟨107, _⟩ => ⟨S_, .i32⟩
  | .hbm, ⟨108, _⟩ => ⟨S4000000, .i32⟩
  | .hbm, ⟨109, _⟩ => ⟨S4000000, .i1⟩
  | .hbm, ⟨110, _⟩ => ⟨S_, .i32⟩
  | .hbm, ⟨111, _⟩ => ⟨S4000000, .i32⟩
  | .hbm, ⟨112, _⟩ => ⟨S4000000, .i32⟩
  | .hbm, ⟨113, _⟩ => ⟨S4000000, .i32⟩
  | .hbm, ⟨114, _⟩ => ⟨S4000000x1, .i32⟩
  | .hbm, ⟨115, _⟩ => ⟨S100000, .f32⟩
  | .hbm, ⟨116, _⟩ => ⟨S_, .f32⟩
  | .hbm, ⟨117, _⟩ => ⟨S100000, .f32⟩
  | .hbm, ⟨118, _⟩ => ⟨S100000, .f32⟩
  | .hbm, ⟨119, _⟩ => ⟨S100000, .f32⟩
  | .hbm, ⟨120, _⟩ => ⟨S100000, .f32⟩
  | .hbm, ⟨121, _⟩ => ⟨S100000, .f32⟩
  | .hbm, ⟨122, _⟩ => ⟨S100000x1, .f32⟩
  | _, _ => ⟨S100000x8x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_7 : Ref sig .tc := ⟨.hbm, 65, rfl⟩
abbrev main_v52 : Ref sig .tc := ⟨.hbm, 66, rfl⟩
abbrev main_v53 : Ref sig .tc := ⟨.hbm, 67, rfl⟩
abbrev main_c_8 : Ref sig .tc := ⟨.hbm, 68, rfl⟩
abbrev main_call0_v0 : Ref sig .tc := ⟨.hbm, 69, rfl⟩
abbrev main_call0_v1 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_c_11 : Ref sig .tc := ⟨.hbm, 78, rfl⟩
abbrev main_call1_v0 : Ref sig .tc := ⟨.hbm, 79, rfl⟩
abbrev main_call1_v1 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst : Ref sig .tc := ⟨.hbm, 101, rfl⟩
abbrev main_v75 : Ref sig .tc := ⟨.hbm, 102, rfl⟩
abbrev main_cst_16 : Ref sig .tc := ⟨.hbm, 103, rfl⟩
abbrev main_call2_v0 : Ref sig .tc := ⟨.hbm, 104, rfl⟩
abbrev main_call2_v1 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_c_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_19 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]

class Facts₀ : Prop where
  slices_S100000x8x3_S100000x1x1_0_7_0 : S100000x8x3.Slices ![0, 7, 0] S100000x1x1
  shapeCasts_S100000x1x1_S100000 : S100000x1x1.ShapeCasts S100000
  slices_S100000x8x3_S100000x1x1_0_7_1 : S100000x8x3.Slices ![0, 7, 1] S100000x1x1
  slices_S100000x8x3_S100000x1x1_0_7_2 : S100000x8x3.Slices ![0, 7, 2] S100000x1x1
  shapeCasts_S1x16x1x1_S1x16 : S1x16x1x1.ShapeCasts S1x16
  bcast_S1_S1x1x1_2 : S1.BroadcastsInDim S1x1x1 (![2] : Fin 1 → Fin S1x1x1.rank)
  bcast_S1x1x1_S2000000x1x1_0_1_2 : S1x1x1.BroadcastsInDim S2000000x1x1 (![0, 1, 2] : Fin 3 → Fin S2000000x1x1.rank)
  shapeCasts_S2000000x1x1_S2000000 : S2000000x1x1.ShapeCasts S2000000
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000_S2000000_S4000000_d0 : Shape.Concatenates [S2000000, S2000000] S4000000 0
  bcast_S_S100000 : S_.BroadcastsInDim S100000 (![] : Fin 0 → Fin S100000.rank)
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S100000_S100000x1_0 : S100000.BroadcastsInDim S100000x1 (![0] : Fin 1 → Fin S100000x1.rank)
  dot_S2000000x1x16_S1x16_S2000000x1x1_2_1_01_0_n_n_wf : DotDims.WF S2000000x1x16 S1x16 S2000000x1x1 [2] [1] [0, 1] [0] [] []
  gather_S100000_S2000000x1_S2000000_n_0_n_n_0_1_1_wf : GatherDims.WF S100000 S2000000x1 S2000000 [] [0] [] [0] [] 1 ![1]
  scatter_S100000_S4000000x1_S4000000_n_0_0_1_wf : ScatterDims.WF S100000 S4000000x1 S4000000 [] [0] [0] 1
  gather_S100000_S4000000x1_S4000000_n_0_n_n_0_1_1_wf : GatherDims.WF S100000 S4000000x1 S4000000 [] [0] [] [0] [] 1 ![1]

variable [Facts₀]

def dot_S2000000x1x16_S1x16_S2000000x1x1_2_1_01_0_n_n : DotDims S2000000x1x16 S1x16 S2000000x1x1 where
  lhsContracting := [2]
  rhsContracting := [1]
  lhsNonContracting := [0, 1]
  rhsNonContracting := [0]
  lhsBatch := []
  rhsBatch := []
  wf := dot_S2000000x1x16_S1x16_S2000000x1x1_2_1_01_0_n_n_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf
def gather_S100000_S4000000x1_S4000000_n_0_n_n_0_1_1 : GatherDims S100000 S4000000x1 S4000000 where
  offsetDims := []
  collapsedSliceDims := [0]
  operandBatchingDims := []
  startIndicesBatchingDims := []
  startIndexMap := [0]
  indexVectorDim := 1
  sliceSizes := ![1]
  wf := gather_S100000_S4000000x1_S4000000_n_0_n_n_0_1_1_wf

class Facts : Prop extends Facts₀ where

variable [Facts]
-- ==== Proof.KFrameDefsK.lean ====
/-
  The kernel program's grid, named: what the buffers hold when the grid is entered, each window's block at a
  point, and what the body leaves in each of its three output blocks as a function of the point's six input
  blocks — the flow row `w·xᵀ + b`, the flow times the first factor row, and the flow times the second and
  third factor rows — together with the launch's proof data over them.
-/
import proofs.«134914_j48275432407577_2_alg».proof.Proof.Gen.Kernel.Launch
import proofs.«134914_j48275432407577_2_alg».proof.Proof.Gen.Kernel.Skeleton
import proofs.«134914_j48275432407577_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the grid's entry -/

/-- The nine stretches of host operations after the grid, in order. -/
abbrev tailOps : List (List (HloOp τ sig (Elt F))) :=
  [hostOps1, hostOps1_1, hostOps1_2, hostOps1_3, hostOps1_4, hostOps1_5, hostOps1_6, hostOps1_7, hostOps1_8]

/-- What the buffers hold when the grid is entered: the launch memory after the host operations before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in each output block -/

abbrev rX : Rect S16000x16 := Rect.unit (s := S16000x16) ![0, 0] S16000x16.size inb_S16000x16_S16000x16_0_0
abbrev rW : Rect S1x16 := Rect.unit (s := S1x16) ![0, 0] S1x16.size inb_S1x16_S1x16_0_0
abbrev rB : Rect S1x1 := Rect.unit (s := S1x1) ![0, 0] S1x1.size inb_S1x1_S1x1_0_0
abbrev rR : Rect S1x16000 := Rect.unit (s := S1x16000) ![0, 0] S1x16000.size inb_S1x16000_S1x16000_0_0

/-- The flow row: the weight row against the block's channels, plus the bias. -/
def out6 (x0 : Vec F S16000x16 .f32) (x1 : Vec F S1x16 .f32) (x2 : Vec F S1x1 .f32) : Vec F S1x16000 .f32 :=
  View.canon [⟨rR, k0_pay1 (View.ld x0 rX) (View.ld x1 rW) (View.ld x2 rB)⟩]
/-- The flow times the first factor row. -/
def out7 (x0 : Vec F S16000x16 .f32) (x1 : Vec F S1x16 .f32) (x2 : Vec F S1x1 .f32) (x3 : Vec F S1x16000 .f32) : Vec F S1x16000 .f32 :=
  View.canon [⟨rR, k0_pay2 (View.ld x0 rX) (View.ld x1 rW) (View.ld x2 rB) (View.ld x3 rR)⟩]
/-- The flow times the second and the third factor rows. -/
def out8 (x0 : Vec F S16000x16 .f32) (x1 : Vec F S1x16 .f32) (x2 : Vec F S1x1 .f32) (x4 x5 : Vec F S1x16000 .f32) : Vec F S1x16000 .f32 :=
  View.canon [⟨rR, k0_pay3 (View.ld x0 rX) (View.ld x1 rW) (View.ld x2 rB) (View.ld x4 rR) (View.ld x5 rR)⟩]

/-! ## The launch's proof data -/

/-- On core `c`: the arrays as the grid finds them; after the body at point `t` each input's buffer at its block and
    each output's at its function of the point's input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t)
    | ⟨7, _⟩ => out7 (iblk m c 0 t) (iblk m c 1 t) (iblk m c 2 t) (iblk m c 3 t)
    | ⟨8, _⟩ => out8 (iblk m c 0 t) (iblk m c 1 t) (iblk m c 2 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) := by dsimp only [dats]
theorem after7 (c : Dev nD) (t : Fin cfg0.N) : (dats m 0 c).after 7 t = out7 (iblk m c 0 t) (iblk m c 1 t) (iblk m c 2 t) (iblk m c 3 t) := by dsimp only [dats]
theorem after8 (c : Dev nD) (t : Fin cfg0.N) : (dats m 0 c).after 8 t = out8 (iblk m c 0 t) (iblk m c 1 t) (iblk m c 2 t) (iblk m c 4 t) (iblk m c 5 t) := by dsimp only [dats]

end Cert.Kernel.Fr

end
-- ==== Proof.KFrameK.lean ====
/-
  The frame of the kernel program: from any launch memory, every weakly fair execution of its main function
  terminates without a fault and leaves the five argument arrays as they were.

  The program is: host operations that slice the node table, form the per-node quotients, look them up along the
  edges and lay the operands out; one grid of 125 points, each taking a block of 16000 edges (their sixteen
  channels, the one weight row and the bias, and three rows of per-edge factors) to three rows of 16000 results;
  then host operations on those three result arrays.  At a point the body reads its six input blocks whole and
  stores three whole rows: the flow `w·xᵀ + b`, the flow times the first factor, and the flow times the second
  and third factors.  Each output block is therefore a function of the point's input blocks (`out6`, `out7`,
  `out8`), which is all the launch needs to know; the argument arrays are staged by no window and written by no
  host operation, so they end as launched.
-/
import proofs.«134914_j48275432407577_2_alg».proof.Proof.Gen.Kernel.Launch
import proofs.«134914_j48275432407577_2_alg».proof.Proof.Gen.Kernel.Skeleton
import proofs.«134914_j48275432407577_2_alg».proof.Proof.Gen.Kernel.Points
import proofs.«134914_j48275432407577_2_alg».proof.Proof.KFrameDefsK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the grid -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The main function is: the operations before the grid, the grid, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the grid touch unscoped buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No operation of this stretch writes an array a window stages: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- So the operations after the grid write no staged array. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- No host operation before the grid writes argument 0: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the grid writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the grid writes argument 1: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the grid writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the grid writes argument 2: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the grid writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the grid writes argument 3: the grid finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the grid writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the grid writes argument 4: the grid finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the grid writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run to the launch's post, the arguments end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## The stores cover each output block -/

/-- One whole-row store covers the row. -/
theorem coverR (p0 : Vec F S1x16000 .f32) (y : S1x16000.Idx) :
    ∃ pc ∈ ([⟨rR, p0⟩] : List (View.Piece (Elt F) S1x16000 .f32)), y ∈ pc.1.set :=
  View.cover_of_tiled [⟨rR, p0⟩] S1x16000.size (by rfl) y

/-! ## The body's triple -/

set_option maxHeartbeats 4000000 in
/-- The body on whole staging buffers, the inputs' at known contents and the outputs' at anything, runs to the
    continuation with the inputs as they were and each output at its function of the inputs. -/
theorem sound_kernel (c : Dev nD) (E : Set ℕ) (i : grid0.Coords)
    (arg1 : Memref sig .tc .vmem S16000x16 .f32) (harg1 : arg1.IsWhole) (arg2 : Memref sig .tc .vmem S1x16 .f32) (harg2 : arg2.IsWhole)
    (arg3 : Memref sig .tc .vmem S1x1 .f32) (harg3 : arg3.IsWhole) (arg4 : Memref sig .tc .vmem S1x16000 .f32) (harg4 : arg4.IsWhole)
    (arg5 : Memref sig .tc .vmem S1x16000 .f32) (harg5 : arg5.IsWhole) (arg6 : Memref sig .tc .vmem S1x16000 .f32) (harg6 : arg6.IsWhole)
    (arg7 : Memref sig .tc .vmem S1x16000 .f32) (harg7 : arg7.IsWhole) (arg8 : Memref sig .tc .vmem S1x16000 .f32) (harg8 : arg8.IsWhole)
    (arg9 : Memref sig .tc .vmem S1x16000 .f32) (harg9 : arg9.IsWhole)
    (x0 : Vec F S16000x16 .f32) (x1 : Vec F S1x16 .f32) (x2 : Vec F S1x1 .f32) (x3 x4 x5 : Vec F S1x16000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2) ∗ owns (c : Thread nD τ) arg8 fullShare (out7 x0 x1 x2 x3)
            ∗ owns (c : Thread nD τ) arg9 fullShare (out8 x0 x1 x2 x4 x5)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverR _)
  isplitl [H7]
  · iexists _; isplitr
    swap; · iexact H7
    ipureintro
    exact View.read_writes_eq_canon _ _ _ (coverR _)
  iexists _; isplitr
  swap; · iexact H8
  ipureintro
  exact View.read_writes_eq_canon _ _ _ (coverR _)

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the main function terminates; every staged array ends at what the launch computes
    from the proof data, and every other unscoped buffer as the operations after the grid leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Fr

end
-- ==== Proof.KFrameDefsI.lean ====
/-
  The kernel program's grid, named: what the buffers hold when the grid is entered, each window's block at a
  point, and what the body leaves in each of its three output blocks as a function of the point's six input
  blocks — the flow row `w·xᵀ + b`, the flow times the first factor row, and the flow times the second and
  third factor rows — together with the launch's proof data over them.
-/
import proofs.«134914_j48275432407577_2_alg».proof.Proof.Gen.KernelIdeal.Launch
import proofs.«134914_j48275432407577_2_alg».proof.Proof.Gen.KernelIdeal.Skeleton
import proofs.«134914_j48275432407577_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the grid's entry -/

/-- The nine stretches of host operations after the grid, in order. -/
abbrev tailOps : List (List (HloOp τ sig (Elt F))) :=
  [hostOps1, hostOps1_1, hostOps1_2, hostOps1_3, hostOps1_4, hostOps1_5, hostOps1_6, hostOps1_7, hostOps1_8]

/-- What the buffers hold when the grid is entered: the launch memory after the host operations before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in each output block -/

abbrev rX : Rect S16000x16 := Rect.unit (s := S16000x16) ![0, 0] S16000x16.size inb_S16000x16_S16000x16_0_0
abbrev rW : Rect S1x16 := Rect.unit (s := S1x16) ![0, 0] S1x16.size inb_S1x16_S1x16_0_0
abbrev rB : Rect S1x1 := Rect.unit (s := S1x1) ![0, 0] S1x1.size inb_S1x1_S1x1_0_0
abbrev rR : Rect S1x16000 := Rect.unit (s := S1x16000) ![0, 0] S1x16000.size inb_S1x16000_S1x16000_0_0

/-- The flow row: the weight row against the block's channels, plus the bias. -/
def out6 (x0 : Vec F S16000x16 .f32) (x1 : Vec F S1x16 .f32) (x2 : Vec F S1x1 .f32) : Vec F S1x16000 .f32 :=
  View.canon [⟨rR, k0_pay1 (View.ld x0 rX) (View.ld x1 rW) (View.ld x2 rB)⟩]
/-- The flow times the first factor row. -/
def out7 (x0 : Vec F S16000x16 .f32) (x1 : Vec F S1x16 .f32) (x2 : Vec F S1x1 .f32) (x3 : Vec F S1x16000 .f32) : Vec F S1x16000 .f32 :=
  View.canon [⟨rR, k0_pay2 (View.ld x0 rX) (View.ld x1 rW) (View.ld x2 rB) (View.ld x3 rR)⟩]
/-- The flow times the second and the third factor rows. -/
def out8 (x0 : Vec F S16000x16 .f32) (x1 : Vec F S1x16 .f32) (x2 : Vec F S1x1 .f32) (x4 x5 : Vec F S1x16000 .f32) : Vec F S1x16000 .f32 :=
  View.canon [⟨rR, k0_pay3 (View.ld x0 rX) (View.ld x1 rW) (View.ld x2 rB) (View.ld x4 rR) (View.ld x5 rR)⟩]

/-! ## The launch's proof data -/

/-- On core `c`: the arrays as the grid finds them; after the body at point `t` each input's buffer at its block and
    each output's at its function of the point's input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t)
    | ⟨7, _⟩ => out7 (iblk m c 0 t) (iblk m c 1 t) (iblk m c 2 t) (iblk m c 3 t)
    | ⟨8, _⟩ => out8 (iblk m c 0 t) (iblk m c 1 t) (iblk m c 2 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) := by dsimp only [dats]
theorem after7 (c : Dev nD) (t : Fin cfg0.N) : (dats m 0 c).after 7 t = out7 (iblk m c 0 t) (iblk m c 1 t) (iblk m c 2 t) (iblk m c 3 t) := by dsimp only [dats]
theorem after8 (c : Dev nD) (t : Fin cfg0.N) : (dats m 0 c).after 8 t = out8 (iblk m c 0 t) (iblk m c 1 t) (iblk m c 2 t) (iblk m c 4 t) (iblk m c 5 t) := by dsimp only [dats]

end Cert.KernelIdeal.Fr

end
-- ==== Proof.KFrameI.lean ====
/-
  The frame of the kernel program: from any launch memory, every weakly fair execution of its main function
  terminates without a fault and leaves the five argument arrays as they were.

  The program is: host operations that slice the node table, form the per-node quotients, look them up along the
  edges and lay the operands out; one grid of 125 points, each taking a block of 16000 edges (their sixteen
  channels, the one weight row and the bias, and three rows of per-edge factors) to three rows of 16000 results;
  then host operations on those three result arrays.  At a point the body reads its six input blocks whole and
  stores three whole rows: the flow `w·xᵀ + b`, the flow times the first factor, and the flow times the second
  and third factors.  Each output block is therefore a function of the point's input blocks (`out6`, `out7`,
  `out8`), which is all the launch needs to know; the argument arrays are staged by no window and written by no
  host operation, so they end as launched.
-/
import proofs.«134914_j48275432407577_2_alg».proof.Proof.Gen.KernelIdeal.Launch
import proofs.«134914_j48275432407577_2_alg».proof.Proof.Gen.KernelIdeal.Skeleton
import proofs.«134914_j48275432407577_2_alg».proof.Proof.Gen.KernelIdeal.Points
import proofs.«134914_j48275432407577_2_alg».proof.Proof.KFrameDefsI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the grid -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The main function is: the operations before the grid, the grid, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the grid touch unscoped buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No operation of this stretch writes an array a window stages: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array a window stages: each writes its own result buffer only. -/
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- So the operations after the grid write no staged array. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- No host operation before the grid writes argument 0: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the grid writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the grid writes argument 1: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the grid writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the grid writes argument 2: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the grid writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the grid writes argument 3: the grid finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the grid writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the grid writes argument 4: the grid finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the grid writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run to the launch's post, the arguments end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## The stores cover each output block -/

/-- One whole-row store covers the row. -/
theorem coverR (p0 : Vec F S1x16000 .f32) (y : S1x16000.Idx) :
    ∃ pc ∈ ([⟨rR, p0⟩] : List (View.Piece (Elt F) S1x16000 .f32)), y ∈ pc.1.set :=
  View.cover_of_tiled [⟨rR, p0⟩] S1x16000.size (by rfl) y

/-! ## The body's triple -/

set_option maxHeartbeats 4000000 in
/-- The body on whole staging buffers, the inputs' at known contents and the outputs' at anything, runs to the
    continuation with the inputs as they were and each output at its function of the inputs. -/
theorem sound_kernel (c : Dev nD) (E : Set ℕ) (i : grid0.Coords)
    (arg1 : Memref sig .tc .vmem S16000x16 .f32) (harg1 : arg1.IsWhole) (arg2 : Memref sig .tc .vmem S1x16 .f32) (harg2 : arg2.IsWhole)
    (arg3 : Memref sig .tc .vmem S1x1 .f32) (harg3 : arg3.IsWhole) (arg4 : Memref sig .tc .vmem S1x16000 .f32) (harg4 : arg4.IsWhole)
    (arg5 : Memref sig .tc .vmem S1x16000 .f32) (harg5 : arg5.IsWhole) (arg6 : Memref sig .tc .vmem S1x16000 .f32) (harg6 : arg6.IsWhole)
    (arg7 : Memref sig .tc .vmem S1x16000 .f32) (harg7 : arg7.IsWhole) (arg8 : Memref sig .tc .vmem S1x16000 .f32) (harg8 : arg8.IsWhole)
    (arg9 : Memref sig .tc .vmem S1x16000 .f32) (harg9 : arg9.IsWhole)
    (x0 : Vec F S16000x16 .f32) (x1 : Vec F S1x16 .f32) (x2 : Vec F S1x1 .f32) (x3 x4 x5 : Vec F S1x16000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2) ∗ owns (c : Thread nD τ) arg8 fullShare (out7 x0 x1 x2 x3)
            ∗ owns (c : Thread nD τ) arg9 fullShare (out8 x0 x1 x2 x4 x5)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverR _)
  isplitl [H7]
  · iexists _; isplitr
    swap; · iexact H7
    ipureintro
    exact View.read_writes_eq_canon _ _ _ (coverR _)
  iexists _; isplitr
  swap; · iexact H8
  ipureintro
  exact View.read_writes_eq_canon _ _ _ (coverR _)

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the main function terminates; every staged array ends at what the launch computes
    from the proof data, and every other unscoped buffer as the operations after the grid leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Fr

end
-- ==== Proof.Spec.lean ====
/-
  What both programs compute, entry by entry, on the extended reals.

  Nodes are numbered 0 … 99999 and edges 0 … 1999999.  Each node carries a concentration, a head count and a
  size; each edge carries two index words (its source and its target) and a flow value, the per-edge linear
  map of its sixteen channels plus a bias (`flow`).

  An index word is used in three ways: *normalised* (`nrm`: a negative word is moved up by the number of
  nodes), *looked up* (`pos`: a table is read at the word taken signed and clamped into the table), and
  *landed* (an update reaches node `n` exactly when the word, taken signed, is `n`; a word outside the
  table reaches nothing).

  Every edge whose two words differ writes twice, first to its source with order number `2e`, then to its
  target with order number `2e + 1`; an edge whose words agree carries order `-1` on both writes.  `mord n` is the largest
  order number that lands on `n` (the smallest 32-bit integer when nothing lands), taken as the larger of
  the largest source order and the largest target order.  A write is *selected* when its edge is valid and
  its order number is the `mord` of the node it looks up.  The accumulated value at `n` is the sum of the
  selected source writes landing on `n` plus the sum of the selected target writes landing on `n`, and the
  node's result is its concentration plus that value plus four head counts over its size.
-/
import Idealize.ShloMosaic.PureOps.Ideal
import Idealize.ShloMosaic.Lib.ValueIdx

noncomputable section

namespace Cert.Spec

open Idealize.ShloMosaic Idealize.ShloMosaic.ValueIdx
open scoped BigOperators

/-- A negative index word is moved up by the number of nodes. -/
def nrm (w : BitVec 32) : BitVec 32 :=
  Scalar.select (IntOp.cmpi .slt w 0#32) (IntOp.addi w 100000#32) w

/-- The table entry a lookup reads for a word: the word taken signed, clamped into `0 … 99999`. -/
def pos (w : BitVec 32) : Fin 100000 := ⟨min w.toInt.toNat (100000 - 1), by omega⟩

/-- The per-edge linear map: the sum over the sixteen channels of input times weight, plus the bias. -/
def flow (x : Fin 2000000 → Fin 16 → EReal) (w : Fin 16 → EReal) (b : EReal) (e : Fin 2000000) : EReal :=
  (∑ k : Fin 16, x e k * w k) + b

/-- The largest update (signed) among those whose word reads `n`, from the smallest 32-bit integer. -/
def smax (idx upd : Fin 2000000 → BitVec 32) (n : Fin 100000) : BitVec 32 :=
  (List.finRange 2000000).foldl
    (fun r k => if (idx k).toInt = (n.val : ℤ) then IntOp.maxsi r (upd k) else r) 2147483648#32

section Node

variable (conc people size : Fin 100000 → EReal) (src dst : Fin 2000000 → BitVec 32) (val : Fin 2000000 → EReal)

/-- An edge is valid when its two words differ. -/
def valid (e : Fin 2000000) : BitVec 1 := IntOp.cmpi .ne (src e) (dst e)

/-- The order number of an edge's write to its source: `2e`, or `-1` on an invalid edge. -/
def ord1 (e : Fin 2000000) : BitVec 32 :=
  Scalar.select (valid src dst e) (IntOp.muli 2#32 (BitVec.ofNat 32 e.val)) 4294967295#32

/-- The order number of an edge's write to its target: `2e + 1`, or `-1` on an invalid edge. -/
def ord2 (e : Fin 2000000) : BitVec 32 :=
  Scalar.select (valid src dst e) (IntOp.addi (IntOp.muli 2#32 (BitVec.ofNat 32 e.val)) 1#32) 4294967295#32

/-- The largest order number landing on node `n`. -/
def mord (n : Fin 100000) : BitVec 32 :=
  IntOp.maxsi (smax src (ord1 src dst) n) (smax dst (ord2 src dst) n)

/-- The write to the source is selected. -/
def sel1 (e : Fin 2000000) : BitVec 1 :=
  IntOp.andi (valid src dst e) (IntOp.cmpi .eq (ord1 src dst e) (mord src dst (pos (nrm (src e)))))

/-- The write to the target is selected. -/
def sel2 (e : Fin 2000000) : BitVec 1 :=
  IntOp.andi (valid src dst e) (IntOp.cmpi .eq (ord2 src dst e) (mord src dst (pos (nrm (dst e)))))

/-- What an edge writes to its source: flow times the source's concentration over the source's size. -/
def v1 (e : Fin 2000000) : EReal :=
  Ideal.div (val e * conc (pos (nrm (src e)))) (size (pos (nrm (src e))))

/-- What an edge writes to its target: flow times the source's concentration over the target's size. -/
def v2 (e : Fin 2000000) : EReal :=
  Ideal.div (val e * conc (pos (nrm (src e)))) (size (pos (nrm (dst e))))

/-- The float word of zero, as both programs carry it. -/
abbrev zeroW : EReal := Ideal.ofBits .f32 0x00000000#32

/-- The float word of four, as both programs carry it. -/
abbrev fourW : EReal := Ideal.ofBits .f32 0x40800000#32

/-- The selected source writes landing on `n`, then the selected target writes landing on `n`. -/
def acc (n : Fin 100000) : EReal :=
  (zeroW + ∑ k : Fin 2000000, if (nrm (src k)).toInt = (n.val : ℤ)
      then Scalar.select (sel1 src dst k) (v1 conc size src val k) zeroW else 0)
    + ∑ k : Fin 2000000, if (nrm (dst k)).toInt = (n.val : ℤ)
      then Scalar.select (sel2 src dst k) (v2 conc size src dst val k) zeroW else 0

/-- A node's result. -/
def node (n : Fin 100000) : EReal :=
  (conc n + acc conc size src dst val n) + Ideal.div (fourW * people n) (size n)

end Node

/-! ## The arrays' coordinates -/

/-- Concentration, head count and size: the last time step's three channels. -/
def concOf (a0 : (⟨3, ![100000, 8, 3]⟩ : Shape).Idx → EReal) (n : Fin 100000) : EReal := a0 (ix3 n (7 : Fin 8) (0 : Fin 3))
def peopleOf (a0 : (⟨3, ![100000, 8, 3]⟩ : Shape).Idx → EReal) (n : Fin 100000) : EReal := a0 (ix3 n (7 : Fin 8) (1 : Fin 3))
def sizeOf (a0 : (⟨3, ![100000, 8, 3]⟩ : Shape).Idx → EReal) (n : Fin 100000) : EReal := a0 (ix3 n (7 : Fin 8) (2 : Fin 3))
/-- The edges' source and target words. -/
def srcOf (a4 : (⟨2, ![2, 2000000]⟩ : Shape).Idx → BitVec 32) (e : Fin 2000000) : BitVec 32 := a4 (ix2 (0 : Fin 2) e)
def dstOf (a4 : (⟨2, ![2, 2000000]⟩ : Shape).Idx → BitVec 32) (e : Fin 2000000) : BitVec 32 := a4 (ix2 (1 : Fin 2) e)
/-- The edges' channels, the weights and the bias. -/
def xOf (a1 : (⟨3, ![2000000, 1, 16]⟩ : Shape).Idx → EReal) (e : Fin 2000000) (k : Fin 16) : EReal := a1 (ix3 e (0 : Fin 1) k)
def wOf (a2 : (⟨4, ![1, 16, 1, 1]⟩ : Shape).Idx → EReal) (k : Fin 16) : EReal := a2 (ix4 (0 : Fin 1) k (0 : Fin 1) (0 : Fin 1))
def bOf (a3 : (⟨1, ![1]⟩ : Shape).Idx → EReal) : EReal := a3 (ix1 (0 : Fin 1))

/-- The flow of every edge, from the argument arrays. -/
def flowOf (a1 : (⟨3, ![2000000, 1, 16]⟩ : Shape).Idx → EReal) (a2 : (⟨4, ![1, 16, 1, 1]⟩ : Shape).Idx → EReal)
    (a3 : (⟨1, ![1]⟩ : Shape).Idx → EReal) : Fin 2000000 → EReal := flow (xOf a1) (wOf a2) (bOf a3)

/-- The first result, `[100000, 1]`: every node's result. -/
def out0 (a0 : (⟨3, ![100000, 8, 3]⟩ : Shape).Idx → EReal) (a1 : (⟨3, ![2000000, 1, 16]⟩ : Shape).Idx → EReal)
    (a2 : (⟨4, ![1, 16, 1, 1]⟩ : Shape).Idx → EReal) (a3 : (⟨1, ![1]⟩ : Shape).Idx → EReal)
    (a4 : (⟨2, ![2, 2000000]⟩ : Shape).Idx → BitVec 32) : (⟨2, ![100000, 1]⟩ : Shape).Idx → EReal :=
  fun i => node (concOf a0) (peopleOf a0) (sizeOf a0) (srcOf a4) (dstOf a4) (flowOf a1 a2 a3) (i 0)

/-- The second result, `[2000000, 1, 1]`: every edge's flow. -/
def out1 (a1 : (⟨3, ![2000000, 1, 16]⟩ : Shape).Idx → EReal) (a2 : (⟨4, ![1, 16, 1, 1]⟩ : Shape).Idx → EReal)
    (a3 : (⟨1, ![1]⟩ : Shape).Idx → EReal) : (⟨3, ![2000000, 1, 1]⟩ : Shape).Idx → EReal :=
  fun i => flowOf a1 a2 a3 (i 0)

end Cert.Spec

end
-- ==== Proof.PreSize.lean ====
/-
  What the precondition gives the value proof: every node's size (the third channel of the node table's last
  time step) is different from zero.  The precondition is a conjunction of "all" tests joined one after the
  other; its last conjunct compares the size column with the zero word for inequality, entry by entry, and asks
  that every comparison hold.  On the extended reals the zero word denotes 0 and the comparison is plain
  inequality.
-/
import proofs.«134914_j48275432407577_2_alg».proof.Pre_finite_inputs
import proofs.«134914_j48275432407577_2_alg».proof.Proof.Spec
import Idealize.ShloMosaic.Lib.ReduceAll
import Idealize.ShloMosaic.Lib.Affine
import Idealize.ShloMosaic.Lib.Pipeline.Value
import Idealize.ShloMosaic.Lib.ValueIdx
import Idealize.ShloMosaic.PureOps.Ideal
import Idealize.ShloMosaic.PureOps.Ideal.Laws

noncomputable section

namespace Cert.PreSize

open Idealize.ShloMosaic Idealize.ShloMosaic.ValueIdx Cert.Pre_finite_inputs

instance : Subsingleton S_.Idx := ⟨fun a b => funext fun d => d.elim0⟩

variable [Cert.Pre_finite_inputs.Facts]
open Cert.Pre_finite_inputs.Facts

/-- The size column, sliced out of the node table and flattened, read at node `n`. -/
theorem size_col (a0 : FVec Ideal S100000x8x3 .f32) (n : Fin 100000) :
    shapeCast S100000 (extractStridedSlice S100000x1x1 ![0, 7, 2] a0 slices_S100000x8x3_S100000x1x1_0_7_2)
        shapeCasts_S100000x1x1_S100000 (ix1 n)
      = a0 (ix3 n (7 : Fin 8) (2 : Fin 3)) := by
  generalize hy : extractStridedSlice S100000x1x1 ![0, 7, 2] a0 slices_S100000x8x3_S100000x1x1_0_7_2 = y
  refine (shapeCast_apply y shapeCasts_S100000x1x1_S100000 (ix1 n) (ix3 n (0 : Fin 1) (0 : Fin 1))
    (by rewrite [Shape.rowMajor_val_three, Shape.rowMajor_val_one]; show (n.val * 1 + 0) * 1 + 0 = n.val; omega)).trans ?_
  subst hy
  exact extractStridedSlice_apply ![0, 7, 2] a0 slices_S100000x8x3_S100000x1x1_0_7_2 (ix3 n (0 : Fin 1) (0 : Fin 1))
    (ix3 n (7 : Fin 8) (2 : Fin 3)) (fun a => match a with
      | ⟨0, _⟩ => by show n.val = 0 + n.val; omega
      | ⟨1, _⟩ => by show 7 = 7 + 0; rfl
      | ⟨2, _⟩ => by show 2 = 2 + 0; rfl)

/-- Under the precondition no node has size zero. -/
theorem size_ne_zero (a0 : FVec Ideal S100000x8x3 .f32) (a1 : FVec Ideal S2000000x1x16 .f32) (a2 : FVec Ideal S1x16x1x1 .f32)
    (a3 : FVec Ideal S1 .f32) (a4 : IVec S2x2000000 32)
    (h : fn (F := Ideal) a0 a1 a2 a3 a4 = fun _ => 1#1) (n : Fin 100000) : Cert.Spec.sizeOf a0 n ≠ 0 := by
  have h0 := congrFun h ix0
  dsimp only [fn, fn_part1] at h0
  have h1 := (IntOp.andi_eq_one.mp h0).2
  have h2 := Host.reduce_andi_all _ _ _ _ ix0 h1 (ix1 n)
  have h3 : Ideal.cmp .une
      (shapeCast S100000 (extractStridedSlice S100000x1x1 ![0, 7, 2] a0 slices_S100000x8x3_S100000x1x1_0_7_2)
        shapeCasts_S100000x1x1_S100000 (ix1 n)) (Ideal.ofBits .f32 0x00000000#32) = 1#1 := h2
  rw [size_col, Ideal.ofBits_zero_f32] at h3
  unfold Cert.Spec.sizeOf
  intro hz
  rw [hz] at h3
  simp [Ideal.cmp] at h3

end Cert.PreSize

end
-- ==== Proof.Bridge.lean ====
/-
  Where the two programs spell a quotient differently.  The reference divides the product `flow · conc` by a
  size; the kernel multiplies the flow by the quotient `conc / size` taken once per node, and multiplies
  `flow · conc` by the reciprocal `1 / size`.  On the extended reals a quotient by a divisor that is not zero
  is the product with the divisor's inverse, so both spellings are the same product by associativity; at a
  zero divisor the quotient is a sign-dependent infinity and the spellings part, which is why the sizes are
  assumed different from zero.
-/
import proofs.«134914_j48275432407577_2_alg».proof.Proof.Spec
import Idealize.ShloMosaic.Lib.IdealHost

noncomputable section

namespace Cert.Bridge

open Idealize.ShloMosaic

/-- A factor moves inside a quotient by a nonzero divisor. -/
theorem mul_div (a c s : EReal) (hs : s ≠ 0) : a * Ideal.div c s = Ideal.div (a * c) s := by
  unfold Ideal.div
  rw [if_neg hs, if_neg hs, mul_assoc]

/-- The product with the reciprocal of a nonzero divisor is the quotient. -/
theorem mul_recip (a s : EReal) (hs : s ≠ 0) : a * Ideal.div (Ideal.ofBits .f32 0x3F800000#32) s = Ideal.div a s := by
  unfold Ideal.div
  rw [if_neg hs, if_neg hs, Ideal.ofBits_one_f32, one_mul]

end Cert.Bridge

end
-- ==== Proof.LibGraphOps.lean ====
/-
  Table lookups and accumulating scatters along one index column, read at an index.

  `E` index words sit in a column `idx : [E, 1]`.
  * A lookup of rows of a table `[N, C]` (or of entries of a vector `[N]`) at those words returns, at `(e, c)`, the
    table's row `min (idx[e,0] read signed, negatives to 0) (N - 1)`, column `c`.
  * An accumulating scatter of updates `[E, C]` (or `[E]`) into `[N, C]` (or `[N]`) adds, at `(n, c)`, the updates
    `(k, c)` of exactly those `k` whose word reads `n` signed; over the extended reals the result is the operand's
    element plus that sum, written here as a sum over all `k` of "the update if the word reads `n`, else zero".
  Stated for every `N`, `E` and `C`.
-/
import Idealize.ShloMosaic.PureOps.Ideal
import Idealize.ShloMosaic.PureOps.Contract
import Idealize.ShloMosaic.Lib.ValueIdx

noncomputable section

namespace Cert.Bridge.GraphOps

open Idealize.ShloMosaic Idealize.ShloMosaic.ValueIdx
open scoped BigOperators

variable {N E C : ℕ}

/-- The vector scatter's dimension numbers: no window axis, the one operand axis inserted and indexed. -/
abbrev scatFlat (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- The row scatter's dimension numbers: the column axis a window axis, the row axis inserted and indexed. -/
abbrev scatRows (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

/-- The vector lookup's dimension numbers. -/
abbrev gathFlat (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row lookup's dimension numbers: whole rows of width `C`. -/
abbrev gathRows (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-! ## A rank-1 index is its one coordinate -/

/-- A rank-1 index is its coordinate. -/
def idxEquiv1 {n : ℕ} : (⟨1, ![n]⟩ : Shape).Idx ≃ Fin n where
  toFun j := j 0
  invFun e := ix1 e
  left_inv j := (eq_ix1 j).symm
  right_inv _ := rfl

/-- … so a sum over rank-1 indices is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## Where an update starts and which window coordinate it carries -/

theorem scatFlat_start (wf) {w : ℕ} (e : Fin E) (idx : IVec ⟨2, ![E, 1]⟩ w) (a : Fin 1) :
    (scatFlat (N := N) (E := E) wf).start (ix1 e) idx a = (idx (ix2 e (0 : Fin 1))).toInt := by
  match a with
  | ⟨0, h0⟩ =>
    unfold ScatterDims.start
    rw [dif_pos (show (⟨0, h0⟩ : Fin 1) ∈ (scatFlat (N := N) (E := E) wf).scatterDimsToOperandDims from
      List.mem_singleton.2 rfl)]
    refine congrArg (fun k => (idx k).toInt) (funext fun b => ?_)
    match b with
    | ⟨0, _⟩ => exact Fin.ext rfl
    | ⟨1, _⟩ => exact Fin.ext rfl

theorem scatFlat_window (wf) (e : Fin E) (a : Fin 1) :
    (scatFlat (N := N) (E := E) wf).window (ix1 e) a = 0 := by
  match a with
  | ⟨0, _⟩ => rfl

theorem scatRows_start_0 (wf) {w : ℕ} (e : Fin E) (z : Fin C) (idx : IVec ⟨2, ![E, 1]⟩ w) :
    (scatRows (N := N) (E := E) (C := C) wf).start (ix2 e z) idx (0 : Fin 2) = (idx (ix2 e (0 : Fin 1))).toInt := by
  unfold ScatterDims.start
  rw [dif_pos (show (0 : Fin 2) ∈ (scatRows (N := N) (E := E) (C := C) wf).scatterDimsToOperandDims from
    List.mem_singleton.2 rfl)]
  refine congrArg (fun k => (idx k).toInt) (funext fun b => ?_)
  match b with
  | ⟨0, _⟩ => exact Fin.ext rfl
  | ⟨1, _⟩ => exact Fin.ext rfl

theorem scatRows_start_1 (wf) {w : ℕ} (e : Fin E) (z : Fin C) (idx : IVec ⟨2, ![E, 1]⟩ w) :
    (scatRows (N := N) (E := E) (C := C) wf).start (ix2 e z) idx (1 : Fin 2) = 0 := by
  unfold ScatterDims.start
  rw [dif_neg (show ¬ (1 : Fin 2) ∈ (scatRows (N := N) (E := E) (C := C) wf).scatterDimsToOperandDims from by
    intro h; exact Nat.one_ne_zero (congrArg Fin.val (List.mem_singleton.1 h)))]

theorem scatRows_window_0 (wf) (e : Fin E) (z : Fin C) :
    (scatRows (N := N) (E := E) (C := C) wf).window (ix2 e z) (0 : Fin 2) = 0 := rfl
theorem scatRows_window_1 (wf) (e : Fin E) (z : Fin C) :
    (scatRows (N := N) (E := E) (C := C) wf).window (ix2 e z) (1 : Fin 2) = z.val := rfl

/-! ## Where an update lands -/

/-- The vector scatter lands update `e` on place `n` exactly when its index word reads `n`. -/
theorem scatFlat_lands (wf) {w : ℕ} (e : Fin E) (idx : IVec ⟨2, ![E, 1]⟩ w) (n : Fin N) :
    (scatFlat (N := N) (E := E) wf).resultIdx? (ix1 e) idx = some (ix1 n)
      ↔ (idx (ix2 e (0 : Fin 1))).toInt = (n.val : ℤ) := by
  unfold ScatterDims.resultIdx?
  constructor
  · intro h
    split at h
    · have hv := congrArg Fin.val (congrFun (Option.some.inj h) (0 : Fin 1))
      have hv' : ((scatFlat (N := N) (E := E) wf).start (ix1 e) idx 0
          + ((scatFlat (N := N) (E := E) wf).window (ix1 e) 0 : ℤ)).toNat = n.val := hv
      rename_i hc
      have h0 := (hc (0 : Fin 1)).1
      rw [scatFlat_start, scatFlat_window] at hv' h0
      omega
    · exact absurd h (by simp)
  · intro h
    have hc : ∀ a, 0 ≤ (scatFlat (N := N) (E := E) wf).start (ix1 e) idx a
          + ((scatFlat (N := N) (E := E) wf).window (ix1 e) a : ℤ) ∧
        (scatFlat (N := N) (E := E) wf).start (ix1 e) idx a
          + ((scatFlat (N := N) (E := E) wf).window (ix1 e) a : ℤ) < ((⟨1, ![N]⟩ : Shape).size a : ℤ) := by
      intro a
      rw [scatFlat_start, scatFlat_window, h]
      match a with
      | ⟨0, _⟩ =>
        have := n.isLt
        show (0 : ℤ) ≤ (n.val : ℤ) + ((0 : ℕ) : ℤ) ∧ (n.val : ℤ) + ((0 : ℕ) : ℤ) < (N : ℤ)
        omega
    rw [dif_pos hc]
    refine congrArg some (funext fun a => Fin.ext ?_)
    match a with
    | ⟨0, _⟩ =>
      show ((scatFlat (N := N) (E := E) wf).start (ix1 e) idx 0
        + ((scatFlat (N := N) (E := E) wf).window (ix1 e) 0 : ℤ)).toNat = n.val
      rw [scatFlat_start, scatFlat_window, h]
      omega

/-- The row scatter lands update `(e, z)` on place `(n, c)` exactly when the index word reads `n` and `z = c`. -/
theorem scatRows_lands (wf) {w : ℕ} (e : Fin E) (z : Fin C) (idx : IVec ⟨2, ![E, 1]⟩ w) (n : Fin N) (c : Fin C) :
    (scatRows (N := N) (E := E) (C := C) wf).resultIdx? (ix2 e z) idx = some (ix2 n c)
      ↔ (idx (ix2 e (0 : Fin 1))).toInt = (n.val : ℤ) ∧ z = c := by
  unfold ScatterDims.resultIdx?
  constructor
  · intro h
    split at h
    · have hv0 := congrArg Fin.val (congrFun (Option.some.inj h) (0 : Fin 2))
      have hv1 := congrArg Fin.val (congrFun (Option.some.inj h) (1 : Fin 2))
      have hv0' : ((scatRows (N := N) (E := E) (C := C) wf).start (ix2 e z) idx 0
          + ((scatRows (N := N) (E := E) (C := C) wf).window (ix2 e z) 0 : ℤ)).toNat = n.val := hv0
      have hv1' : ((scatRows (N := N) (E := E) (C := C) wf).start (ix2 e z) idx 1
          + ((scatRows (N := N) (E := E) (C := C) wf).window (ix2 e z) 1 : ℤ)).toNat = c.val := hv1
      rename_i hc
      have h0 := (hc (0 : Fin 2)).1
      rw [scatRows_start_0, scatRows_window_0] at hv0' h0
      rw [scatRows_start_1, scatRows_window_1] at hv1'
      refine ⟨by omega, Fin.ext (by omega)⟩
    · exact absurd h (by simp)
  · rintro ⟨h, rfl⟩
    have hc : ∀ a, 0 ≤ (scatRows (N := N) (E := E) (C := C) wf).start (ix2 e z) idx a
          + ((scatRows (N := N) (E := E) (C := C) wf).window (ix2 e z) a : ℤ) ∧
        (scatRows (N := N) (E := E) (C := C) wf).start (ix2 e z) idx a
          + ((scatRows (N := N) (E := E) (C := C) wf).window (ix2 e z) a : ℤ)
          < ((⟨2, ![N, C]⟩ : Shape).size a : ℤ) := by
      intro a
      match a with
      | ⟨0, _⟩ =>
        show 0 ≤ (scatRows (N := N) (E := E) (C := C) wf).start (ix2 e z) idx 0
            + ((scatRows (N := N) (E := E) (C := C) wf).window (ix2 e z) 0 : ℤ) ∧
          (scatRows (N := N) (E := E) (C := C) wf).start (ix2 e z) idx 0
            + ((scatRows (N := N) (E := E) (C := C) wf).window (ix2 e z) 0 : ℤ) < (N : ℤ)
        rw [scatRows_start_0, scatRows_window_0, h]
        have := n.isLt
        omega
      | ⟨1, _⟩ =>
        show 0 ≤ (scatRows (N := N) (E := E) (C := C) wf).start (ix2 e z) idx 1
            + ((scatRows (N := N) (E := E) (C := C) wf).window (ix2 e z) 1 : ℤ) ∧
          (scatRows (N := N) (E := E) (C := C) wf).start (ix2 e z) idx 1
            + ((scatRows (N := N) (E := E) (C := C) wf).window (ix2 e z) 1 : ℤ) < (C : ℤ)
        rw [scatRows_start_1, scatRows_window_1]
        have := z.isLt
        omega
    rw [dif_pos hc]
    refine congrArg some (funext fun a => Fin.ext ?_)
    match a with
    | ⟨0, _⟩ =>
      show ((scatRows (N := N) (E := E) (C := C) wf).start (ix2 e z) idx 0
        + ((scatRows (N := N) (E := E) (C := C) wf).window (ix2 e z) 0 : ℤ)).toNat = n.val
      rw [scatRows_start_0, scatRows_window_0, h]
      omega
    | ⟨1, _⟩ =>
      show ((scatRows (N := N) (E := E) (C := C) wf).start (ix2 e z) idx 1
        + ((scatRows (N := N) (E := E) (C := C) wf).window (ix2 e z) 1 : ℤ)).toNat = z.val
      rw [scatRows_start_1, scatRows_window_1]
      omega

/-! ## The scatters read at an index -/

/-- The vector scatter at `n`: the operand's entry plus the updates of the words that read `n`. -/
theorem scatterAdd_flat_apply (wf) {w : ℕ} (x : (⟨1, ![N]⟩ : Shape).Idx → EReal) (idx : IVec ⟨2, ![E, 1]⟩ w)
    (upd : (⟨1, ![E]⟩ : Shape).Idx → EReal) (n : Fin N) :
    Ideal.hostScatterAdd (scatFlat (N := N) (E := E) wf) x idx upd (ix1 n)
      = x (ix1 n) + ∑ k : Fin E, if (idx (ix2 k (0 : Fin 1))).toInt = (n.val : ℤ) then upd (ix1 k) else 0 := by
  unfold Ideal.hostScatterAdd
  rw [Finset.sum_filter, sum_idx1]
  refine congrArg (x (ix1 n) + ·) (Finset.sum_congr rfl fun k _ => ?_)
  exact if_congr (scatFlat_lands wf k idx n) rfl rfl

/-- The row scatter at `(n, c)`: the operand's entry plus the updates `(k, c)` of the words that read `n`. -/
theorem scatterAdd_rows_apply (wf) {w : ℕ} (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (scatRows (N := N) (E := E) (C := C) wf) x idx upd (ix2 n c)
      = x (ix2 n c) + ∑ k : Fin E, if (idx (ix2 k (0 : Fin 1))).toInt = (n.val : ℤ) then upd (ix2 k c) else 0 := by
  unfold Ideal.hostScatterAdd
  rw [Finset.sum_filter, sum_idx2]
  refine congrArg (x (ix2 n c) + ·) (Finset.sum_congr rfl fun k _ => ?_)
  by_cases hk : (idx (ix2 k (0 : Fin 1))).toInt = (n.val : ℤ)
  · rw [if_pos hk]
    have : ∀ z : Fin C, (if (scatRows (N := N) (E := E) (C := C) wf).resultIdx? (ix2 k z) idx = some (ix2 n c)
        then upd (ix2 k z) else 0) = if z = c then upd (ix2 k z) else 0 := fun z =>
      if_congr ((scatRows_lands wf k z idx n c).trans (and_iff_right hk)) rfl rfl
    rw [Finset.sum_congr rfl fun z _ => this z, Finset.sum_ite_eq' Finset.univ c, if_pos (Finset.mem_univ c)]
  · rw [if_neg hk]
    refine Finset.sum_eq_zero fun z _ => ?_
    exact if_neg fun h => hk ((scatRows_lands wf k z idx n c).1 h).1

/-! ## The lookups read at an index -/

/-- The vector lookup at `e`: the entry at the word read signed and clamped into `0 … N-1`. -/
theorem gather_flat_apply {α : Type} (hN : 0 < N) (wf) {w : ℕ} (x : (⟨1, ![N]⟩ : Shape).Idx → α)
    (idx : IVec ⟨2, ![E, 1]⟩ w) (e : Fin E) :
    Host.gather (gathFlat (N := N) (E := E) wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gathFlat (N := N) (E := E) wf).start (ix1 e) idx 0 + (gathFlat (N := N) (E := E) wf).batchCoord (ix1 e) 0
    + (gathFlat (N := N) (E := E) wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat (N := N) (E := E) wf).startIndexMap from List.mem_singleton.mpr rfl)]
  have hsi : (gathFlat (N := N) (E := E) wf).siIdx (ix1 e)
      ⟨List.idxOf (0 : Fin 1) (gathFlat (N := N) (E := E) wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The row lookup at `(e, c)`: column `c` of the row at the word read signed and clamped into `0 … N-1`. -/
theorem gather_rows_apply {α : Type} (hN : 0 < N) (wf) {w : ℕ} (x : (⟨2, ![N, C]⟩ : Shape).Idx → α)
    (idx : IVec ⟨2, ![E, 1]⟩ w) (e : Fin E) (c : Fin C) :
    Host.gather (gathRows (N := N) (E := E) (C := C) wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gathRows (N := N) (E := E) (C := C) wf).start (ix2 e c) idx 0
      + (gathRows (N := N) (E := E) (C := C) wf).batchCoord (ix2 e c) 0
      + (gathRows (N := N) (E := E) (C := C) wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows (N := N) (E := E) (C := C) wf).startIndexMap from
      List.mem_singleton.mpr rfl)]
    have hsi : (gathRows (N := N) (E := E) (C := C) wf).siIdx (ix2 e c)
        ⟨List.idxOf (0 : Fin 2) (gathRows (N := N) (E := E) (C := C) wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gathRows (N := N) (E := E) (C := C) wf).start (ix2 e c) idx 1
      + (gathRows (N := N) (E := E) (C := C) wf).batchCoord (ix2 e c) 1
      + (gathRows (N := N) (E := E) (C := C) wf).offCoord (ix2 e c) 1 = c.val
    rw [GatherDims.batchCoord_eq_zero _ _ _ List.not_mem_nil]
    have hs : (gathRows (N := N) (E := E) (C := C) wf).start (ix2 e c) idx 1 = 0 := by
      unfold GatherDims.start
      rw [dif_neg (show ¬ (1 : Fin 2) ∈ (gathRows (N := N) (E := E) (C := C) wf).startIndexMap from by
        intro h; exact Nat.one_ne_zero (congrArg Fin.val (List.mem_singleton.1 h)))]
    have ho : (gathRows (N := N) (E := E) (C := C) wf).offCoord (ix2 e c) 1 = c.val := rfl
    rw [hs, ho]
    omega

/-- A finite sum of reals, seen in the extended reals, is the sum of the terms seen there. -/
theorem coe_sum {ι : Type} (s : Finset ι) (f : ι → ℝ) : ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

end Cert.Bridge.GraphOps

end
-- ==== Proof.LibConcat1.lean ====
/-
  Two rank-1 arrays joined end to end, read at a position; sums and folds over the joined positions.

  Arrays of extents `E1` and `E2` joined along their one axis give an array of extent `T = E1 + E2`: position `k`
  below `E1` holds the first array's entry `k`, and position `E1 + k` holds the second array's entry `k`.  A sum
  over the `T` positions is the sum over the first `E1` plus the sum over the last `E2`, and a left fold over the `T`
  positions in order is the fold over the last `E2` started from the fold over the first `E1`.
  Stated for every `E1`, `E2` and `T` with `E1 + E2 = T`.
-/
import Idealize.ShloMosaic.Lib.Pipeline.Value
import Idealize.ShloMosaic.Lib.ValueIdx

noncomputable section

namespace Cert.Bridge.Concat1

open Idealize.ShloMosaic Idealize.ShloMosaic.ValueIdx
open scoped BigOperators

variable {E1 E2 T : ℕ}

/-- Position `k` of the first piece, as a position of the joined array. -/
def inl (h : E1 + E2 = T) (k : Fin E1) : Fin T := ⟨k.val, by have := k.isLt; omega⟩

/-- Position `k` of the second piece, as a position of the joined array. -/
def inr (h : E1 + E2 = T) (k : Fin E2) : Fin T := ⟨E1 + k.val, by have := k.isLt; omega⟩

/-! ## The joined array read at a position -/

/-- The joined array at a position of the first piece. -/
theorem concat_inl {α : Type} (h : E1 + E2 = T) (x₁ : (⟨1, ![E1]⟩ : Shape).Idx → α) (x₂ : (⟨1, ![E2]⟩ : Shape).Idx → α)
    (hc : Shape.Concatenates [(⟨1, ![E1]⟩ : Shape), ⟨1, ![E2]⟩] ⟨1, ![T]⟩ 0) (k : Fin E1) :
    concatenate (⟨1, ![T]⟩ : Shape) 0 [⟨⟨1, ![E1]⟩, x₁⟩, ⟨⟨1, ![E2]⟩, x₂⟩] hc (ix1 (inl h k)) = x₁ (ix1 k) :=
  concatenate_pair_apply_left (t := ⟨1, ![T]⟩) (s₁ := ⟨1, ![E1]⟩) (s₂ := ⟨1, ![E2]⟩) 0 x₁ x₂ hc (ix1 (inl h k)) rfl (ix1 k)
    (fun b => match b with | ⟨0, _⟩ => rfl)

/-- The joined array at a position of the second piece. -/
theorem concat_inr {α : Type} (h : E1 + E2 = T) (x₁ : (⟨1, ![E1]⟩ : Shape).Idx → α) (x₂ : (⟨1, ![E2]⟩ : Shape).Idx → α)
    (hc : Shape.Concatenates [(⟨1, ![E1]⟩ : Shape), ⟨1, ![E2]⟩] ⟨1, ![T]⟩ 0) (k : Fin E2) :
    concatenate (⟨1, ![T]⟩ : Shape) 0 [⟨⟨1, ![E1]⟩, x₁⟩, ⟨⟨1, ![E2]⟩, x₂⟩] hc (ix1 (inr h k)) = x₂ (ix1 k) :=
  concatenate_pair_apply_right (t := ⟨1, ![T]⟩) (s₁ := ⟨1, ![E1]⟩) (s₂ := ⟨1, ![E2]⟩) 0 x₁ x₂ hc (ix1 (inr h k)) rfl rfl
    (ix1 k) (fun b hb => match b, hb with | ⟨0, _⟩, hb => absurd rfl hb)
    (show k.val + E1 = E1 + k.val from Nat.add_comm _ _)

/-! ## The joined positions in order -/

/-- The positions `0 … T - 1` are the first piece's followed by the second piece's. -/
theorem finRange_split (h : E1 + E2 = T) :
    List.finRange T = (List.finRange E1).map (inl h) ++ (List.finRange E2).map (inr h) := by
  subst h
  rw [← List.ofFn_id, List.ofFn_add, List.ofFn_eq_map, List.ofFn_eq_map]
  rfl

/-- A left fold over the joined positions: the fold over the second piece's from the fold over the first piece's. -/
theorem foldl_finRange_split {β : Type} (h : E1 + E2 = T) (g : β → Fin T → β) (b : β) :
    (List.finRange T).foldl g b
      = (List.finRange E2).foldl (fun r k => g r (inr h k)) ((List.finRange E1).foldl (fun r k => g r (inl h k)) b) := by
  rw [finRange_split h, List.foldl_append, List.foldl_map, List.foldl_map]

/-- A sum over the joined positions: the first piece's sum plus the second piece's. -/
theorem sum_split {M : Type} [AddCommMonoid M] (h : E1 + E2 = T) (f : Fin T → M) :
    ∑ k : Fin T, f k = ∑ k : Fin E1, f (inl h k) + ∑ k : Fin E2, f (inr h k) := by
  subst h
  rw [Fin.sum_univ_add]
  rfl

end Cert.Bridge.Concat1

end
-- ==== Proof.RefReads.lean ====
/-
  The reference program's stages read at an index, against the specification's entry-by-entry values.

  Every array the reference computes is read at one index and identified with the specification's value there: the
  node channels, the edges' index words, the per-edge flow, the normalised words, the looked-up node values, the two
  written values of an edge, its two order numbers, and the arrays joined end to end.
-/
import proofs.«134914_j48275432407577_2_alg».proof.Proof.Gen.ReferenceIdeal.Read
import proofs.«134914_j48275432407577_2_alg».proof.Proof.Spec
import proofs.«134914_j48275432407577_2_alg».proof.Proof.LibGraphOps
import proofs.«134914_j48275432407577_2_alg».proof.Proof.LibConcat1
import Idealize.ShloMosaic.Lib.IdealHost

noncomputable section

namespace Cert.RefValue

open Cert Cert.ReferenceIdeal Cert.ReferenceIdeal.Read Idealize.ShloMosaic Idealize.ShloMosaic.ValueIdx Cert.Bridge
open scoped BigOperators

/-- The two halves of the joined arrays have two million entries each. -/
theorem hT : 2000000 + 2000000 = 4000000 := rfl

variable (a0 : (⟨S100000x8x3, .f32⟩ : BufTy).Contents (Elt Ideal)) (a1 : (⟨S2000000x1x16, .f32⟩ : BufTy).Contents (Elt Ideal))
  (a2 : (⟨S1x16x1x1, .f32⟩ : BufTy).Contents (Elt Ideal)) (a3 : (⟨S1, .f32⟩ : BufTy).Contents (Elt Ideal))
  (a4 : (⟨S2x2000000, .i32⟩ : BufTy).Contents (Elt Ideal))

/-! ## The node channels -/

theorem v1_at (n : Fin 100000) : val_main_v1 (F := Ideal) a0 (ix1 n) = Spec.concOf a0 n := by
  rw [val_main_v1_apply, val_main_v0_apply]
  exact congrArg a0 (funext fun a => Fin.ext (by
    match a with
    | ⟨0, _⟩ => exact Nat.div_one _
    | ⟨1, _⟩ => rfl
    | ⟨2, _⟩ => rfl))

theorem v3_at (n : Fin 100000) : val_main_v3 (F := Ideal) a0 (ix1 n) = Spec.peopleOf a0 n := by
  rw [val_main_v3_apply, val_main_v2_apply]
  exact congrArg a0 (funext fun a => Fin.ext (by
    match a with
    | ⟨0, _⟩ => exact Nat.div_one _
    | ⟨1, _⟩ => rfl
    | ⟨2, _⟩ => rfl))

theorem v5_at (n : Fin 100000) : val_main_v5 (F := Ideal) a0 (ix1 n) = Spec.sizeOf a0 n := by
  rw [val_main_v5_apply, val_main_v4_apply]
  exact congrArg a0 (funext fun a => Fin.ext (by
    match a with
    | ⟨0, _⟩ => exact Nat.div_one _
    | ⟨1, _⟩ => rfl
    | ⟨2, _⟩ => rfl))

/-! ## The edges' index words -/

theorem v13_at (e : Fin 2000000) : val_main_v13 (F := Ideal) a4 (ix1 e) = Spec.srcOf a4 e := by
  rw [val_main_v13_apply, val_main_v12_apply]
  exact congrArg a4 (funext fun a => Fin.ext (by
    match a with
    | ⟨0, _⟩ => rfl
    | ⟨1, _⟩ => exact Nat.mod_eq_of_lt e.isLt))

theorem v15_at (e : Fin 2000000) : val_main_v15 (F := Ideal) a4 (ix1 e) = Spec.dstOf a4 e := by
  rw [val_main_v15_apply, val_main_v14_apply]
  exact congrArg a4 (funext fun a => Fin.ext (by
    match a with
    | ⟨0, _⟩ => rfl
    | ⟨1, _⟩ => exact Nat.mod_eq_of_lt e.isLt))

/-! ## The per-edge flow -/

theorem v10_at (i : S2000000x1x1.Idx) :
    val_main_v10 (F := Ideal) a1 a2 a3 i = Spec.flowOf a1 a2 a3 (i 0) := by
  rw [val_main_v10_apply, val_main_v7_apply, val_main_v9_apply, val_main_v8_apply]
  show (∑ k : Fin 16, a1 (lidx_main_v7 i k) * val_main_v6 (F := Ideal) a2 (ridx_main_v7 i k))
      + a3 (idx_main_v8 (idx_main_v9 i))
    = (∑ k : Fin 16, Spec.xOf a1 (i 0) k * Spec.wOf a2 k) + Spec.bOf a3
  have h1 : (i 1).val < 1 := (i 1).isLt
  have h2 : (i 2).val < 1 := (i 2).isLt
  congr 1
  · refine Finset.sum_congr rfl fun k _ => ?_
    rw [val_main_v6_apply]
    congr 1
    · exact congrArg a1 (funext fun a => Fin.ext (by
        match a with
        | ⟨0, _⟩ => rfl
        | ⟨1, _⟩ => show (i 1).val = 0; omega
        | ⟨2, _⟩ => rfl))
    · exact congrArg a2 (funext fun a => Fin.ext (by
        match a with
        | ⟨0, _⟩ => rfl
        | ⟨1, _⟩ =>
          have hk : k.val < 16 := k.isLt
          show ((i 2).val * 16 + k.val) / 1 % 16 = k.val
          omega
        | ⟨2, _⟩ => rfl
        | ⟨3, _⟩ => rfl))
  · exact congrArg a3 (funext fun a => Fin.ext (by
      match a with
      | ⟨0, _⟩ => rfl))

theorem v11_at (e : Fin 2000000) : val_main_v11 (F := Ideal) a1 a2 a3 (ix1 e) = Spec.flowOf a1 a2 a3 e := by
  rw [val_main_v11_apply, v10_at]
  exact congrArg (Spec.flowOf a1 a2 a3) (Fin.ext (Nat.div_one _))

/-! ## The normalised words -/

theorem v21_at (e : Fin 2000000) : val_main_v21 (F := Ideal) a4 (ix1 e) = Spec.nrm (Spec.srcOf a4 e) := by
  rw [val_main_v21_apply, val_main_v18_apply, val_main_v20_apply, val_main_v17_apply, val_main_v19_apply,
    val_main_c_apply, val_main_c_0_apply, v13_at]
  rfl

theorem v29_at (e : Fin 2000000) : val_main_v29 (F := Ideal) a4 (ix1 e) = Spec.nrm (Spec.srcOf a4 e) := by
  rw [val_main_v29_apply, val_main_v26_apply, val_main_v28_apply, val_main_v25_apply, val_main_v27_apply,
    val_main_c_1_apply, val_main_c_2_apply, v13_at]
  rfl

theorem v37_at (e : Fin 2000000) : val_main_v37 (F := Ideal) a4 (ix1 e) = Spec.nrm (Spec.srcOf a4 e) := by
  rw [val_main_v37_apply, val_main_v34_apply, val_main_v36_apply, val_main_v33_apply, val_main_v35_apply,
    val_main_c_3_apply, val_main_c_4_apply, v13_at]
  rfl

theorem v45_at (e : Fin 2000000) : val_main_v45 (F := Ideal) a4 (ix1 e) = Spec.nrm (Spec.dstOf a4 e) := by
  rw [val_main_v45_apply, val_main_v42_apply, val_main_v44_apply, val_main_v41_apply, val_main_v43_apply,
    val_main_c_5_apply, val_main_c_6_apply, v15_at]
  rfl

/-- The column of index words made from a vector of two million words, at row `e`. -/
theorem col2M (e : Fin 2000000) (i : S2000000x1.Idx) (hi : i = ix2 e (0 : Fin 1)) :
    (fun a => match a with | ⟨0, _⟩ => ⟨(i 0).val, (i 0).isLt⟩ : S2000000.Idx) = ix1 e := by
  subst hi
  exact funext fun a => by match a with | ⟨0, _⟩ => rfl

theorem v22_at (e : Fin 2000000) :
    val_main_v22 (F := Ideal) a4 (ix2 e (0 : Fin 1)) = Spec.nrm (Spec.srcOf a4 e) := by
  rw [val_main_v22_apply, show idx_main_v22 (ix2 e (0 : Fin 1)) = ix1 e from col2M e _ rfl, v21_at]

theorem v30_at (e : Fin 2000000) :
    val_main_v30 (F := Ideal) a4 (ix2 e (0 : Fin 1)) = Spec.nrm (Spec.srcOf a4 e) := by
  rw [val_main_v30_apply, show idx_main_v30 (ix2 e (0 : Fin 1)) = ix1 e from col2M e _ rfl, v29_at]

theorem v38_at (e : Fin 2000000) :
    val_main_v38 (F := Ideal) a4 (ix2 e (0 : Fin 1)) = Spec.nrm (Spec.srcOf a4 e) := by
  rw [val_main_v38_apply, show idx_main_v38 (ix2 e (0 : Fin 1)) = ix1 e from col2M e _ rfl, v37_at]

theorem v46_at (e : Fin 2000000) :
    val_main_v46 (F := Ideal) a4 (ix2 e (0 : Fin 1)) = Spec.nrm (Spec.dstOf a4 e) := by
  rw [val_main_v46_apply, show idx_main_v46 (ix2 e (0 : Fin 1)) = ix1 e from col2M e _ rfl, v45_at]

/-! ## The lookups of node values -/

/-- A lookup in a table of one hundred thousand entries through a column of two million words, at row `e`. -/
theorem gather2M_at {α : Type} (x : S100000.Idx → α) (idx : S2000000x1.Idx → BitVec 32) (e : Fin 2000000) :
    Host.gather gather_S100000_S2000000x1_S2000000_n_0_n_n_0_1_1 x idx (ix1 e)
      = x (ix1 (Spec.pos (idx (ix2 e (0 : Fin 1))))) :=
  GraphOps.gather_flat_apply (N := 100000) (E := 2000000) (by decide) _ x idx e

/-- … and through a column of four million words. -/
theorem gather4M_at {α : Type} (x : S100000.Idx → α) (idx : S4000000x1.Idx → BitVec 32) (j : Fin 4000000) :
    Host.gather gather_S100000_S4000000x1_S4000000_n_0_n_n_0_1_1 x idx (ix1 j)
      = x (ix1 (Spec.pos (idx (ix2 j (0 : Fin 1))))) :=
  GraphOps.gather_flat_apply (N := 100000) (E := 4000000) (by decide) _ x idx j

theorem v23_at (e : Fin 2000000) :
    val_main_v23 (F := Ideal) a0 a4 (ix1 e) = Spec.concOf a0 (Spec.pos (Spec.nrm (Spec.srcOf a4 e))) := by
  unfold val_main_v23
  rw [gather2M_at, v1_at, v22_at]

theorem v31_at (e : Fin 2000000) :
    val_main_v31 (F := Ideal) a0 a4 (ix1 e) = Spec.sizeOf a0 (Spec.pos (Spec.nrm (Spec.srcOf a4 e))) := by
  unfold val_main_v31
  rw [gather2M_at, v5_at, v30_at]

theorem v39_at (e : Fin 2000000) :
    val_main_v39 (F := Ideal) a0 a4 (ix1 e) = Spec.concOf a0 (Spec.pos (Spec.nrm (Spec.srcOf a4 e))) := by
  unfold val_main_v39
  rw [gather2M_at, v1_at, v38_at]

theorem v47_at (e : Fin 2000000) :
    val_main_v47 (F := Ideal) a0 a4 (ix1 e) = Spec.sizeOf a0 (Spec.pos (Spec.nrm (Spec.dstOf a4 e))) := by
  unfold val_main_v47
  rw [gather2M_at, v5_at, v46_at]

/-! ## What an edge writes to its source and to its target -/

theorem v32_at (e : Fin 2000000) :
    val_main_v32 (F := Ideal) a0 a1 a2 a3 a4 (ix1 e)
      = Spec.v1 (Spec.concOf a0) (Spec.sizeOf a0) (Spec.srcOf a4) (Spec.flowOf a1 a2 a3) e := by
  rw [val_main_v32_apply, val_main_v24_apply, v11_at, v23_at, v31_at]
  rfl

theorem v48_at (e : Fin 2000000) :
    val_main_v48 (F := Ideal) a0 a1 a2 a3 a4 (ix1 e)
      = Spec.v2 (Spec.concOf a0) (Spec.sizeOf a0) (Spec.srcOf a4) (Spec.dstOf a4) (Spec.flowOf a1 a2 a3) e := by
  rw [val_main_v48_apply, val_main_v40_apply, v11_at, v39_at, v47_at]
  rfl

/-! ## The order numbers -/

theorem v54_at (e : Fin 2000000) :
    val_main_v54 (F := Ideal) a4 (ix1 e) = Spec.ord1 (Spec.srcOf a4) (Spec.dstOf a4) e := by
  rw [val_main_v54_apply, val_main_v16_apply, val_main_v53_apply, val_main_v52_apply, val_main_c_7_apply,
    val_main_v49_apply, val_main_call0_v1_apply, val_main_call0_v0_apply, val_main_c_8_apply, v13_at, v15_at]
  rfl

theorem v59_at (e : Fin 2000000) :
    val_main_v59 (F := Ideal) a4 (ix1 e) = Spec.ord2 (Spec.srcOf a4) (Spec.dstOf a4) e := by
  rw [val_main_v59_apply, val_main_v16_apply, val_main_v58_apply, val_main_v56_apply, val_main_v55_apply,
    val_main_c_9_apply, val_main_v49_apply, val_main_v57_apply, val_main_c_10_apply, val_main_call1_v1_apply,
    val_main_call1_v0_apply, val_main_c_11_apply, v13_at, v15_at]
  rfl

/-! ## The joined arrays -/

theorem v50_inl (k : Fin 2000000) :
    val_main_v50 (F := Ideal) a4 (ix1 (Concat1.inl hT k)) = Spec.srcOf a4 k := by
  unfold val_main_v50
  exact (Concat1.concat_inl hT _ _ _ k).trans (v13_at a4 k)

theorem v50_inr (k : Fin 2000000) :
    val_main_v50 (F := Ideal) a4 (ix1 (Concat1.inr hT k)) = Spec.dstOf a4 k := by
  unfold val_main_v50
  exact (Concat1.concat_inr hT _ _ _ k).trans (v15_at a4 k)

theorem v60_inl (k : Fin 2000000) :
    val_main_v60 (F := Ideal) a4 (ix1 (Concat1.inl hT k)) = Spec.ord1 (Spec.srcOf a4) (Spec.dstOf a4) k := by
  unfold val_main_v60
  exact (Concat1.concat_inl hT _ _ _ k).trans (v54_at a4 k)

theorem v60_inr (k : Fin 2000000) :
    val_main_v60 (F := Ideal) a4 (ix1 (Concat1.inr hT k)) = Spec.ord2 (Spec.srcOf a4) (Spec.dstOf a4) k := by
  unfold val_main_v60
  exact (Concat1.concat_inr hT _ _ _ k).trans (v59_at a4 k)

theorem v51_inl (k : Fin 2000000) :
    val_main_v51 (F := Ideal) a0 a1 a2 a3 a4 (ix1 (Concat1.inl hT k))
      = Spec.v1 (Spec.concOf a0) (Spec.sizeOf a0) (Spec.srcOf a4) (Spec.flowOf a1 a2 a3) k := by
  unfold val_main_v51
  exact (Concat1.concat_inl hT _ _ _ k).trans (v32_at a0 a1 a2 a3 a4 k)

theorem v51_inr (k : Fin 2000000) :
    val_main_v51 (F := Ideal) a0 a1 a2 a3 a4 (ix1 (Concat1.inr hT k))
      = Spec.v2 (Spec.concOf a0) (Spec.sizeOf a0) (Spec.srcOf a4) (Spec.dstOf a4) (Spec.flowOf a1 a2 a3) k := by
  unfold val_main_v51
  exact (Concat1.concat_inr hT _ _ _ k).trans (v48_at a0 a1 a2 a3 a4 k)

end Cert.RefValue

end
-- ==== Proof.LibScatterMax.lean ====
/-
  The integer max-scatter along one index column, read at an index.

  `E` update words are scattered into a vector of `N` words through a column `idx : [E, 1]` of index words; update
  `k` meets place `n` exactly when its index word, read signed, is `n`.  The scatter is a left fold over the updates in
  order, so the result at `n` is the left fold, from the operand's entry at `n`, of "combine with update `k` when
  word `k` reads `n`".  For the signed maximum, whose neutral element is the smallest 32-bit integer, the fold over two
  batches of updates joined end to end is the maximum of the two batches' folds.
  Stated for every `N` and `E`.
-/
import Idealize.ShloMosaic.PureOps.Ideal
import Idealize.ShloMosaic.PureOps.Reduce
import Idealize.ShloMosaic.Lib.ValueIdx
import proofs.«134914_j48275432407577_2_alg».proof.Proof.LibGraphOps

noncomputable section

namespace Cert.Bridge.ScatterMax

open Idealize.ShloMosaic Idealize.ShloMosaic.ValueIdx Cert.Bridge.GraphOps

variable {N E : ℕ}

/-! ## The rank-1 update indices in row-major order are `0, 1, …, E - 1` -/

/-- The coordinate of the `m`-th rank-1 index in row-major order. -/
def pos1 (E : ℕ) (m : Fin (⟨1, ![E]⟩ : Shape).numel) : Fin E := ((⟨1, ![E]⟩ : Shape).rowMajor.symm m) 0

/-- The `m`-th rank-1 index in row-major order is the index with that coordinate. -/
theorem symm_eq_ix1 (E : ℕ) (m : Fin (⟨1, ![E]⟩ : Shape).numel) :
    (⟨1, ![E]⟩ : Shape).rowMajor.symm m = ix1 (pos1 E m) := eq_ix1 _

/-- The coordinate of the `m`-th index is `m`. -/
theorem pos1_val (E : ℕ) (m : Fin (⟨1, ![E]⟩ : Shape).numel) : (pos1 E m).val = m.val := by
  have := Shape.rowMajor_val_one (d := ![E]) ((⟨1, ![E]⟩ : Shape).rowMajor.symm m)
  rw [Equiv.apply_symm_apply] at this
  exact this.symm

/-- The row-major enumeration of a rank-1 shape's indices lists the coordinates `0 … E - 1` in order. -/
theorem finRange_numel_map (E : ℕ) :
    (List.finRange (⟨1, ![E]⟩ : Shape).numel).map (pos1 E) = List.finRange E := by
  apply List.map_injective_iff.2 Fin.val_injective
  rw [List.map_map]
  have h : (Fin.val ∘ pos1 E) = fun m => m.val := funext fun m => pos1_val E m
  rw [h]
  exact List.map_coe_finRange_eq_range.trans
    ((congrArg List.range (Shape.numel_rank1 ![E])).trans List.map_coe_finRange_eq_range.symm)

/-! ## The scatter's fold, read at one place -/

/-- The scatter along one index column at place `n`, for any combining function: the left fold over the updates in
    order, from the operand's entry at `n`, combining update `k` in exactly when its index word reads `n`. -/
theorem scatter_flat_apply (wf) {α : Type} {w : ℕ} (f : α → α → α) (x : (⟨1, ![N]⟩ : Shape).Idx → α)
    (idx : IVec ⟨2, ![E, 1]⟩ w) (upd : (⟨1, ![E]⟩ : Shape).Idx → α) (n : Fin N) :
    Host.scatter (scatFlat (N := N) (E := E) wf) f x idx upd (ix1 n)
      = (List.finRange E).foldl (fun r k =>
          if (idx (ix2 k (0 : Fin 1))).toInt = (n.val : ℤ) then f r (upd (ix1 k)) else r) (x (ix1 n)) := by
  unfold Host.scatter
  rw [← finRange_numel_map E, List.foldl_map]
  generalize List.finRange (⟨1, ![E]⟩ : Shape).numel = l
  induction l generalizing x with
  | nil => rfl
  | cons m l ih =>
    rw [List.foldl_cons, List.foldl_cons, ih]
    congr 1
    rw [symm_eq_ix1 E m]
    generalize pos1 E m = e
    have hl := scatFlat_lands (N := N) wf e idx n
    cases hres : (scatFlat (N := N) (E := E) wf).resultIdx? (ix1 e) idx with
    | none =>
      rw [hres] at hl
      rw [if_neg (fun h => Option.some_ne_none _ (hl.2 h).symm)]
    | some i =>
      rw [hres] at hl
      dsimp only
      by_cases hi : ix1 n = i
      · rw [if_pos hi, if_pos (hl.1 (congrArg some hi.symm)), hi]
      · rw [if_neg hi, if_neg (fun h => hi (Option.some.inj (hl.2 h)).symm)]

/-- The integer max-scatter along one index column at place `n`. -/
theorem scatterMax_flat_apply (wf) {w : ℕ} (x : (⟨1, ![N]⟩ : Shape).Idx → BitVec 32) (idx : IVec ⟨2, ![E, 1]⟩ w)
    (upd : (⟨1, ![E]⟩ : Shape).Idx → BitVec 32) (n : Fin N) :
    Host.scatter (scatFlat (N := N) (E := E) wf) IntOp.maxsi x idx upd (ix1 n)
      = (List.finRange E).foldl (fun r k =>
          if (idx (ix2 k (0 : Fin 1))).toInt = (n.val : ℤ) then IntOp.maxsi r (upd (ix1 k)) else r) (x (ix1 n)) :=
  scatter_flat_apply wf IntOp.maxsi x idx upd n

/-! ## Folds of the signed maximum -/

/-- The smallest 32-bit integer is neutral for the signed maximum, on the left. -/
theorem maxsi_min_left (y : BitVec 32) : IntOp.maxsi 2147483648#32 y = y := by
  unfold IntOp.maxsi
  refine if_neg ?_
  rw [BitVec.slt_eq_decide, decide_eq_true_eq]
  have h1 := BitVec.le_toInt y
  have h2 : (2147483648#32).toInt = -2147483648 := by decide
  rw [h2]
  norm_num at h1
  omega

/-- … and on the right. -/
theorem maxsi_min_right (y : BitVec 32) : IntOp.maxsi y 2147483648#32 = y := by
  rw [Std.Commutative.comm (op := IntOp.maxsi (w := 32)), maxsi_min_left]

/-- A conditional fold of the signed maximum from any start is the maximum of the start and the same fold from the
    smallest integer. -/
theorem foldl_maxsi_start {ι : Type} (p : ι → Prop) [DecidablePred p] (u : ι → BitVec 32) (l : List ι)
    (a : BitVec 32) :
    l.foldl (fun r k => if p k then IntOp.maxsi r (u k) else r) a
      = IntOp.maxsi a (l.foldl (fun r k => if p k then IntOp.maxsi r (u k) else r) 2147483648#32) := by
  induction l generalizing a with
  | nil => exact (maxsi_min_right a).symm
  | cons k l ih =>
    rw [List.foldl_cons, List.foldl_cons, ih, ih (if p k then IntOp.maxsi 2147483648#32 (u k) else 2147483648#32)]
    by_cases hk : p k
    · rw [if_pos hk, if_pos hk, maxsi_min_left, Std.Associative.assoc (op := IntOp.maxsi (w := 32))]
    · rw [if_neg hk, if_neg hk, maxsi_min_left]

/-- Two batches of updates folded one after the other from the smallest integer: the maximum of the two batches' own
    folds. This is the max-scatter of two update arrays joined end to end against the two arrays scattered apart. -/
theorem foldl_maxsi_two {ι κ : Type} (p : ι → Prop) [DecidablePred p] (u : ι → BitVec 32) (l : List ι)
    (q : κ → Prop) [DecidablePred q] (v : κ → BitVec 32) (m : List κ) :
    m.foldl (fun r k => if q k then IntOp.maxsi r (v k) else r)
        (l.foldl (fun r k => if p k then IntOp.maxsi r (u k) else r) 2147483648#32)
      = IntOp.maxsi (l.foldl (fun r k => if p k then IntOp.maxsi r (u k) else r) 2147483648#32)
          (m.foldl (fun r k => if q k then IntOp.maxsi r (v k) else r) 2147483648#32) :=
  foldl_maxsi_start q v m _

end Cert.Bridge.ScatterMax

end
-- ==== Proof.RefValue.lean ====
/-
  The reference program's two results are the specification's.

  The largest order number landing on a node is read off the reference's one max-scatter over the four million joined
  order numbers; the selection the reference computes on the joined arrays is the specification's on each half; the
  accumulating scatter over the four million joined updates is the sum over the source writes plus the sum over the
  target writes; and the node's result is assembled from these.
-/
import proofs.«134914_j48275432407577_2_alg».proof.Proof.RefReads
import proofs.«134914_j48275432407577_2_alg».proof.Proof.LibScatterMax

noncomputable section

namespace Cert.RefValue

open Cert Cert.ReferenceIdeal Cert.ReferenceIdeal.Read Idealize.ShloMosaic Idealize.ShloMosaic.ValueIdx Cert.Bridge
open scoped BigOperators

/-! ## Order numbers as signed words -/

/-- Twice an edge number, as a signed 32-bit word, is twice the edge number. -/
theorem toInt_two_mul (e : Fin 2000000) :
    (IntOp.muli 2#32 (BitVec.ofNat 32 e.val)).toInt = 2 * (e.val : ℤ) := by
  have he : e.val < 2000000 := e.isLt
  have hn : (IntOp.muli 2#32 (BitVec.ofNat 32 e.val)).toNat = 2 * e.val := by
    show (2#32 * BitVec.ofNat 32 e.val).toNat = 2 * e.val
    rw [BitVec.toNat_mul, BitVec.toNat_ofNat, BitVec.toNat_ofNat]
    norm_num
    omega
  rw [BitVec.toInt_eq_toNat_of_lt (by rw [hn]; norm_num; omega), hn]
  push_cast
  ring

/-- Twice an edge number plus one, as a signed 32-bit word, is that number. -/
theorem toInt_two_mul_add_one (e : Fin 2000000) :
    (IntOp.addi (IntOp.muli 2#32 (BitVec.ofNat 32 e.val)) 1#32).toInt = 2 * (e.val : ℤ) + 1 := by
  have he : e.val < 2000000 := e.isLt
  have hn : (IntOp.addi (IntOp.muli 2#32 (BitVec.ofNat 32 e.val)) 1#32).toNat = 2 * e.val + 1 := by
    show (2#32 * BitVec.ofNat 32 e.val + 1#32).toNat = 2 * e.val + 1
    rw [BitVec.toNat_add, BitVec.toNat_mul, BitVec.toNat_ofNat, BitVec.toNat_ofNat, BitVec.toNat_ofNat]
    norm_num
    omega
  rw [BitVec.toInt_eq_toNat_of_lt (by rw [hn]; norm_num; omega), hn]
  push_cast
  ring

variable (src dst : Fin 2000000 → BitVec 32)

/-- An edge's first order number is non-negative exactly when the edge is valid. -/
theorem sge_ord1 (e : Fin 2000000) : IntOp.cmpi .sge (Spec.ord1 src dst e) 0#32 = Spec.valid src dst e := by
  unfold Spec.ord1 Scalar.select
  rcases BitVec.eq_zero_or_eq_one (Spec.valid src dst e) with h | h
  · rw [h, if_neg (by decide)]
    decide
  · rw [h, if_pos (show (1#1 : BitVec 1) = 1 from rfl)]
    show BitVec.ofBool ((0#32).sle (IntOp.muli 2#32 (BitVec.ofNat 32 e.val))) = 1#1
    rw [BitVec.sle_eq_decide, toInt_two_mul, BitVec.toInt_zero, decide_eq_true (by omega)]
    rfl

/-- An edge's second order number is non-negative exactly when the edge is valid. -/
theorem sge_ord2 (e : Fin 2000000) : IntOp.cmpi .sge (Spec.ord2 src dst e) 0#32 = Spec.valid src dst e := by
  unfold Spec.ord2 Scalar.select
  rcases BitVec.eq_zero_or_eq_one (Spec.valid src dst e) with h | h
  · rw [h, if_neg (by decide)]
    decide
  · rw [h, if_pos (show (1#1 : BitVec 1) = 1 from rfl)]
    show BitVec.ofBool ((0#32).sle (IntOp.addi (IntOp.muli 2#32 (BitVec.ofNat 32 e.val)) 1#32)) = 1#1
    rw [BitVec.sle_eq_decide, toInt_two_mul_add_one, BitVec.toInt_zero, decide_eq_true (by omega)]
    rfl

variable (a0 : (⟨S100000x8x3, .f32⟩ : BufTy).Contents (Elt Ideal)) (a1 : (⟨S2000000x1x16, .f32⟩ : BufTy).Contents (Elt Ideal))
  (a2 : (⟨S1x16x1x1, .f32⟩ : BufTy).Contents (Elt Ideal)) (a3 : (⟨S1, .f32⟩ : BufTy).Contents (Elt Ideal))
  (a4 : (⟨S2x2000000, .i32⟩ : BufTy).Contents (Elt Ideal))

/-! ## The largest order number landing on a node -/

theorem v62_at (j : Fin 4000000) :
    val_main_v62 (F := Ideal) a4 (ix2 j (0 : Fin 1)) = val_main_v50 (F := Ideal) a4 (ix1 j) := by
  rw [val_main_v62_apply]
  exact congrArg (val_main_v50 (F := Ideal) a4) (funext fun a => by match a with | ⟨0, _⟩ => rfl)

theorem v63_at (n : Fin 100000) :
    val_main_v63 (F := Ideal) a4 (ix1 n) = Spec.mord (Spec.srcOf a4) (Spec.dstOf a4) n := by
  unfold val_main_v63
  refine (ScatterMax.scatterMax_flat_apply (N := 100000) (E := 4000000) _ _ _ _ n).trans ?_
  rw [Concat1.foldl_finRange_split hT, val_main_v61_apply, val_main_c_12_apply]
  unfold Spec.mord Spec.smax
  generalize List.finRange 2000000 = l
  simp only [v62_at, v50_inl, v50_inr, v60_inl, v60_inr]
  exact ScatterMax.foldl_maxsi_two (fun k => (Spec.srcOf a4 k).toInt = (n.val : ℤ))
    (Spec.ord1 (Spec.srcOf a4) (Spec.dstOf a4)) l (fun k => (Spec.dstOf a4 k).toInt = (n.val : ℤ))
    (Spec.ord2 (Spec.srcOf a4) (Spec.dstOf a4)) l

/-! ## The selection on the joined arrays -/

theorem v70_at (j : Fin 4000000) :
    val_main_v70 (F := Ideal) a4 (ix1 j) = Spec.nrm (val_main_v50 (F := Ideal) a4 (ix1 j)) := by
  rw [val_main_v70_apply, val_main_v67_apply, val_main_v69_apply, val_main_v66_apply, val_main_v68_apply,
    val_main_c_14_apply, val_main_c_15_apply]
  rfl

theorem v81_at (j : Fin 4000000) :
    val_main_v81 (F := Ideal) a4 (ix1 j) = Spec.nrm (val_main_v50 (F := Ideal) a4 (ix1 j)) := by
  rw [val_main_v81_apply, val_main_v78_apply, val_main_v80_apply, val_main_v77_apply, val_main_v79_apply,
    val_main_c_17_apply, val_main_c_18_apply]
  rfl

theorem v71_at (j : Fin 4000000) :
    val_main_v71 (F := Ideal) a4 (ix2 j (0 : Fin 1)) = Spec.nrm (val_main_v50 (F := Ideal) a4 (ix1 j)) := by
  rw [val_main_v71_apply,
    show idx_main_v71 (ix2 j (0 : Fin 1)) = ix1 j from funext fun a => by match a with | ⟨0, _⟩ => rfl, v70_at]

theorem v82_at (j : Fin 4000000) :
    val_main_v82 (F := Ideal) a4 (ix2 j (0 : Fin 1)) = Spec.nrm (val_main_v50 (F := Ideal) a4 (ix1 j)) := by
  rw [val_main_v82_apply,
    show idx_main_v82 (ix2 j (0 : Fin 1)) = ix1 j from funext fun a => by match a with | ⟨0, _⟩ => rfl, v81_at]

theorem v72_at (j : Fin 4000000) :
    val_main_v72 (F := Ideal) a4 (ix1 j)
      = Spec.mord (Spec.srcOf a4) (Spec.dstOf a4) (Spec.pos (Spec.nrm (val_main_v50 (F := Ideal) a4 (ix1 j)))) := by
  unfold val_main_v72
  rw [gather4M_at, v63_at, v71_at]

theorem v74_at (j : Fin 4000000) :
    val_main_v74 (F := Ideal) a4 (ix1 j)
      = IntOp.andi (IntOp.cmpi .sge (val_main_v60 (F := Ideal) a4 (ix1 j)) 0#32)
          (IntOp.cmpi .eq (val_main_v60 (F := Ideal) a4 (ix1 j))
            (Spec.mord (Spec.srcOf a4) (Spec.dstOf a4)
              (Spec.pos (Spec.nrm (val_main_v50 (F := Ideal) a4 (ix1 j)))))) := by
  rw [val_main_v74_apply, val_main_v65_apply, val_main_v73_apply, val_main_v64_apply, val_main_c_13_apply, v72_at]

theorem v74_inl (k : Fin 2000000) :
    val_main_v74 (F := Ideal) a4 (ix1 (Concat1.inl hT k)) = Spec.sel1 (Spec.srcOf a4) (Spec.dstOf a4) k := by
  unfold Spec.sel1
  rw [v74_at, v60_inl, v50_inl, sge_ord1]

theorem v74_inr (k : Fin 2000000) :
    val_main_v74 (F := Ideal) a4 (ix1 (Concat1.inr hT k)) = Spec.sel2 (Spec.srcOf a4) (Spec.dstOf a4) k := by
  unfold Spec.sel2
  rw [v74_at, v60_inr, v50_inr, sge_ord2]

theorem v76_inl (k : Fin 2000000) :
    val_main_v76 (F := Ideal) a0 a1 a2 a3 a4 (ix1 (Concat1.inl hT k))
      = Scalar.select (Spec.sel1 (Spec.srcOf a4) (Spec.dstOf a4) k)
          (Spec.v1 (Spec.concOf a0) (Spec.sizeOf a0) (Spec.srcOf a4) (Spec.flowOf a1 a2 a3) k) Spec.zeroW := by
  rw [val_main_v76_apply, v74_inl, v51_inl, val_main_call2_v1_apply, val_main_call2_v0_apply,
    val_main_cst_16_apply]
  first | done | rfl

theorem v76_inr (k : Fin 2000000) :
    val_main_v76 (F := Ideal) a0 a1 a2 a3 a4 (ix1 (Concat1.inr hT k))
      = Scalar.select (Spec.sel2 (Spec.srcOf a4) (Spec.dstOf a4) k)
          (Spec.v2 (Spec.concOf a0) (Spec.sizeOf a0) (Spec.srcOf a4) (Spec.dstOf a4) (Spec.flowOf a1 a2 a3) k)
          Spec.zeroW := by
  rw [val_main_v76_apply, v74_inr, v51_inr, val_main_call2_v1_apply, val_main_call2_v0_apply,
    val_main_cst_16_apply]
  first | done | rfl

/-! ## The accumulated value at a node -/

theorem v75_at (n : Fin 100000) : val_main_v75 (F := Ideal) (ix1 n) = Spec.zeroW := by
  rw [val_main_v75_apply, val_main_cst_apply]
  rfl

/-- At the extended reals the host's accumulating scatter is the exact sum over the updates that land. -/
theorem scatterAdd_eq {s si u : Shape} {φ : FTy} {w : ℕ} (d : ScatterDims s si u) (x : FVec Ideal s φ)
    (idx : IVec si w) (upd : FVec Ideal u φ) :
    Host.scatterAdd d x idx upd = Ideal.hostScatterAdd d x idx upd := rfl

theorem v83_at (n : Fin 100000) :
    val_main_v83 (F := Ideal) a0 a1 a2 a3 a4 (ix1 n)
      = Spec.acc (Spec.concOf a0) (Spec.sizeOf a0) (Spec.srcOf a4) (Spec.dstOf a4) (Spec.flowOf a1 a2 a3) n := by
  unfold val_main_v83
  rw [scatterAdd_eq]
  refine (GraphOps.scatterAdd_flat_apply (N := 100000) (E := 4000000) _ _ _ _ n).trans ?_
  rw [Concat1.sum_split hT, v75_at, ← add_assoc]
  unfold Spec.acc
  simp only [v82_at, v50_inl, v50_inr, v76_inl, v76_inr]

/-! ## The node's result -/

theorem v86_at (n : Fin 100000) :
    val_main_v86 (F := Ideal) a0 (ix1 n)
      = Ideal.div (Spec.fourW * Spec.peopleOf a0 n) (Spec.sizeOf a0 n) := by
  rw [val_main_v86_apply, val_main_v85_apply, val_main_v84_apply, val_main_cst_19_apply, v3_at, v5_at,
    Ideal.hostDivf_def, Ideal.mulf_def, Ideal.ofBits_def]

theorem v88_at (n : Fin 100000) :
    val_main_v88 (F := Ideal) a0 a1 a2 a3 a4 (ix1 n)
      = Spec.node (Spec.concOf a0) (Spec.peopleOf a0) (Spec.sizeOf a0) (Spec.srcOf a4) (Spec.dstOf a4)
          (Spec.flowOf a1 a2 a3) n := by
  unfold Spec.node
  rw [val_main_v88_apply, val_main_v87_apply, v1_at, v83_at, v86_at, Ideal.addf_def, Ideal.addf_def]

/-- The reference's first result is the specification's: every node's result. -/
theorem ref_out0 : val_main_v89 (F := Ideal) a0 a1 a2 a3 a4 = Cert.Spec.out0 a0 a1 a2 a3 a4 := by
  funext i
  obtain ⟨n, m, rfl⟩ : ∃ (n : Fin 100000) (m : Fin 1), i = ix2 n m := ⟨i 0, i 1, eq_ix2 i⟩
  rw [val_main_v89_apply,
    show idx_main_v89 (ix2 n m) = ix1 n from funext fun a => by match a with | ⟨0, _⟩ => rfl, v88_at]
  rfl

/-- The reference's second result is the specification's: every edge's flow. -/
theorem ref_out1 : val_main_v10 (F := Ideal) a1 a2 a3 = Cert.Spec.out1 a1 a2 a3 :=
  funext fun i => v10_at a1 a2 a3 i

end Cert.RefValue

end
-- ==== Proof.LibPaddedProduct.lean ====
/-
  Products and padded weights read entry by entry on the extended reals.

  * The product of an M×K matrix by the transpose of an N×K matrix, accumulated into a zero splat, has at entry (r, c)
    the sum over k of X(r,k) · W(c,k).
  * A sum over a + b indices whose last b terms vanish is the sum over the first a.
  * A sum of products with a zero factor in every term is zero; on the extended reals x · 0 = 0 for every x, so no
    finiteness is needed.
  Stated for any extents.
-/
import Idealize.ShloMosaic.Lib.StackMember
import Idealize.ShloMosaic.Lib.KernelVsHost
import Idealize.ShloMosaic.Lib.ValueIdx
import Idealize.ShloMosaic.PureOps.Ideal.Laws

noncomputable section

namespace Cert.BodyMath

open Idealize.ShloMosaic Idealize.ShloMosaic.ValueIdx
open scoped BigOperators

variable {M K N : ℕ}

/-- A kernel's product with the right operand contracted on its last axis, into the zero splat, at entry (r, c). -/
theorem matmul_zero_transposed_apply {φ₁ φ₂ : FTy} (d : DotDims ⟨2, ![M, K]⟩ ⟨2, ![N, K]⟩ ⟨2, ![M, N]⟩)
    (hd : d = DotDims.transposedRhs M K N) (X : FVec Ideal ⟨2, ![M, K]⟩ φ₁) (W : FVec Ideal ⟨2, ![N, K]⟩ φ₂)
    (r : Fin M) (c : Fin N) :
    matmul d none X W (constant ⟨2, ![M, N]⟩ .f32 0x00000000#32) (ix2 r c) = ∑ k : Fin K, X (ix2 r k) * W (ix2 c k) := by
  subst hd
  show FloatOps.matmul _ none X W (constant ⟨2, ![M, N]⟩ .f32 0x00000000#32) (ix2 r c) = _
  rw [Ideal.matmul_constant_zero_apply, ← Equiv.sum_comp (contrEquiv1 (DotDims.transposedRhs M K N) K rfl rfl).symm]
  refine Finset.sum_congr rfl fun k _ => ?_
  have c2 := contrEquiv1_symm_val (DotDims.transposedRhs M K N) K rfl rfl k
  have l2 : (DotDims.transposedRhs M K N).lhsIdx (ix2 r c) ((contrEquiv1 _ K rfl rfl).symm k) = ix2 r k := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs M K N).rhsIdx (ix2 r c) ((contrEquiv1 _ K rfl rfl).symm k) = ix2 c k := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- A sum over a + b indices whose terms from a on vanish is the sum over the first a. -/
theorem sum_first {a b K : ℕ} (hK : a + b = K) (f : Fin K → EReal) (h0 : ∀ j : Fin K, a ≤ j.val → f j = 0) :
    ∑ j : Fin K, f j = ∑ j : Fin a, f ⟨j.val, by omega⟩ := by
  subst hK
  rw [Fin.sum_univ_add]
  have hz : ∑ j : Fin b, f (Fin.natAdd a j) = 0 :=
    Finset.sum_eq_zero fun j _ => h0 _ (by show a ≤ a + j.val; omega)
  rw [hz, add_zero]
  rfl

/-- A sum of products whose right factors all vanish is zero, whatever the left factors. -/
theorem sum_mul_zero {n : ℕ} (f g : Fin n → EReal) (hg : ∀ k, g k = 0) : ∑ k : Fin n, f k * g k = 0 :=
  Finset.sum_eq_zero fun k _ => by rw [hg k, mul_zero]

end Cert.BodyMath

end
-- ==== Proof.KValueBlocksBody.lean ====
/-
  The body's three stored rows, entry by entry, on the extended reals.

  The first row is the weight row against the block's sixteen channels plus the bias: at column q it is the sum over
  the channels k of x(q,k) · w(0,k), plus b(0,0) (rounding to the narrower float format and a reshape to the same
  shape change nothing here).  The second row is the first times a factor row; the third is the first times a second
  factor row times a third.
-/
import proofs.«134914_j48275432407577_2_alg».proof.Proof.Gen.KernelIdeal.Skeleton
import proofs.«134914_j48275432407577_2_alg».proof.Proof.LibPaddedProduct
import Idealize.ShloMosaic.Lib.Pipeline.Value
import Idealize.ShloMosaic.Lib.ValueIdx
import Idealize.ShloMosaic.PureOps.Ideal.Laws

noncomputable section

namespace Cert.KValue

open Cert.KernelIdeal Cert.KernelIdeal.Gen Idealize.ShloMosaic Idealize.ShloMosaic.ValueIdx
open scoped BigOperators

/-- The flow row at column `q`. -/
theorem pay1_apply (x0 : Vec Ideal S16000x16 .f32) (x1 : Vec Ideal S1x16 .f32) (x2 : Vec Ideal S1x1 .f32) (q : Fin 16000) :
    k0_pay1 x0 x1 x2 (ix2 (0 : Fin 1) q)
      = (∑ k : Fin 16, x0 (ix2 q k) * x1 (ix2 (0 : Fin 1) k)) + x2 (ix2 (0 : Fin 1) (0 : Fin 1)) := by
  unfold k0_pay1
  refine (addf_apply _ _ _).trans ?_
  refine congrArg₂ (· + ·) ?_ ?_
  · refine (Cert.BodyMath.matmul_zero_transposed_apply (M := 1) (K := 16) (N := 16000) _ rfl _ _ (0 : Fin 1) q).trans ?_
    refine Finset.sum_congr rfl fun k _ => ?_
    rw [shapeCast_self, shapeCast_self]
    exact mul_comm _ _
  · show x2 _ = x2 _
    refine congrArg x2 (funext fun a => Fin.ext ?_)
    match a with
    | ⟨0, _⟩ => rfl
    | ⟨1, _⟩ => rfl

/-- The second row at column `q`: the flow times the factor. -/
theorem pay2_apply (x0 : Vec Ideal S16000x16 .f32) (x1 : Vec Ideal S1x16 .f32) (x2 : Vec Ideal S1x1 .f32)
    (x3 : Vec Ideal S1x16000 .f32) (q : Fin 16000) :
    k0_pay2 x0 x1 x2 x3 (ix2 (0 : Fin 1) q) = k0_pay1 x0 x1 x2 (ix2 (0 : Fin 1) q) * x3 (ix2 (0 : Fin 1) q) := by
  unfold k0_pay2
  refine (mulf_apply _ _ _).trans ?_
  rw [shapeCast_self]

/-- The third row at column `q`: the flow times the second factor, times the third. -/
theorem pay3_apply (x0 : Vec Ideal S16000x16 .f32) (x1 : Vec Ideal S1x16 .f32) (x2 : Vec Ideal S1x1 .f32)
    (x4 x5 : Vec Ideal S1x16000 .f32) (q : Fin 16000) :
    k0_pay3 x0 x1 x2 x4 x5 (ix2 (0 : Fin 1) q)
      = (k0_pay1 x0 x1 x2 (ix2 (0 : Fin 1) q) * x4 (ix2 (0 : Fin 1) q)) * x5 (ix2 (0 : Fin 1) q) := by
  unfold k0_pay3
  refine (mulf_apply _ _ _).trans ?_
  refine congrArg₂ (· * ·) ((mulf_apply _ _ _).trans ?_) ?_
  · rw [shapeCast_self]
  · rw [shapeCast_self]

end Cert.KValue

end
-- ==== Proof.KPrefix.lean ====
/-
  The node columns and the edge words as the kernel program holds them when its grid is entered and ever after:
  concentration, head count and size are the three channels of the node table's last time step, and the source
  and target words are the two rows of the edge table.  Each is a slice followed by a flattening.
-/
import proofs.«134914_j48275432407577_2_alg».proof.Proof.KFrameDefsI
import proofs.«134914_j48275432407577_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KPrefix

open Cert.KernelIdeal Cert.KernelIdeal.Gen Cert.KernelIdeal.Fr Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- A channel of the last time step, sliced out and flattened, read at node `n`. -/
theorem col_apply (k : Fin 3) (h : S100000x8x3.Slices ![0, 7, k.val] S100000x1x1) (a0 : FVec Ideal S100000x8x3 .f32) (n : Fin 100000) :
    shapeCast S100000 (extractStridedSlice S100000x1x1 ![0, 7, k.val] a0 h) shapeCasts_S100000x1x1_S100000 (ix1 n)
      = a0 (ix3 n (7 : Fin 8) k) := by
  generalize hy : extractStridedSlice S100000x1x1 ![0, 7, k.val] a0 h = y
  refine (shapeCast_apply y shapeCasts_S100000x1x1_S100000 (ix1 n) (ix3 n (0 : Fin 1) (0 : Fin 1))
    (by rewrite [Shape.rowMajor_val_three, Shape.rowMajor_val_one]; show (n.val * 1 + 0) * 1 + 0 = n.val; omega)).trans ?_
  subst hy
  exact extractStridedSlice_apply ![0, 7, k.val] a0 h (ix3 n (0 : Fin 1) (0 : Fin 1))
    (ix3 n (7 : Fin 8) k) (fun a => match a with
      | ⟨0, _⟩ => by show n.val = 0 + n.val; omega
      | ⟨1, _⟩ => by show 7 = 7 + 0; rfl
      | ⟨2, _⟩ => by show k.val = k.val + 0; rfl)

/-- A row of the edge table, sliced out and flattened, read at edge `e`. -/
theorem row_apply (k : Fin 2) (h : S2x2000000.Slices ![k.val, 0] S1x2000000) (a4 : IVec S2x2000000 32) (e : Fin 2000000) :
    shapeCast S2000000 (extractStridedSlice S1x2000000 ![k.val, 0] a4 h) shapeCasts_S1x2000000_S2000000 (ix1 e)
      = a4 (ix2 k e) := by
  generalize hy : extractStridedSlice S1x2000000 ![k.val, 0] a4 h = y
  refine (shapeCast_apply y shapeCasts_S1x2000000_S2000000 (ix1 e) (ix2 (0 : Fin 1) e)
    (by rewrite [Shape.rowMajor_val_two, Shape.rowMajor_val_one]; show 0 * 2000000 + e.val = e.val; omega)).trans ?_
  subst hy
  exact extractStridedSlice_apply ![k.val, 0] a4 h (ix2 (0 : Fin 1) e) (ix2 k e) (fun a => match a with
      | ⟨0, _⟩ => by show k.val = k.val + 0; rfl
      | ⟨1, _⟩ => by show e.val = 0 + e.val; omega)

/-- The concentration column when the grid is entered. -/
theorem V_conc : (V m c main_v1 : S100000.Idx → EReal)
    = shapeCast S100000 (extractStridedSlice S100000x1x1 ![0, 7, 0] (m ((c.tc : Thread nD τ).loc main_arg0)) slices_S100000x8x3_S100000x1x1_0_7_0) shapeCasts_S100000x1x1_S100000 := by
  dsimp only [V, V0]
  simp only [hostOps0, List.flatten_cons, List.flatten_nil, List.append_nil]
  after_results
  rfl

/-- The head-count column when the grid is entered. -/
theorem V_people : (V m c main_v3 : S100000.Idx → EReal)
    = shapeCast S100000 (extractStridedSlice S100000x1x1 ![0, 7, 1] (m ((c.tc : Thread nD τ).loc main_arg0)) slices_S100000x8x3_S100000x1x1_0_7_1) shapeCasts_S100000x1x1_S100000 := by
  dsimp only [V, V0]
  simp only [hostOps0, List.flatten_cons, List.flatten_nil, List.append_nil]
  after_results
  rfl

/-- The size column when the grid is entered. -/
theorem V_size : (V m c main_v5 : S100000.Idx → EReal)
    = shapeCast S100000 (extractStridedSlice S100000x1x1 ![0, 7, 2] (m ((c.tc : Thread nD τ).loc main_arg0)) slices_S100000x8x3_S100000x1x1_0_7_2) shapeCasts_S100000x1x1_S100000 := by
  dsimp only [V, V0]
  simp only [hostOps0, List.flatten_cons, List.flatten_nil, List.append_nil]
  after_results
  rfl

/-- The source words when the grid is entered. -/
theorem V_src : (V m c main_v10 : S2000000.Idx → BitVec 32)
    = shapeCast S2000000 (extractStridedSlice S1x2000000 ![0, 0] (m ((c.tc : Thread nD τ).loc main_arg4)) slices_S2x2000000_S1x2000000_0_0) shapeCasts_S1x2000000_S2000000 := by
  dsimp only [V, V0]
  simp only [hostOps0, List.flatten_cons, List.flatten_nil, List.append_nil]
  after_results
  rfl

/-- The target words when the grid is entered. -/
theorem V_dst : (V m c main_v12 : S2000000.Idx → BitVec 32)
    = shapeCast S2000000 (extractStridedSlice S1x2000000 ![1, 0] (m ((c.tc : Thread nD τ).loc main_arg4)) slices_S2x2000000_S1x2000000_1_0) shapeCasts_S1x2000000_S2000000 := by
  dsimp only [V, V0]
  simp only [hostOps0, List.flatten_cons, List.flatten_nil, List.append_nil]
  after_results
  rfl

/-! ## Read at a node or an edge -/

theorem conc_apply (n : Fin 100000) : (V m c main_v1 : S100000.Idx → EReal) (ix1 n) = concOf (m ((c.tc : Thread nD τ).loc main_arg0)) n := by
  rw [V_conc]; exact col_apply (0 : Fin 3) _ _ n
theorem people_apply (n : Fin 100000) : (V m c main_v3 : S100000.Idx → EReal) (ix1 n) = peopleOf (m ((c.tc : Thread nD τ).loc main_arg0)) n := by
  rw [V_people]; exact col_apply (1 : Fin 3) _ _ n
theorem size_apply (n : Fin 100000) : (V m c main_v5 : S100000.Idx → EReal) (ix1 n) = sizeOf (m ((c.tc : Thread nD τ).loc main_arg0)) n := by
  rw [V_size]; exact col_apply (2 : Fin 3) _ _ n
theorem src_apply (e : Fin 2000000) : (V m c main_v10 : S2000000.Idx → BitVec 32) (ix1 e) = srcOf (m ((c.tc : Thread nD τ).loc main_arg4)) e := by
  rw [V_src]; exact row_apply (0 : Fin 2) _ _ e
theorem dst_apply (e : Fin 2000000) : (V m c main_v12 : S2000000.Idx → BitVec 32) (ix1 e) = dstOf (m ((c.tc : Thread nD τ).loc main_arg4)) e := by
  rw [V_dst]; exact row_apply (1 : Fin 2) _ _ e

end Cert.KPrefix

end
-- ==== Proof.KValueBlocksCols.lean ====
/-
  Normalising a row of index words and looking a node column up along it, read entry by entry.

  Normalising moves every negative word up by the number of nodes.  Looking a node column up along a row of words
  reads, for every edge, the column at the word taken signed and clamped into the table; the result is laid out as
  a row.  The column of ones is the unit word at every node.
-/
import proofs.«134914_j48275432407577_2_alg».proof.Proof.Gen.KernelIdeal
import proofs.«134914_j48275432407577_2_alg».proof.Proof.Spec
import proofs.«134914_j48275432407577_2_alg».proof.Proof.LibGraphOps
import Idealize.ShloMosaic.Lib.IdealHost
import Idealize.ShloMosaic.Lib.Pipeline.Value
import Idealize.ShloMosaic.Lib.ValueIdx

noncomputable section

namespace Cert.KValue

open Cert.KernelIdeal Cert.KernelIdeal.Gen Cert.Spec
open Idealize.ShloMosaic Idealize.ShloMosaic.ValueIdx

/-- Every word normalised: a negative word moved up by the number of nodes. -/
def nrmRow (v : IVec S2000000 32) : IVec S2000000 32 :=
  select (cmpi .slt v (broadcastInDim S2000000 ![] bcast_S_S2000000 (constantI S_ 32 0#32)))
    (addi v (broadcastInDim S2000000 ![] bcast_S_S2000000 (constantI S_ 32 100000#32))) v

/-- A node column looked up at every edge's word, as a row. -/
def lookRow (x : FVec Ideal S100000 .f32) (w : IVec S2000000 32) : FVec Ideal S1x2000000 .f32 :=
  shapeCast S1x2000000 (Host.gather gather_S100000_S2000000x1_S2000000_n_0_n_n_0_1_1 x
    (broadcastInDim S2000000x1 ![0] bcast_S2000000_S2000000x1_0 w)) shapeCasts_S2000000_S1x2000000

/-- The column of ones. -/
def oneCol : FVec Ideal S100000 .f32 :=
  broadcastInDim S100000 ![] bcast_S_S100000 (constant (F := Ideal) S_ .f32 0x3F800000#32)

/-! ## Read at an index -/

theorem nrmRow_apply (v : IVec S2000000 32) (e : Fin 2000000) : nrmRow v (ix1 e) = nrm (v (ix1 e)) := by
  unfold nrmRow nrm
  show Scalar.select (IntOp.cmpi .slt (v (ix1 e)) (broadcastInDim S2000000 ![] bcast_S_S2000000 (constantI S_ 32 0#32) (ix1 e)))
      (IntOp.addi (v (ix1 e)) (broadcastInDim S2000000 ![] bcast_S_S2000000 (constantI S_ 32 100000#32) (ix1 e))) (v (ix1 e)) = _
  rw [broadcastInDim_scalar_apply, broadcastInDim_scalar_apply]
  rfl

theorem lookRow_apply (x : FVec Ideal S100000 .f32) (w : IVec S2000000 32) (e : Fin 2000000) :
    lookRow x w (ix2 (0 : Fin 1) e) = x (ix1 (pos (w (ix1 e)))) := by
  unfold lookRow
  generalize hi : broadcastInDim S2000000x1 ![0] bcast_S2000000_S2000000x1_0 w = idx
  generalize hg : Host.gather gather_S100000_S2000000x1_S2000000_n_0_n_n_0_1_1 x idx = g
  refine (shapeCast_apply g shapeCasts_S2000000_S1x2000000 (ix2 (0 : Fin 1) e) (ix1 e)
    (by rewrite [Shape.rowMajor_val_two, Shape.rowMajor_val_one]; show e.val = 0 * 2000000 + e.val; omega)).trans ?_
  subst hg
  refine (Cert.Bridge.GraphOps.gather_flat_apply (N := 100000) (E := 2000000) (by decide)
    gather_S100000_S2000000x1_S2000000_n_0_n_n_0_1_1_wf x idx e).trans ?_
  have hw : idx (ix2 e (0 : Fin 1)) = w (ix1 e) := by
    subst hi
    exact broadcastInDim_apply ![0] bcast_S2000000_S2000000x1_0 w (ix2 e (0 : Fin 1)) (ix1 e) (fun a => match a with
      | ⟨0, _⟩ => by show e.val = if (2000000 : ℕ) = 1 then 0 else e.val; rw [if_neg (by decide)])
  refine congrArg x (congrArg ix1 (Fin.ext ?_))
  show min (idx (ix2 e (0 : Fin 1))).toInt.toNat (100000 - 1) = min (w (ix1 e)).toInt.toNat (100000 - 1)
  rw [hw]

theorem oneCol_apply (n : Fin 100000) : oneCol (ix1 n) = Ideal.ofBits .f32 0x3F800000#32 := by
  unfold oneCol
  rw [broadcastInDim_scalar_apply]
  rfl

end Cert.KValue

end
-- ==== Proof.KValueBlocksHost.lean ====
/-
  The six arrays the grid reads, as it finds them, entry by entry in terms of the program's arguments.

  The edge table is the argument's [2000000, 1, 16] array with its unit axis dropped; the weight row and the bias are
  the arguments' [1, 16, 1, 1] and [1] arrays reshaped.  The three factor rows are table lookups along the edges: the
  concentration over the size at the normalised source word, the concentration at the normalised source word, and
  one over the size at the normalised target word.
-/
import proofs.«134914_j48275432407577_2_alg».proof.Proof.KFrameDefsI
import proofs.«134914_j48275432407577_2_alg».proof.Proof.KPrefix
import proofs.«134914_j48275432407577_2_alg».proof.Proof.KValueBlocksCols
import Idealize.ShloMosaic.Lib.StableHlo.Run

set_option maxRecDepth 16384

noncomputable section

namespace Cert.KValue

open Cert.KernelIdeal Cert.KernelIdeal.Gen Cert.KernelIdeal.Fr Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-! ## The arrays as terms of the arguments and of the node columns and edge words -/

theorem V_v34 : (V m c main_v34 : S2000000x16.Idx → EReal)
    = shapeCast S2000000x16 (m ((c.tc : Thread nD τ).loc main_arg1)) shapeCasts_S2000000x1x16_S2000000x16 := by
  dsimp only [V, V0]
  simp only [hostOps0, List.flatten_cons, List.flatten_nil, List.append_nil]
  after_results
  rfl

theorem V_v36 : (V m c main_v36 : S1x16.Idx → EReal)
    = shapeCast S1x16 (shapeCast S16 (m ((c.tc : Thread nD τ).loc main_arg2)) shapeCasts_S1x16x1x1_S16) shapeCasts_S16_S1x16 := by
  dsimp only [V, V0]
  simp only [hostOps0, List.flatten_cons, List.flatten_nil, List.append_nil]
  after_results
  rfl

theorem V_v37 : (V m c main_v37 : S1x1.Idx → EReal)
    = shapeCast S1x1 (m ((c.tc : Thread nD τ).loc main_arg3)) shapeCasts_S1_S1x1 := by
  dsimp only [V, V0]
  simp only [hostOps0, List.flatten_cons, List.flatten_nil, List.append_nil]
  after_results
  rfl

theorem V_v38 : (V m c main_v38 : S1x2000000.Idx → EReal)
    = lookRow (Host.divf (F := Ideal) (V m c main_v1) (V m c main_v5)) (nrmRow (V m c main_v10)) := by
  dsimp only [V, V0]
  simp only [hostOps0, List.flatten_cons, List.flatten_nil, List.append_nil]
  after_results_simp
  rfl

theorem V_v39 : (V m c main_v39 : S1x2000000.Idx → EReal)
    = lookRow (V m c main_v1) (nrmRow (V m c main_v10)) := by
  dsimp only [V, V0]
  simp only [hostOps0, List.flatten_cons, List.flatten_nil, List.append_nil]
  after_results_simp
  rfl

theorem V_v40 : (V m c main_v40 : S1x2000000.Idx → EReal)
    = lookRow (Host.divf (F := Ideal) oneCol (V m c main_v5)) (nrmRow (V m c main_v12)) := by
  dsimp only [V, V0]
  simp only [hostOps0, List.flatten_cons, List.flatten_nil, List.append_nil]
  after_results_simp
  rfl

/-! ## Read at an index -/

/-- The edge table at edge `e`, channel `k`. -/
theorem v34_apply (e : Fin 2000000) (k : Fin 16) :
    (V m c main_v34 : S2000000x16.Idx → EReal) (ix2 e k) = xOf (m ((c.tc : Thread nD τ).loc main_arg1)) e k := by
  rw [V_v34]
  exact shapeCast_apply _ shapeCasts_S2000000x1x16_S2000000x16 (ix2 e k) (ix3 e (0 : Fin 1) k)
    (by rewrite [Shape.rowMajor_val_three, Shape.rowMajor_val_two]; show (e.val * 1 + 0) * 16 + k.val = e.val * 16 + k.val; omega)

/-- The weight row at channel `k`. -/
theorem v36_apply (k : Fin 16) :
    (V m c main_v36 : S1x16.Idx → EReal) (ix2 (0 : Fin 1) k) = wOf (m ((c.tc : Thread nD τ).loc main_arg2)) k := by
  rw [V_v36]
  generalize hy : shapeCast S16 (m ((c.tc : Thread nD τ).loc main_arg2)) shapeCasts_S1x16x1x1_S16 = y
  refine (shapeCast_apply y shapeCasts_S16_S1x16 (ix2 (0 : Fin 1) k) (ix1 k)
    (by rewrite [Shape.rowMajor_val_two, Shape.rowMajor_val_one]; show k.val = 0 * 16 + k.val; omega)).trans ?_
  subst hy
  exact shapeCast_apply _ shapeCasts_S1x16x1x1_S16 (ix1 k) (ix4 (0 : Fin 1) k (0 : Fin 1) (0 : Fin 1))
    (by rewrite [Shape.rowMajor_val_four, Shape.rowMajor_val_one]; show ((0 * 16 + k.val) * 1 + 0) * 1 + 0 = k.val; omega)

/-- The bias. -/
theorem v37_apply :
    (V m c main_v37 : S1x1.Idx → EReal) (ix2 (0 : Fin 1) (0 : Fin 1)) = bOf (m ((c.tc : Thread nD τ).loc main_arg3)) := by
  rw [V_v37]
  exact shapeCast_apply _ shapeCasts_S1_S1x1 (ix2 (0 : Fin 1) (0 : Fin 1)) (ix1 (0 : Fin 1))
    (by rewrite [Shape.rowMajor_val_two, Shape.rowMajor_val_one]; rfl)

/-- The normalised source word of edge `e`, as the lookups see it. -/
theorem nrm_src_apply (e : Fin 2000000) :
    nrmRow (V m c main_v10) (ix1 e) = nrm (srcOf (m ((c.tc : Thread nD τ).loc main_arg4)) e) := by
  rw [nrmRow_apply, Cert.KPrefix.src_apply]

/-- The normalised target word of edge `e`. -/
theorem nrm_dst_apply (e : Fin 2000000) :
    nrmRow (V m c main_v12) (ix1 e) = nrm (dstOf (m ((c.tc : Thread nD τ).loc main_arg4)) e) := by
  rw [nrmRow_apply, Cert.KPrefix.dst_apply]

/-- The first factor row at edge `e`: the source's concentration over its size. -/
theorem v38_apply (e : Fin 2000000) :
    (V m c main_v38 : S1x2000000.Idx → EReal) (ix2 (0 : Fin 1) e)
      = Ideal.div (concOf (m ((c.tc : Thread nD τ).loc main_arg0)) (pos (nrm (srcOf (m ((c.tc : Thread nD τ).loc main_arg4)) e))))
          (Cert.Spec.sizeOf (m ((c.tc : Thread nD τ).loc main_arg0)) (pos (nrm (srcOf (m ((c.tc : Thread nD τ).loc main_arg4)) e)))) := by
  rw [V_v38, lookRow_apply, nrm_src_apply, hostDivf_apply, Cert.KPrefix.conc_apply, Cert.KPrefix.size_apply]

/-- The second factor row at edge `e`: the source's concentration. -/
theorem v39_apply (e : Fin 2000000) :
    (V m c main_v39 : S1x2000000.Idx → EReal) (ix2 (0 : Fin 1) e)
      = concOf (m ((c.tc : Thread nD τ).loc main_arg0)) (pos (nrm (srcOf (m ((c.tc : Thread nD τ).loc main_arg4)) e))) := by
  rw [V_v39, lookRow_apply, nrm_src_apply, Cert.KPrefix.conc_apply]

/-- The third factor row at edge `e`: one over the target's size. -/
theorem v40_apply (e : Fin 2000000) :
    (V m c main_v40 : S1x2000000.Idx → EReal) (ix2 (0 : Fin 1) e)
      = Ideal.div (Ideal.ofBits .f32 0x3F800000#32)
          (Cert.Spec.sizeOf (m ((c.tc : Thread nD τ).loc main_arg0)) (pos (nrm (dstOf (m ((c.tc : Thread nD τ).loc main_arg4)) e)))) := by
  rw [V_v40, lookRow_apply, nrm_dst_apply, hostDivf_apply, oneCol_apply, Cert.KPrefix.size_apply]

end Cert.KValue

end
-- ==== Proof.KValueBlocksRead.lean ====
/-
  The six input blocks at a grid point, entry by entry in terms of the program's arguments.

  Point t of the grid sees edges 16000·t … 16000·t + 15999: the edge table's block holds their sixteen channels, and
  each factor row's block holds their factors.  The weight row and the bias are whole at every point.  A block's
  coordinate in its array is the block index times the block size plus the coordinate inside the block.
-/
import proofs.«134914_j48275432407577_2_alg».proof.Proof.KFrameDefsI
import proofs.«134914_j48275432407577_2_alg».proof.Proof.KValueBlocksHost

set_option maxRecDepth 16384

noncomputable section

namespace Cert.KValue

open Cert.KernelIdeal Cert.KernelIdeal.Gen Cert.KernelIdeal.Fr Cert.Spec
open Idealize.ShloMosaic Idealize.ShloMosaic.TcCoe Idealize.ShloMosaic.ValueIdx Idealize.SL.Sem

variable (m : (ℓ : Loc nD τ sig) → Buf (Elt Ideal) ℓ) (c : Dev nD)

/-- The block index maps, decided over the grid: the edge table's and the rows' blocks move with the point along the
    edge axis, the weight row and the bias stay. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val)
    ∧ (win0_7.index t (0 : Fin 2) = 0 ∧ win0_7.index t (1 : Fin 2) = t.val)
    ∧ (win0_8.index t (0 : Fin 2) = 0 ∧ win0_8.index t (1 : Fin 2) = t.val) :=
  (by decide +kernel : ∀ t : Fin grid0.N, _)

/-- The edge that sits at column `q` of point `t`'s blocks. -/
def edgeAt (t : Fin cfg0.N) (q : Fin 16000) : Fin 2000000 :=
  ⟨t.val * 16000 + q.val, by have h := t.isLt; have hN : cfg0.N = 125 := N_0; have hq := q.isLt; omega⟩

theorem edgeAt_val (t : Fin cfg0.N) (q : Fin 16000) : (edgeAt t q).val = t.val * 16000 + q.val := rfl

/-- The edge table's block. -/
theorem iblk0_apply (t : Fin cfg0.N) (q : Fin 16000) (k : Fin 16) :
    (iblk m c 0 t : Vec Ideal S16000x16 .f32) (ix2 q k) = xOf (m ((c.tc : Thread nD τ).loc main_arg1)) (edgeAt t q) k := by
  obtain ⟨⟨h0, h1⟩, -⟩ := idx_facts t
  refine Eq.trans ?_ (v34_apply m c (edgeAt t q) k)
  unfold iblk
  rw [View.read_apply]
  show (V m c main_v34 : S2000000x16.Idx → EReal) _ = (V m c main_v34 : S2000000x16.Idx → EReal) _
  refine congrArg (V m c main_v34 : S2000000x16.Idx → EReal) (funext fun a => Fin.ext ?_)
  match a with
  | ⟨0, _⟩ => show win0_0.index t (0 : Fin 2) * 16000 + 1 * q.val = t.val * 16000 + q.val; omega
  | ⟨1, _⟩ => show win0_0.index t (1 : Fin 2) * 16 + 1 * k.val = k.val; omega

/-- The weight row's block. -/
theorem iblk1_apply (t : Fin cfg0.N) (k : Fin 16) :
    (iblk m c 1 t : Vec Ideal S1x16 .f32) (ix2 (0 : Fin 1) k) = wOf (m ((c.tc : Thread nD τ).loc main_arg2)) k := by
  obtain ⟨-, ⟨h0, h1⟩, -⟩ := idx_facts t
  refine Eq.trans ?_ (v36_apply m c k)
  unfold iblk
  rw [View.read_apply]
  show (V m c main_v36 : S1x16.Idx → EReal) _ = (V m c main_v36 : S1x16.Idx → EReal) _
  refine congrArg (V m c main_v36 : S1x16.Idx → EReal) (funext fun a => Fin.ext ?_)
  match a with
  | ⟨0, _⟩ => show win0_1.index t (0 : Fin 2) * 1 + 1 * 0 = 0; omega
  | ⟨1, _⟩ => show win0_1.index t (1 : Fin 2) * 16 + 1 * k.val = k.val; omega

/-- The bias's block. -/
theorem iblk2_apply (t : Fin cfg0.N) :
    (iblk m c 2 t : Vec Ideal S1x1 .f32) (ix2 (0 : Fin 1) (0 : Fin 1)) = bOf (m ((c.tc : Thread nD τ).loc main_arg3)) := by
  obtain ⟨-, -, ⟨h0, h1⟩, -⟩ := idx_facts t
  refine Eq.trans ?_ (v37_apply m c)
  unfold iblk
  rw [View.read_apply]
  show (V m c main_v37 : S1x1.Idx → EReal) _ = (V m c main_v37 : S1x1.Idx → EReal) _
  refine congrArg (V m c main_v37 : S1x1.Idx → EReal) (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- The first factor row's block. -/
theorem iblk3_apply (t : Fin cfg0.N) (q : Fin 16000) :
    (iblk m c 3 t : Vec Ideal S1x16000 .f32) (ix2 (0 : Fin 1) q)
      = Ideal.div (concOf (m ((c.tc : Thread nD τ).loc main_arg0)) (pos (nrm (srcOf (m ((c.tc : Thread nD τ).loc main_arg4)) (edgeAt t q)))))
          (Cert.Spec.sizeOf (m ((c.tc : Thread nD τ).loc main_arg0)) (pos (nrm (srcOf (m ((c.tc : Thread nD τ).loc main_arg4)) (edgeAt t q))))) := by
  obtain ⟨-, -, -, ⟨h0, h1⟩, -⟩ := idx_facts t
  refine Eq.trans ?_ (v38_apply m c (edgeAt t q))
  unfold iblk
  rw [View.read_apply]
  show (V m c main_v38 : S1x2000000.Idx → EReal) _ = (V m c main_v38 : S1x2000000.Idx → EReal) _
  refine congrArg (V m c main_v38 : S1x2000000.Idx → EReal) (funext fun a => Fin.ext ?_)
  match a with
  | ⟨0, _⟩ => show win0_3.index t (0 : Fin 2) * 1 + 1 * 0 = 0; omega
  | ⟨1, _⟩ => show win0_3.index t (1 : Fin 2) * 16000 + 1 * q.val = t.val * 16000 + q.val; omega

/-- The second factor row's block. -/
theorem iblk4_apply (t : Fin cfg0.N) (q : Fin 16000) :
    (iblk m c 4 t : Vec Ideal S1x16000 .f32) (ix2 (0 : Fin 1) q)
      = concOf (m ((c.tc : Thread nD τ).loc main_arg0)) (pos (nrm (srcOf (m ((c.tc : Thread nD τ).loc main_arg4)) (edgeAt t q)))) := by
  obtain ⟨-, -, -, -, ⟨h0, h1⟩, -⟩ := idx_facts t
  refine Eq.trans ?_ (v39_apply m c (edgeAt t q))
  unfold iblk
  rw [View.read_apply]
  show (V m c main_v39 : S1x2000000.Idx → EReal) _ = (V m c main_v39 : S1x2000000.Idx → EReal) _
  refine congrArg (V m c main_v39 : S1x2000000.Idx → EReal) (funext fun a => Fin.ext ?_)
  match a with
  | ⟨0, _⟩ => show win0_4.index t (0 : Fin 2) * 1 + 1 * 0 = 0; omega
  | ⟨1, _⟩ => show win0_4.index t (1 : Fin 2) * 16000 + 1 * q.val = t.val * 16000 + q.val; omega

/-- The third factor row's block. -/
theorem iblk5_apply (t : Fin cfg0.N) (q : Fin 16000) :
    (iblk m c 5 t : Vec Ideal S1x16000 .f32) (ix2 (0 : Fin 1) q)
      = Ideal.div (Ideal.ofBits .f32 0x3F800000#32)
          (Cert.Spec.sizeOf (m ((c.tc : Thread nD τ).loc main_arg0)) (pos (nrm (dstOf (m ((c.tc : Thread nD τ).loc main_arg4)) (edgeAt t q))))) := by
  obtain ⟨-, -, -, -, -, ⟨h0, h1⟩, -⟩ := idx_facts t
  refine Eq.trans ?_ (v40_apply m c (edgeAt t q))
  unfold iblk
  rw [View.read_apply]
  show (V m c main_v40 : S1x2000000.Idx → EReal) _ = (V m c main_v40 : S1x2000000.Idx → EReal) _
  refine congrArg (V m c main_v40 : S1x2000000.Idx → EReal) (funext fun a => Fin.ext ?_)
  match a with
  | ⟨0, _⟩ => show win0_5.index t (0 : Fin 2) * 1 + 1 * 0 = 0; omega
  | ⟨1, _⟩ => show win0_5.index t (1 : Fin 2) * 16000 + 1 * q.val = t.val * 16000 + q.val; omega

end Cert.KValue

end
-- ==== Proof.KValueBlocks.lean ====
/-
  The kernel's three output arrays, entry by entry, as functions of the program's arguments.

  Point t of the grid writes back, into columns 16000·t … 16000·t + 15999 of each output row, what the body left in
  the output's block: the flow of those edges; the flow times the source's concentration over its size; the flow times
  the source's concentration, times one over the target's size.  Every point writes its block back, the blocks tile the
  rows, and edge e sits in the block of point e / 16000, so after the grid each row holds its function at every edge.
-/
import proofs.«134914_j48275432407577_2_alg».proof.Proof.KFrameDefsI
import proofs.«134914_j48275432407577_2_alg».proof.Proof.KValueBlocksBody
import proofs.«134914_j48275432407577_2_alg».proof.Proof.KValueBlocksRead
import Idealize.ShloMosaic.Lib.Pipeline.Value

set_option maxRecDepth 16384

noncomputable section

namespace Cert.KValue

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

theorem hz : (![0, 0] : Fin 2 → Nat) = fun _ => 0 := funext fun a => by fin_cases a <;> rfl

/-! ## The three rows as functions of the edge -/

/-- The second output at edge `e`. -/
def vsrcAt (a0 : (⟨3, ![100000, 8, 3]⟩ : Shape).Idx → EReal) (a1 : (⟨3, ![2000000, 1, 16]⟩ : Shape).Idx → EReal)
    (a2 : (⟨4, ![1, 16, 1, 1]⟩ : Shape).Idx → EReal) (a3 : (⟨1, ![1]⟩ : Shape).Idx → EReal)
    (a4 : (⟨2, ![2, 2000000]⟩ : Shape).Idx → BitVec 32) (e : Fin 2000000) : EReal :=
  flowOf a1 a2 a3 e * Ideal.div (concOf a0 (pos (nrm (srcOf a4 e)))) (Cert.Spec.sizeOf a0 (pos (nrm (srcOf a4 e))))

/-- The third output at edge `e`. -/
def vdstAt (a0 : (⟨3, ![100000, 8, 3]⟩ : Shape).Idx → EReal) (a1 : (⟨3, ![2000000, 1, 16]⟩ : Shape).Idx → EReal)
    (a2 : (⟨4, ![1, 16, 1, 1]⟩ : Shape).Idx → EReal) (a3 : (⟨1, ![1]⟩ : Shape).Idx → EReal)
    (a4 : (⟨2, ![2, 2000000]⟩ : Shape).Idx → BitVec 32) (e : Fin 2000000) : EReal :=
  (flowOf a1 a2 a3 e * concOf a0 (pos (nrm (srcOf a4 e))))
    * Ideal.div (Ideal.ofBits .f32 0x3F800000#32) (Cert.Spec.sizeOf a0 (pos (nrm (dstOf a4 e))))

/-- A function of the edge laid out as a row. -/
def rowOf (f : Fin 2000000 → EReal) : S1x2000000.Idx → EReal := fun i => f (i 1)

theorem rowOf_apply (f : Fin 2000000 → EReal) (e : Fin 2000000) : rowOf f (ix2 (0 : Fin 1) e) = f e := rfl

/-! ## The payload rows at a point, over the point's blocks -/

/-- The flow row over blocks that hold the point's edges' channels, the weights and the bias. -/
theorem pay1_block (x0 : Vec Ideal S16000x16 .f32) (x1 : Vec Ideal S1x16 .f32) (x2 : Vec Ideal S1x1 .f32)
    (a1 : (⟨3, ![2000000, 1, 16]⟩ : Shape).Idx → EReal) (a2 : (⟨4, ![1, 16, 1, 1]⟩ : Shape).Idx → EReal)
    (a3 : (⟨1, ![1]⟩ : Shape).Idx → EReal) (ed : Fin 16000 → Fin 2000000)
    (h0 : ∀ (q : Fin 16000) (k : Fin 16), x0 (ix2 q k) = xOf a1 (ed q) k)
    (h1 : ∀ k : Fin 16, x1 (ix2 (0 : Fin 1) k) = wOf a2 k)
    (h2 : x2 (ix2 (0 : Fin 1) (0 : Fin 1)) = bOf a3) (q : Fin 16000) :
    k0_pay1 x0 x1 x2 (ix2 (0 : Fin 1) q) = flowOf a1 a2 a3 (ed q) := by
  rw [pay1_apply, h2]
  unfold flowOf flow
  refine congrArg (· + bOf a3) (Finset.sum_congr rfl fun k _ => ?_)
  rw [h0, h1]

theorem pay2_block (x0 : Vec Ideal S16000x16 .f32) (x1 : Vec Ideal S1x16 .f32) (x2 : Vec Ideal S1x1 .f32)
    (x3 : Vec Ideal S1x16000 .f32)
    (a1 : (⟨3, ![2000000, 1, 16]⟩ : Shape).Idx → EReal) (a2 : (⟨4, ![1, 16, 1, 1]⟩ : Shape).Idx → EReal)
    (a3 : (⟨1, ![1]⟩ : Shape).Idx → EReal) (ed : Fin 16000 → Fin 2000000) (r3 : Fin 2000000 → EReal)
    (h0 : ∀ (q : Fin 16000) (k : Fin 16), x0 (ix2 q k) = xOf a1 (ed q) k)
    (h1 : ∀ k : Fin 16, x1 (ix2 (0 : Fin 1) k) = wOf a2 k)
    (h2 : x2 (ix2 (0 : Fin 1) (0 : Fin 1)) = bOf a3)
    (h3 : ∀ q : Fin 16000, x3 (ix2 (0 : Fin 1) q) = r3 (ed q)) (q : Fin 16000) :
    k0_pay2 x0 x1 x2 x3 (ix2 (0 : Fin 1) q) = flowOf a1 a2 a3 (ed q) * r3 (ed q) := by
  rw [pay2_apply, pay1_block x0 x1 x2 a1 a2 a3 ed h0 h1 h2 q, h3]

theorem pay3_block (x0 : Vec Ideal S16000x16 .f32) (x1 : Vec Ideal S1x16 .f32) (x2 : Vec Ideal S1x1 .f32)
    (x4 x5 : Vec Ideal S1x16000 .f32)
    (a1 : (⟨3, ![2000000, 1, 16]⟩ : Shape).Idx → EReal) (a2 : (⟨4, ![1, 16, 1, 1]⟩ : Shape).Idx → EReal)
    (a3 : (⟨1, ![1]⟩ : Shape).Idx → EReal) (ed : Fin 16000 → Fin 2000000) (r4 r5 : Fin 2000000 → EReal)
    (h0 : ∀ (q : Fin 16000) (k : Fin 16), x0 (ix2 q k) = xOf a1 (ed q) k)
    (h1 : ∀ k : Fin 16, x1 (ix2 (0 : Fin 1) k) = wOf a2 k)
    (h2 : x2 (ix2 (0 : Fin 1) (0 : Fin 1)) = bOf a3)
    (h4 : ∀ q : Fin 16000, x4 (ix2 (0 : Fin 1) q) = r4 (ed q))
    (h5 : ∀ q : Fin 16000, x5 (ix2 (0 : Fin 1) q) = r5 (ed q)) (q : Fin 16000) :
    k0_pay3 x0 x1 x2 x4 x5 (ix2 (0 : Fin 1) q) = (flowOf a1 a2 a3 (ed q) * r4 (ed q)) * r5 (ed q) := by
  rw [pay3_apply, pay1_block x0 x1 x2 a1 a2 a3 ed h0 h1 h2 q, h4, h5]

/-- A block index of a row is its one free coordinate. -/
theorem row_idx (j : S1x16000.Idx) : j = ix2 (0 : Fin 1) (j 1) := by
  refine (eq_ix2 j).trans ?_
  refine congrArg (fun p : Fin 1 => ix2 p (j 1)) (Subsingleton.elim _ _)

/-! ## What each point writes back -/

/-- Where column `q` of point `t`'s block of an output row sits in the row. -/
theorem emb6 (t : Fin cfg0.N) (q : Fin 16000) :
    (((cfg0.win 6).blk t).view.emb (ix2 (0 : Fin 1) q) : S1x2000000.Idx) 1 = edgeAt t q := by
  obtain ⟨-, -, -, -, -, -, ⟨h0, h1⟩, -⟩ := idx_facts t
  refine Fin.ext ?_
  show win0_6.index t (1 : Fin 2) * 16000 + 1 * q.val = t.val * 16000 + q.val
  omega

theorem emb7 (t : Fin cfg0.N) (q : Fin 16000) :
    (((cfg0.win 7).blk t).view.emb (ix2 (0 : Fin 1) q) : S1x2000000.Idx) 1 = edgeAt t q := by
  obtain ⟨-, -, -, -, -, -, -, ⟨h0, h1⟩, -⟩ := idx_facts t
  refine Fin.ext ?_
  show win0_7.index t (1 : Fin 2) * 16000 + 1 * q.val = t.val * 16000 + q.val
  omega

theorem emb8 (t : Fin cfg0.N) (q : Fin 16000) :
    (((cfg0.win 8).blk t).view.emb (ix2 (0 : Fin 1) q) : S1x2000000.Idx) 1 = edgeAt t q := by
  obtain ⟨-, -, -, -, -, -, -, -, ⟨h0, h1⟩⟩ := idx_facts t
  refine Fin.ext ?_
  show win0_8.index t (1 : Fin 2) * 16000 + 1 * q.val = t.val * 16000 + q.val
  omega

/-- Point `t` writes back its block of the flow row. -/
theorem flushed6_eq (t : Fin cfg0.N) :
    (dats m 0 c).flushed 6 t
      = ((cfg0.win 6).blk t).view.read (Elt Ideal) (rowOf (flowOf (m ((c.tc : Thread nD τ).loc main_arg1)) (m ((c.tc : Thread nD τ).loc main_arg2)) (m ((c.tc : Thread nD τ).loc main_arg3)))) := by
  show (cfg0.win 6).cut (grid0.coords t) ((dats m 0 c).after 6 t) = _
  rw [after6]
  unfold out6
  rw [View.canon_unit_zero hz]
  simp only [View.ld_unit_zero (S := S16000x16) hz, View.ld_unit_zero (S := S1x16) hz, View.ld_unit_zero (S := S1x1) hz]
  funext j
  obtain ⟨q, rfl⟩ : ∃ q : Fin 16000, (j : S1x16000.Idx) = ix2 (0 : Fin 1) q := ⟨j 1, row_idx j⟩
  show k0_pay1 (iblk m c 0 t) (iblk m c 1 t) (iblk m c 2 t) (ix2 (0 : Fin 1) q)
    = flowOf (m ((c.tc : Thread nD τ).loc main_arg1)) (m ((c.tc : Thread nD τ).loc main_arg2)) (m ((c.tc : Thread nD τ).loc main_arg3)) ((((cfg0.win 6).blk t).view.emb (ix2 (0 : Fin 1) q) : S1x2000000.Idx) 1)
  rw [emb6 t q]
  exact pay1_block (iblk m c 0 t) (iblk m c 1 t) (iblk m c 2 t) (m ((c.tc : Thread nD τ).loc main_arg1)) (m ((c.tc : Thread nD τ).loc main_arg2)) (m ((c.tc : Thread nD τ).loc main_arg3)) (edgeAt t)
    (fun q k => iblk0_apply m c t q k) (fun k => iblk1_apply m c t k) (iblk2_apply m c t) q

/-- Point `t` writes back its block of the second row. -/
theorem flushed7_eq (t : Fin cfg0.N) :
    (dats m 0 c).flushed 7 t
      = ((cfg0.win 7).blk t).view.read (Elt Ideal) (rowOf (vsrcAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) := by
  show (cfg0.win 7).cut (grid0.coords t) ((dats m 0 c).after 7 t) = _
  rw [after7]
  unfold out7
  rw [View.canon_unit_zero hz]
  simp only [View.ld_unit_zero (S := S16000x16) hz, View.ld_unit_zero (S := S1x16) hz, View.ld_unit_zero (S := S1x1) hz,
    View.ld_unit_zero (S := S1x16000) hz]
  funext j
  obtain ⟨q, rfl⟩ : ∃ q : Fin 16000, (j : S1x16000.Idx) = ix2 (0 : Fin 1) q := ⟨j 1, row_idx j⟩
  show k0_pay2 (iblk m c 0 t) (iblk m c 1 t) (iblk m c 2 t) (iblk m c 3 t) (ix2 (0 : Fin 1) q)
    = vsrcAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ((((cfg0.win 7).blk t).view.emb (ix2 (0 : Fin 1) q) : S1x2000000.Idx) 1)
  rw [emb7 t q]
  exact pay2_block (iblk m c 0 t) (iblk m c 1 t) (iblk m c 2 t) (iblk m c 3 t) (m ((c.tc : Thread nD τ).loc main_arg1)) (m ((c.tc : Thread nD τ).loc main_arg2)) (m ((c.tc : Thread nD τ).loc main_arg3)) (edgeAt t)
    (fun e => Ideal.div (concOf (m ((c.tc : Thread nD τ).loc main_arg0)) (pos (nrm (srcOf (m ((c.tc : Thread nD τ).loc main_arg4)) e)))) (Cert.Spec.sizeOf (m ((c.tc : Thread nD τ).loc main_arg0)) (pos (nrm (srcOf (m ((c.tc : Thread nD τ).loc main_arg4)) e)))))
    (fun q k => iblk0_apply m c t q k) (fun k => iblk1_apply m c t k) (iblk2_apply m c t)
    (fun q => iblk3_apply m c t q) q

/-- Point `t` writes back its block of the third row. -/
theorem flushed8_eq (t : Fin cfg0.N) :
    (dats m 0 c).flushed 8 t
      = ((cfg0.win 8).blk t).view.read (Elt Ideal) (rowOf (vdstAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) := by
  show (cfg0.win 8).cut (grid0.coords t) ((dats m 0 c).after 8 t) = _
  rw [after8]
  unfold out8
  rw [View.canon_unit_zero hz]
  simp only [View.ld_unit_zero (S := S16000x16) hz, View.ld_unit_zero (S := S1x16) hz, View.ld_unit_zero (S := S1x1) hz,
    View.ld_unit_zero (S := S1x16000) hz]
  funext j
  obtain ⟨q, rfl⟩ : ∃ q : Fin 16000, (j : S1x16000.Idx) = ix2 (0 : Fin 1) q := ⟨j 1, row_idx j⟩
  show k0_pay3 (iblk m c 0 t) (iblk m c 1 t) (iblk m c 2 t) (iblk m c 4 t) (iblk m c 5 t) (ix2 (0 : Fin 1) q)
    = vdstAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ((((cfg0.win 8).blk t).view.emb (ix2 (0 : Fin 1) q) : S1x2000000.Idx) 1)
  rw [emb8 t q]
  exact pay3_block (iblk m c 0 t) (iblk m c 1 t) (iblk m c 2 t) (iblk m c 4 t) (iblk m c 5 t) (m ((c.tc : Thread nD τ).loc main_arg1)) (m ((c.tc : Thread nD τ).loc main_arg2)) (m ((c.tc : Thread nD τ).loc main_arg3)) (edgeAt t)
    (fun e => concOf (m ((c.tc : Thread nD τ).loc main_arg0)) (pos (nrm (srcOf (m ((c.tc : Thread nD τ).loc main_arg4)) e))))
    (fun e => Ideal.div (Ideal.ofBits .f32 0x3F800000#32) (Cert.Spec.sizeOf (m ((c.tc : Thread nD τ).loc main_arg0)) (pos (nrm (dstOf (m ((c.tc : Thread nD τ).loc main_arg4)) e)))))
    (fun q k => iblk0_apply m c t q k) (fun k => iblk1_apply m c t k) (iblk2_apply m c t)
    (fun q => iblk4_apply m c t q) (fun q => iblk5_apply m c t q) q

/-! ## The blocks tile the rows -/

/-- An index of an output row is in point `t`'s block iff each coordinate is in the block's range on its axis. -/
theorem mem_blk6 (t : Fin cfg0.N) (i : S1x2000000.Idx) :
    i ∈ ((cfg0.win 6).blk t).view.set ↔ ∀ a : Fin 2, win0_6.index t a * S1x16000.size a ≤ (i a).val ∧ (i a).val < win0_6.index t a * S1x16000.size a + S1x16000.size a := by
  show i ∈ ((View.whole main_v41_0).slice (win0_6.rect t)).set ↔ _
  rw [View.set_slice_whole, Rect.mem_set_unit]
  exact Iff.rfl

theorem mem_blk7 (t : Fin cfg0.N) (i : S1x2000000.Idx) :
    i ∈ ((cfg0.win 7).blk t).view.set ↔ ∀ a : Fin 2, win0_7.index t a * S1x16000.size a ≤ (i a).val ∧ (i a).val < win0_7.index t a * S1x16000.size a + S1x16000.size a := by
  show i ∈ ((View.whole main_v41_1).slice (win0_7.rect t)).set ↔ _
  rw [View.set_slice_whole, Rect.mem_set_unit]
  exact Iff.rfl

theorem mem_blk8 (t : Fin cfg0.N) (i : S1x2000000.Idx) :
    i ∈ ((cfg0.win 8).blk t).view.set ↔ ∀ a : Fin 2, win0_8.index t a * S1x16000.size a ≤ (i a).val ∧ (i a).val < win0_8.index t a * S1x16000.size a + S1x16000.size a := by
  show i ∈ ((View.whole main_v41_2).slice (win0_8.rect t)).set ↔ _
  rw [View.set_slice_whole, Rect.mem_set_unit]
  exact Iff.rfl

/-- The point whose blocks hold edge `e`. -/
def pointOf (e : Fin 2000000) : Fin cfg0.N :=
  ⟨e.val / 16000, by have h := e.isLt; rw [show cfg0.N = 125 from N_0]; omega⟩

theorem pointOf_val (e : Fin 2000000) : (pointOf e).val = e.val / 16000 := rfl

/-! ## The three output arrays after the grid -/

theorem flat_eq (e : Fin 2000000) :
    ((dats m 0 c).arrAt 6 cfg0.N : S1x2000000.Idx → EReal) (ix2 (0 : Fin 1) e) = flowOf (m ((c.tc : Thread nD τ).loc main_arg1)) (m ((c.tc : Thread nD τ).loc main_arg2)) (m ((c.tc : Thread nD τ).loc main_arg3)) e := by
  obtain ⟨-, -, -, -, -, -, ⟨h0, h1⟩, -⟩ := idx_facts (pointOf e)
  have hv := pointOf_val e
  refine ((dats m 0 c).arrAt_apply_of_mem 6 (rowOf (flowOf (m ((c.tc : Thread nD τ).loc main_arg1)) (m ((c.tc : Thread nD τ).loc main_arg2)) (m ((c.tc : Thread nD τ).loc main_arg3)))) (fun t _ => flushed6_eq m c t) cfg0.N
    (pointOf e) (ix2 (0 : Fin 1) e) (pointOf e).isLt (flush0_6 (pointOf e)) ?_).trans (rowOf_apply _ e)
  rw [mem_blk6]
  intro a
  match a with
  | ⟨0, _⟩ => show win0_6.index (pointOf e) (0 : Fin 2) * 1 ≤ 0 ∧ 0 < win0_6.index (pointOf e) (0 : Fin 2) * 1 + 1; omega
  | ⟨1, _⟩ => show win0_6.index (pointOf e) (1 : Fin 2) * 16000 ≤ e.val ∧ e.val < win0_6.index (pointOf e) (1 : Fin 2) * 16000 + 16000; omega

theorem vsrc_eq (e : Fin 2000000) :
    ((dats m 0 c).arrAt 7 cfg0.N : S1x2000000.Idx → EReal) (ix2 (0 : Fin 1) e)
      = flowOf (m ((c.tc : Thread nD τ).loc main_arg1)) (m ((c.tc : Thread nD τ).loc main_arg2)) (m ((c.tc : Thread nD τ).loc main_arg3)) e
          * Ideal.div (concOf (m ((c.tc : Thread nD τ).loc main_arg0)) (pos (nrm (srcOf (m ((c.tc : Thread nD τ).loc main_arg4)) e)))) (Cert.Spec.sizeOf (m ((c.tc : Thread nD τ).loc main_arg0)) (pos (nrm (srcOf (m ((c.tc : Thread nD τ).loc main_arg4)) e)))) := by
  obtain ⟨-, -, -, -, -, -, -, ⟨h0, h1⟩, -⟩ := idx_facts (pointOf e)
  have hv := pointOf_val e
  refine ((dats m 0 c).arrAt_apply_of_mem 7 (rowOf (vsrcAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (fun t _ => flushed7_eq m c t) cfg0.N
    (pointOf e) (ix2 (0 : Fin 1) e) (pointOf e).isLt (flush0_7 (pointOf e)) ?_).trans (rowOf_apply _ e)
  rw [mem_blk7]
  intro a
  match a with
  | ⟨0, _⟩ => show win0_7.index (pointOf e) (0 : Fin 2) * 1 ≤ 0 ∧ 0 < win0_7.index (pointOf e) (0 : Fin 2) * 1 + 1; omega
  | ⟨1, _⟩ => show win0_7.index (pointOf e) (1 : Fin 2) * 16000 ≤ e.val ∧ e.val < win0_7.index (pointOf e) (1 : Fin 2) * 16000 + 16000; omega

theorem vdst_eq (e : Fin 2000000) :
    ((dats m 0 c).arrAt 8 cfg0.N : S1x2000000.Idx → EReal) (ix2 (0 : Fin 1) e)
      = (flowOf (m ((c.tc : Thread nD τ).loc main_arg1)) (m ((c.tc : Thread nD τ).loc main_arg2)) (m ((c.tc : Thread nD τ).loc main_arg3)) e * concOf (m ((c.tc : Thread nD τ).loc main_arg0)) (pos (nrm (srcOf (m ((c.tc : Thread nD τ).loc main_arg4)) e))))
          * Ideal.div (Ideal.ofBits .f32 0x3F800000#32) (Cert.Spec.sizeOf (m ((c.tc : Thread nD τ).loc main_arg0)) (pos (nrm (dstOf (m ((c.tc : Thread nD τ).loc main_arg4)) e)))) := by
  obtain ⟨-, -, -, -, -, -, -, -, ⟨h0, h1⟩⟩ := idx_facts (pointOf e)
  have hv := pointOf_val e
  refine ((dats m 0 c).arrAt_apply_of_mem 8 (rowOf (vdstAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (fun t _ => flushed8_eq m c t) cfg0.N
    (pointOf e) (ix2 (0 : Fin 1) e) (pointOf e).isLt (flush0_8 (pointOf e)) ?_).trans (rowOf_apply _ e)
  rw [mem_blk8]
  intro a
  match a with
  | ⟨0, _⟩ => show win0_8.index (pointOf e) (0 : Fin 2) * 1 ≤ 0 ∧ 0 < win0_8.index (pointOf e) (0 : Fin 2) * 1 + 1; omega
  | ⟨1, _⟩ => show win0_8.index (pointOf e) (1 : Fin 2) * 16000 ≤ e.val ∧ e.val < win0_8.index (pointOf e) (1 : Fin 2) * 16000 + 16000; omega

end Cert.KValue

end
-- ==== Proof.KValueTailTerm.lean ====
/-
  The host operations after the grid, as terms over arrays.

  After the grid the program flattens the grid's three result rows, forms the validity flags and the two order
  numbers of every edge, scatters the order numbers by maximum along the raw source and target words, looks the
  result up along the normalised words to select the writes, zeroes the unselected values, accumulates the two
  value rows along the normalised words into a zero vector, and adds the concentration and four head counts over
  the size.  Each of these is named here as a function of the arrays it reads, and the contents of the buffers
  that matter after each group of operations are stated as these functions of the contents before the group.
-/
import proofs.«134914_j48275432407577_2_alg».proof.Proof.KFrameDefsI
import proofs.«134914_j48275432407577_2_alg».proof.Proof.Spec
import Idealize.ShloMosaic.Lib.StableHlo.Run
import Idealize.ShloMosaic.Lib.Pipeline.Frame

set_option maxRecDepth 16384

noncomputable section

namespace Cert.KTail

open Cert.KernelIdeal Cert.KernelIdeal.Gen Cert.KernelIdeal.Fr Cert.Spec
open Idealize.ShloMosaic Idealize.ShloMosaic.TcCoe Idealize.ShloMosaic.ValueIdx Idealize.ShloMosaic.StableHlo

/-! ## The arrays' types -/

/-- One word per edge, one flag per edge, one value per edge, the words as a column; one word and one value per node. -/
abbrev WordsE := (⟨S2000000, .i32⟩ : BufTy).Contents (Elt Ideal)
abbrev FlagsE := (⟨S2000000, .i1⟩ : BufTy).Contents (Elt Ideal)
abbrev RealsE := (⟨S2000000, .f32⟩ : BufTy).Contents (Elt Ideal)
abbrev ColE := (⟨S2000000x1, .i32⟩ : BufTy).Contents (Elt Ideal)
abbrev WordsN := (⟨S100000, .i32⟩ : BufTy).Contents (Elt Ideal)
abbrev RealsN := (⟨S100000, .f32⟩ : BufTy).Contents (Elt Ideal)

/-! ## The operations, named -/

/-- The same word on every edge. -/
def splatE (v : BitVec 32) : WordsE := broadcastInDim S2000000 ![] bcast_S_S2000000 (constantI S_ 32 v)

/-- A grid result row, flattened. -/
def flatA (a : (⟨S1x2000000, .f32⟩ : BufTy).Contents (Elt Ideal)) : RealsE :=
  shapeCast S2000000 a shapeCasts_S1x2000000_S2000000

/-- A grid result row as the second result's shape. -/
def cubeA (a : (⟨S1x2000000, .f32⟩ : BufTy).Contents (Elt Ideal)) : (⟨S2000000x1x1, .f32⟩ : BufTy).Contents (Elt Ideal) :=
  shapeCast S2000000x1x1 a shapeCasts_S1x2000000_S2000000x1x1

/-- The validity flags: the two words differ. -/
def validA (s d : WordsE) : FlagsE := cmpi .ne s d

/-- Twice the edge's number. -/
def twoIota : WordsE := muli (splatE 2#32) (iotaInDim S2000000 32 0)

/-- The order numbers of the writes to the sources and to the targets. -/
def ord1A (s d : WordsE) : WordsE := select (validA s d) twoIota (splatE 4294967295#32)
def ord2A (s d : WordsE) : WordsE := select (validA s d) (addi twoIota (splatE 1#32)) (splatE 4294967295#32)

/-- The words normalised: a negative word moved up by the number of nodes. -/
def nrmA (w : WordsE) : WordsE := select (cmpi .slt w (splatE 0#32)) (addi w (splatE 100000#32)) w

/-- The words as a column. -/
def colA (w : WordsE) : ColE := broadcastInDim S2000000x1 ![0] bcast_S2000000_S2000000x1_0 w

/-- The smallest integer on every node. -/
def minN : WordsN := broadcastInDim S100000 ![] bcast_S_S100000 (constantI S_ 32 2147483648#32)

/-- The largest update landing on each node along the raw words. -/
def smaxA (w u : WordsE) : WordsN := Host.scatter scatter_S100000_S2000000x1_S2000000_n_0_0_1 IntOp.maxsi minN (colA w) u

/-- The largest order number landing on each node. -/
def mordA (s d o1 o2 : WordsE) : WordsN := maxsi (smaxA s o1) (smaxA d o2)

/-- The selection flags of the writes with order numbers `o` along the words `w`. -/
def selA (v : FlagsE) (o : WordsE) (mo : WordsN) (w : WordsE) : FlagsE :=
  andi v (cmpi .eq o (Host.gather gather_S100000_S2000000x1_S2000000_n_0_n_n_0_1_1 mo (colA (nrmA w))))

/-- A float word on every edge, and the zero word on every node. -/
def splatRE (z : (⟨S_, .f32⟩ : BufTy).Contents (Elt Ideal)) : RealsE := broadcastInDim S2000000 ![] bcast_S_S2000000 z
def zeroS : (⟨S_, .f32⟩ : BufTy).Contents (Elt Ideal) := constant (F := Ideal) S_ .f32 0x00000000#32
def zeroN : RealsN := broadcastInDim S100000 ![] bcast_S_S100000 zeroS

/-- The values of the selected writes, the fill word elsewhere. -/
def updA (sel : FlagsE) (v : RealsE) (z : (⟨S_, .f32⟩ : BufTy).Contents (Elt Ideal)) : RealsE := select sel v (splatRE z)

/-- The two accumulations along the normalised words, one after the other. -/
def accA (x : RealsN) (s d : WordsE) (u1 u2 : RealsE) : RealsN :=
  Host.scatterAdd (F := Ideal) (φ := .f32) scatter_S100000_S2000000x1_S2000000_n_0_0_1
    (Host.scatterAdd (F := Ideal) (φ := .f32) scatter_S100000_S2000000x1_S2000000_n_0_0_1 x (colA (nrmA s)) u1) (colA (nrmA d)) u2

/-- The first result: concentration plus accumulated value plus four head counts over the size, as a column. -/
def outA (conc people size acc : RealsN) : (⟨S100000x1, .f32⟩ : BufTy).Contents (Elt Ideal) :=
  broadcastInDim S100000x1 ![0] bcast_S100000_S100000x1_0
    (addf (addf conc acc)
      (Host.divf (mulf (broadcastInDim S100000 ![] bcast_S_S100000 (constant (F := Ideal) S_ .f32 0x40800000#32)) people) size))

/-! ## The three groups of operations -/

/-- The operations up to the two order numbers, and those from the first zeroing on. -/
abbrev opsA : List (HloOp τ sig (Elt Ideal)) := hostOps1 ++ (hostOps1_1 ++ (hostOps1_2 ++ hostOps1_3))
abbrev opsC : List (HloOp τ sig (Elt Ideal)) := hostOps1_5 ++ (hostOps1_6 ++ (hostOps1_7 ++ hostOps1_8))

theorem tail_split : (tailOps (F := Ideal)).flatten = opsA ++ (hostOps1_4 ++ opsC) := by
  simp only [tailOps, opsA, opsC, List.flatten_cons, List.flatten_nil, List.append_nil, List.append_assoc]

variable (W : Valuation τ sig (Elt Ideal))

/-! ### The first group: flattening, validity, order numbers -/

theorem A_v42 : StableHlo.after opsA W (Proc.devRef .tc main_v42) = cubeA (W (Proc.devRef .tc main_v41_0)) := by
  simp only [opsA, hostOps1, hostOps1_1, hostOps1_2, hostOps1_3, List.append_nil, List.cons_append, List.nil_append]
  after_results_simp
  rfl
theorem A_v43 : StableHlo.after opsA W (Proc.devRef .tc main_v43) = flatA (W (Proc.devRef .tc main_v41_1)) := by
  simp only [opsA, hostOps1, hostOps1_1, hostOps1_2, hostOps1_3, List.append_nil, List.cons_append, List.nil_append]
  after_results_simp
  rfl
theorem A_v44 : StableHlo.after opsA W (Proc.devRef .tc main_v44) = flatA (W (Proc.devRef .tc main_v41_2)) := by
  simp only [opsA, hostOps1, hostOps1_1, hostOps1_2, hostOps1_3, List.append_nil, List.cons_append, List.nil_append]
  after_results_simp
  rfl
theorem A_v45 : StableHlo.after opsA W (Proc.devRef .tc main_v45) = validA (W (Proc.devRef .tc main_v10)) (W (Proc.devRef .tc main_v12)) := by
  simp only [opsA, hostOps1, hostOps1_1, hostOps1_2, hostOps1_3, List.append_nil, List.cons_append, List.nil_append]
  after_results_simp
  rfl
theorem A_v49 : StableHlo.after opsA W (Proc.devRef .tc main_v49) = ord1A (W (Proc.devRef .tc main_v10)) (W (Proc.devRef .tc main_v12)) := by
  simp only [opsA, hostOps1, hostOps1_1, hostOps1_2, hostOps1_3, List.append_nil, List.cons_append, List.nil_append]
  after_results_simp
  rfl
theorem A_v54 : StableHlo.after opsA W (Proc.devRef .tc main_v54) = ord2A (W (Proc.devRef .tc main_v10)) (W (Proc.devRef .tc main_v12)) := by
  simp only [opsA, hostOps1, hostOps1_1, hostOps1_2, hostOps1_3, List.append_nil, List.cons_append, List.nil_append]
  after_results_simp
  rfl
theorem A_v1 : StableHlo.after opsA W (Proc.devRef .tc main_v1) = W (Proc.devRef .tc main_v1) := by
  simp only [opsA, hostOps1, hostOps1_1, hostOps1_2, hostOps1_3, List.append_nil, List.cons_append, List.nil_append]
  after_results_simp
theorem A_v3 : StableHlo.after opsA W (Proc.devRef .tc main_v3) = W (Proc.devRef .tc main_v3) := by
  simp only [opsA, hostOps1, hostOps1_1, hostOps1_2, hostOps1_3, List.append_nil, List.cons_append, List.nil_append]
  after_results_simp
theorem A_v5 : StableHlo.after opsA W (Proc.devRef .tc main_v5) = W (Proc.devRef .tc main_v5) := by
  simp only [opsA, hostOps1, hostOps1_1, hostOps1_2, hostOps1_3, List.append_nil, List.cons_append, List.nil_append]
  after_results_simp
theorem A_v10 : StableHlo.after opsA W (Proc.devRef .tc main_v10) = W (Proc.devRef .tc main_v10) := by
  simp only [opsA, hostOps1, hostOps1_1, hostOps1_2, hostOps1_3, List.append_nil, List.cons_append, List.nil_append]
  after_results_simp
theorem A_v12 : StableHlo.after opsA W (Proc.devRef .tc main_v12) = W (Proc.devRef .tc main_v12) := by
  simp only [opsA, hostOps1, hostOps1_1, hostOps1_2, hostOps1_3, List.append_nil, List.cons_append, List.nil_append]
  after_results_simp

/-! ### The second group: the largest order numbers and the selections -/

theorem B_v70 : StableHlo.after (hostOps1_4 (F := Ideal)) W (Proc.devRef .tc main_v70) = selA (W (Proc.devRef .tc main_v45)) (W (Proc.devRef .tc main_v49)) (mordA (W (Proc.devRef .tc main_v10)) (W (Proc.devRef .tc main_v12)) (W (Proc.devRef .tc main_v49)) (W (Proc.devRef .tc main_v54))) (W (Proc.devRef .tc main_v10)) := by
  simp only [hostOps1_4]
  after_results_simp
  rfl
theorem B_v79 : StableHlo.after (hostOps1_4 (F := Ideal)) W (Proc.devRef .tc main_v79) = selA (W (Proc.devRef .tc main_v45)) (W (Proc.devRef .tc main_v54)) (mordA (W (Proc.devRef .tc main_v10)) (W (Proc.devRef .tc main_v12)) (W (Proc.devRef .tc main_v49)) (W (Proc.devRef .tc main_v54))) (W (Proc.devRef .tc main_v12)) := by
  simp only [hostOps1_4]
  after_results_simp
  rfl
theorem B_v80 : StableHlo.after (hostOps1_4 (F := Ideal)) W (Proc.devRef .tc main_v80) = zeroN := by
  simp only [hostOps1_4]
  after_results_simp
  rfl
theorem B_cst17 : StableHlo.after (hostOps1_4 (F := Ideal)) W (Proc.devRef .tc main_cst_17) = zeroS := by
  simp only [hostOps1_4]
  after_results_simp
  rfl
theorem B_v1 : StableHlo.after (hostOps1_4 (F := Ideal)) W (Proc.devRef .tc main_v1) = W (Proc.devRef .tc main_v1) := by
  simp only [hostOps1_4]
  after_results_simp
theorem B_v3 : StableHlo.after (hostOps1_4 (F := Ideal)) W (Proc.devRef .tc main_v3) = W (Proc.devRef .tc main_v3) := by
  simp only [hostOps1_4]
  after_results_simp
theorem B_v5 : StableHlo.after (hostOps1_4 (F := Ideal)) W (Proc.devRef .tc main_v5) = W (Proc.devRef .tc main_v5) := by
  simp only [hostOps1_4]
  after_results_simp
theorem B_v10 : StableHlo.after (hostOps1_4 (F := Ideal)) W (Proc.devRef .tc main_v10) = W (Proc.devRef .tc main_v10) := by
  simp only [hostOps1_4]
  after_results_simp
theorem B_v12 : StableHlo.after (hostOps1_4 (F := Ideal)) W (Proc.devRef .tc main_v12) = W (Proc.devRef .tc main_v12) := by
  simp only [hostOps1_4]
  after_results_simp
theorem B_v42 : StableHlo.after (hostOps1_4 (F := Ideal)) W (Proc.devRef .tc main_v42) = W (Proc.devRef .tc main_v42) := by
  simp only [hostOps1_4]
  after_results_simp
theorem B_v43 : StableHlo.after (hostOps1_4 (F := Ideal)) W (Proc.devRef .tc main_v43) = W (Proc.devRef .tc main_v43) := by
  simp only [hostOps1_4]
  after_results_simp
theorem B_v44 : StableHlo.after (hostOps1_4 (F := Ideal)) W (Proc.devRef .tc main_v44) = W (Proc.devRef .tc main_v44) := by
  simp only [hostOps1_4]
  after_results_simp

/-! ### The third group: zeroing, accumulation, the node formula -/

theorem C_v102 : StableHlo.after opsC W (Proc.devRef .tc main_v102) = outA (W (Proc.devRef .tc main_v1)) (W (Proc.devRef .tc main_v3)) (W (Proc.devRef .tc main_v5))
      (accA (W (Proc.devRef .tc main_v80)) (W (Proc.devRef .tc main_v10)) (W (Proc.devRef .tc main_v12))
        (updA (W (Proc.devRef .tc main_v70)) (W (Proc.devRef .tc main_v43)) (W (Proc.devRef .tc main_cst_17)))
        (updA (W (Proc.devRef .tc main_v79)) (W (Proc.devRef .tc main_v44)) zeroS)) := by
  simp only [opsC, hostOps1_5, hostOps1_6, hostOps1_7, hostOps1_8, List.append_nil, List.cons_append, List.nil_append]
  after_results_simp
  rfl
theorem C_v42 : StableHlo.after opsC W (Proc.devRef .tc main_v42) = W (Proc.devRef .tc main_v42) := by
  simp only [opsC, hostOps1_5, hostOps1_6, hostOps1_7, hostOps1_8, List.append_nil, List.cons_append, List.nil_append]
  after_results_simp

end Cert.KTail

end
-- ==== Proof.KValueTailRead.lean ====
/-
  The host operations after the grid, read at a node or an edge.

  Each named array operation of the tail, read at one coordinate, is the corresponding scalar function of the
  specification: validity, the two order numbers, normalisation, the largest order number landing on a node (a
  fold of the signed maximum over the edges in order), the lookup of that table along the normalised words, the
  selections, the zeroing of the unselected values and the two accumulations (sums over the edges whose normalised
  word reads the node).  The last theorem puts them together: the first result at node `n` is the specification's
  node formula, given the node columns, the two word rows and the grid's two value rows entry by entry.
-/
import proofs.«134914_j48275432407577_2_alg».proof.Proof.KValueTailTerm
import proofs.«134914_j48275432407577_2_alg».proof.Proof.LibGraphOps
import proofs.«134914_j48275432407577_2_alg».proof.Proof.LibScatterMax
import Idealize.ShloMosaic.Lib.IdealHost
import Idealize.ShloMosaic.Lib.Pipeline.Value

set_option maxRecDepth 16384

noncomputable section

namespace Cert.KTail

open Cert.KernelIdeal Cert.KernelIdeal.Gen Cert.KernelIdeal.Fr Cert.Spec
open Idealize.ShloMosaic Idealize.ShloMosaic.TcCoe Idealize.ShloMosaic.ValueIdx Idealize.ShloMosaic.StableHlo
open Cert.Bridge.GraphOps Cert.Bridge.ScatterMax
open scoped BigOperators

/-- An array over one axis as a function of its coordinate. -/
def fn1 {n : ℕ} {α : Type} (a : (⟨1, ![n]⟩ : Shape).Idx → α) : Fin n → α := fun e => a (ix1 e)

theorem fn1_apply {n : ℕ} {α : Type} (a : (⟨1, ![n]⟩ : Shape).Idx → α) (e : Fin n) : fn1 a e = a (ix1 e) := rfl

/-! ## Words and flags -/

theorem splatE_apply (v : BitVec 32) (j : S2000000.Idx) : splatE v j = v :=
  broadcastInDim_scalar_apply bcast_S_S2000000 (constantI S_ 32 v) j

theorem minN_apply (j : S100000.Idx) : minN j = 2147483648#32 :=
  broadcastInDim_scalar_apply bcast_S_S100000 (constantI S_ 32 2147483648#32) j

theorem validA_apply (s d : WordsE) (k : Fin 2000000) : validA s d (ix1 k) = valid (fn1 s) (fn1 d) k := rfl

theorem twoIota_apply (k : Fin 2000000) : twoIota (ix1 k) = IntOp.muli 2#32 (BitVec.ofNat 32 k.val) := by
  show IntOp.muli (splatE 2#32 (ix1 k)) (iotaInDim S2000000 32 0 (ix1 k)) = _
  rw [splatE_apply]
  rfl

theorem ord1A_apply (s d : WordsE) (k : Fin 2000000) : ord1A s d (ix1 k) = ord1 (fn1 s) (fn1 d) k := by
  show Scalar.select (validA s d (ix1 k)) (twoIota (ix1 k)) (splatE 4294967295#32 (ix1 k)) = _
  rw [twoIota_apply, splatE_apply]
  rfl

theorem ord2A_apply (s d : WordsE) (k : Fin 2000000) : ord2A s d (ix1 k) = ord2 (fn1 s) (fn1 d) k := by
  show Scalar.select (validA s d (ix1 k)) (IntOp.addi (twoIota (ix1 k)) (splatE 1#32 (ix1 k))) (splatE 4294967295#32 (ix1 k)) = _
  rw [twoIota_apply, splatE_apply, splatE_apply]
  rfl

theorem nrmA_apply (w : WordsE) (j : S2000000.Idx) : nrmA w j = nrm (w j) := by
  show Scalar.select (IntOp.cmpi .slt (w j) (splatE 0#32 j)) (IntOp.addi (w j) (splatE 100000#32 j)) (w j) = _
  rw [splatE_apply, splatE_apply]
  rfl

theorem colA_apply (w : WordsE) (k : Fin 2000000) : colA w (ix2 k (0 : Fin 1)) = w (ix1 k) := by
  unfold colA
  exact broadcastInDim_apply _ bcast_S2000000_S2000000x1_0 w (ix2 k (0 : Fin 1)) (ix1 k) (fun a => match a with
    | ⟨0, _⟩ => by show k.val = if (2000000 : ℕ) = 1 then 0 else k.val; rw [if_neg (by decide)])

/-! ## The largest order number landing on a node -/

theorem smaxA_apply (w u : WordsE) (n : Fin 100000) : smaxA w u (ix1 n) = smax (fn1 w) (fn1 u) n := by
  unfold smaxA smax
  refine (scatterMax_flat_apply (N := 100000) (E := 2000000) Facts₀.scatter_S100000_S2000000x1_S2000000_n_0_0_1_wf
    minN (colA w) u n).trans ?_
  rw [minN_apply]
  refine congrArg (fun f : BitVec 32 → Fin 2000000 → BitVec 32 => List.foldl f 2147483648#32 (List.finRange 2000000))
    (funext fun r => funext fun k => ?_)
  rw [colA_apply]
  rfl

theorem mordA_apply (s d : WordsE) (n : Fin 100000) :
    mordA s d (ord1A s d) (ord2A s d) (ix1 n) = mord (fn1 s) (fn1 d) n := by
  have h1 : fn1 (ord1A s d) = ord1 (fn1 s) (fn1 d) := funext fun k => ord1A_apply s d k
  have h2 : fn1 (ord2A s d) = ord2 (fn1 s) (fn1 d) := funext fun k => ord2A_apply s d k
  unfold mord
  show IntOp.maxsi (smaxA s (ord1A s d) (ix1 n)) (smaxA d (ord2A s d) (ix1 n)) = _
  rw [smaxA_apply, smaxA_apply, h1, h2]

/-! ## The lookup along the normalised words and the selections -/

theorem lookup_apply {α : Type} (t : S100000.Idx → α) (w : WordsE) (k : Fin 2000000) :
    Host.gather gather_S100000_S2000000x1_S2000000_n_0_n_n_0_1_1 t (colA (nrmA w)) (ix1 k)
      = t (ix1 (pos (nrm (w (ix1 k))))) := by
  refine (gather_flat_apply (N := 100000) (E := 2000000) (by decide)
    Facts₀.gather_S100000_S2000000x1_S2000000_n_0_n_n_0_1_1_wf t (colA (nrmA w)) k).trans ?_
  refine congrArg t (congrArg (ix1 (n := 100000)) (Fin.ext ?_))
  show min (colA (nrmA w) (ix2 k (0 : Fin 1))).toInt.toNat (100000 - 1) = min (nrm (w (ix1 k))).toInt.toNat (100000 - 1)
  rw [colA_apply, nrmA_apply]

theorem sel1A_apply (s d : WordsE) (k : Fin 2000000) :
    selA (validA s d) (ord1A s d) (mordA s d (ord1A s d) (ord2A s d)) s (ix1 k) = sel1 (fn1 s) (fn1 d) k := by
  unfold sel1
  show IntOp.andi (validA s d (ix1 k)) (IntOp.cmpi .eq (ord1A s d (ix1 k))
    (Host.gather gather_S100000_S2000000x1_S2000000_n_0_n_n_0_1_1 (mordA s d (ord1A s d) (ord2A s d)) (colA (nrmA s)) (ix1 k))) = _
  rw [lookup_apply, mordA_apply, ord1A_apply, validA_apply]
  rfl

theorem sel2A_apply (s d : WordsE) (k : Fin 2000000) :
    selA (validA s d) (ord2A s d) (mordA s d (ord1A s d) (ord2A s d)) d (ix1 k) = sel2 (fn1 s) (fn1 d) k := by
  unfold sel2
  show IntOp.andi (validA s d (ix1 k)) (IntOp.cmpi .eq (ord2A s d (ix1 k))
    (Host.gather gather_S100000_S2000000x1_S2000000_n_0_n_n_0_1_1 (mordA s d (ord1A s d) (ord2A s d)) (colA (nrmA d)) (ix1 k))) = _
  rw [lookup_apply, mordA_apply, ord2A_apply, validA_apply]
  rfl

/-! ## Values -/

theorem flatA_apply (a : (⟨S1x2000000, .f32⟩ : BufTy).Contents (Elt Ideal)) (e : Fin 2000000) :
    flatA a (ix1 e) = a (ix2 (0 : Fin 1) e) := by
  unfold flatA
  exact shapeCast_apply a shapeCasts_S1x2000000_S2000000 (ix1 e) (ix2 (0 : Fin 1) e)
    (by rewrite [Shape.rowMajor_val_two, Shape.rowMajor_val_one]; show 0 * 2000000 + e.val = e.val; omega)

theorem cubeA_apply (a : (⟨S1x2000000, .f32⟩ : BufTy).Contents (Elt Ideal)) (e : Fin 2000000) (y z : Fin 1) :
    cubeA a (ix3 e y z) = a (ix2 (0 : Fin 1) e) := by
  unfold cubeA
  exact shapeCast_apply a shapeCasts_S1x2000000_S2000000x1x1 (ix3 e y z) (ix2 (0 : Fin 1) e)
    (by rewrite [Shape.rowMajor_val_two, Shape.rowMajor_val_three]
        show 0 * 2000000 + e.val = (e.val * 1 + y.val) * 1 + z.val
        have := y.isLt; have := z.isLt; omega)

theorem zeroS_apply : zeroS ix0 = zeroW := rfl

theorem zeroN_apply (j : S100000.Idx) : zeroN j = zeroW :=
  broadcastInDim_scalar_apply bcast_S_S100000 zeroS j

theorem updA_apply (sel : FlagsE) (v : RealsE) (z : (⟨S_, .f32⟩ : BufTy).Contents (Elt Ideal)) (j : S2000000.Idx) :
    updA sel v z j = Scalar.select (sel j) (v j) (z ix0) := by
  show Scalar.select (sel j) (v j) (splatRE z j) = _
  rw [show splatRE z j = z ix0 from broadcastInDim_scalar_apply bcast_S_S2000000 z j]

theorem accA_apply (x : RealsN) (s d : WordsE) (u1 u2 : RealsE) (n : Fin 100000) :
    accA x s d u1 u2 (ix1 n)
      = (x (ix1 n) + ∑ k : Fin 2000000, if (nrm (s (ix1 k))).toInt = (n.val : ℤ) then u1 (ix1 k) else 0)
        + ∑ k : Fin 2000000, if (nrm (d (ix1 k))).toInt = (n.val : ℤ) then u2 (ix1 k) else 0 := by
  unfold accA
  refine (scatterAdd_flat_apply (N := 100000) (E := 2000000) Facts₀.scatter_S100000_S2000000x1_S2000000_n_0_0_1_wf
    _ (colA (nrmA d)) u2 n).trans ?_
  refine congrArg₂ (· + ·) ?_ ?_
  · refine (scatterAdd_flat_apply (N := 100000) (E := 2000000) Facts₀.scatter_S100000_S2000000x1_S2000000_n_0_0_1_wf
      x (colA (nrmA s)) u1 n).trans ?_
    simp only [colA_apply, nrmA_apply]
  · simp only [colA_apply, nrmA_apply]

theorem outA_apply (conc people size acc : RealsN) (n : Fin 100000) (z : Fin 1) :
    outA conc people size acc (ix2 n z)
      = (conc (ix1 n) + acc (ix1 n)) + Ideal.div (fourW * people (ix1 n)) (size (ix1 n)) := by
  unfold outA
  refine (broadcastInDim_apply _ bcast_S100000_S100000x1_0 _ (ix2 n z) (ix1 n) (fun a => match a with
    | ⟨0, _⟩ => by show n.val = if (100000 : ℕ) = 1 then 0 else n.val; rw [if_neg (by decide)])).trans ?_
  show (conc (ix1 n) + acc (ix1 n))
    + Ideal.div (broadcastInDim S100000 ![] bcast_S_S100000 (constant (F := Ideal) S_ .f32 0x40800000#32) (ix1 n) * people (ix1 n))
        (size (ix1 n)) = _
  rw [broadcastInDim_scalar_apply]
  rfl

/-! ## The first result at a node -/

/-- The tail's first result as one function of the node columns, the word rows and the grid's two value rows. -/
def tailNode (conc people size : RealsN) (s d : WordsE) (a7 a8 : (⟨S1x2000000, .f32⟩ : BufTy).Contents (Elt Ideal)) :
    (⟨S100000x1, .f32⟩ : BufTy).Contents (Elt Ideal) :=
  outA conc people size
    (accA zeroN s d
      (updA (selA (validA s d) (ord1A s d) (mordA s d (ord1A s d) (ord2A s d)) s) (flatA a7) zeroS)
      (updA (selA (validA s d) (ord2A s d) (mordA s d (ord1A s d) (ord2A s d)) d) (flatA a8) zeroS))

/-- The tail's first result at node `n`, from the node columns, the word rows and the grid's value rows entry by entry. -/
theorem tail_read (conc people size : RealsN) (s d : WordsE) (a7 a8 : (⟨S1x2000000, .f32⟩ : BufTy).Contents (Elt Ideal))
    (cF pF zF : Fin 100000 → EReal) (sF dF : Fin 2000000 → BitVec 32) (val : Fin 2000000 → EReal)
    (hc : ∀ n, conc (ix1 n) = cF n) (hp : ∀ n, people (ix1 n) = pF n) (hz : ∀ n, size (ix1 n) = zF n)
    (hs : ∀ e, s (ix1 e) = sF e) (hd : ∀ e, d (ix1 e) = dF e)
    (h7 : ∀ e : Fin 2000000, a7 (ix2 (0 : Fin 1) e) = v1 cF zF sF val e)
    (h8 : ∀ e : Fin 2000000, a8 (ix2 (0 : Fin 1) e) = v2 cF zF sF dF val e) (n : Fin 100000) (z : Fin 1) :
    tailNode conc people size s d a7 a8 (ix2 n z) = node cF pF zF sF dF val n := by
  unfold tailNode
  have hsF : fn1 s = sF := funext hs
  have hdF : fn1 d = dF := funext hd
  rw [outA_apply, accA_apply, zeroN_apply, hc, hp, hz]
  unfold node acc
  simp only [updA_apply, sel1A_apply, sel2A_apply, flatA_apply, zeroS_apply, hs, hd, h7, h8, hsF, hdF]

end Cert.KTail

end
-- ==== Proof.KValueTail.lean ====
/-
  The kernel program's two results after the host operations that follow the grid.

  The second result is the grid's first row reshaped, so it is every edge's flow as soon as that row is.  The first
  result is the node formula: the tail's array term read at a node, with the node columns and the word rows as the
  operations before the grid left them and the grid's second and third rows as the two value rows.
-/
import proofs.«134914_j48275432407577_2_alg».proof.Proof.KValueTailRead
import proofs.«134914_j48275432407577_2_alg».proof.Proof.KPrefix
import Idealize.ShloMosaic.Lib.Pipeline.FrameSuffix

set_option maxRecDepth 16384

noncomputable section

namespace Cert.KTail

open Cert.KernelIdeal Cert.KernelIdeal.Gen Cert.KernelIdeal.Fr Cert.Spec
open Idealize.ShloMosaic Idealize.ShloMosaic.TcCoe Idealize.ShloMosaic.ValueIdx Idealize.ShloMosaic.StableHlo

variable (m : (ℓ : Loc nD τ sig) → Buf (Elt Ideal) ℓ) (c : Dev nD)

/-! ## The two results as array terms -/

/-- The second result after the tail, from any contents: the grid's first row in the result's shape. -/
theorem tail_v42 (W : Valuation τ sig (Elt Ideal)) :
    StableHlo.after (tailOps (F := Ideal)).flatten W (Proc.devRef .tc main_v42) = cubeA (W (Proc.devRef .tc main_v41_0)) := by
  rw [tail_split, StableHlo.after_append, StableHlo.after_append, C_v42, B_v42, A_v42]

/-- The first result after the tail, from any contents: the tail's term over the node columns, the word rows and the
    grid's second and third rows. -/
theorem tail_v102 (W : Valuation τ sig (Elt Ideal)) :
    StableHlo.after (tailOps (F := Ideal)).flatten W (Proc.devRef .tc main_v102)
      = tailNode (W (Proc.devRef .tc main_v1)) (W (Proc.devRef .tc main_v3)) (W (Proc.devRef .tc main_v5)) (W (Proc.devRef .tc main_v10)) (W (Proc.devRef .tc main_v12))
          (W (Proc.devRef .tc main_v41_1)) (W (Proc.devRef .tc main_v41_2)) := by
  rw [tail_split, StableHlo.after_append, StableHlo.after_append, C_v102]
  rw [B_v1, B_v3, B_v5, B_v10, B_v12, B_v80, B_v70, B_v79, B_v43, B_v44, B_cst17]
  rw [A_v1, A_v3, A_v5, A_v10, A_v12, A_v45, A_v49, A_v54, A_v43, A_v44]
  rfl

/-- Equal columns and rows give equal first results. -/
theorem tailNode_congr {conc conc' people people' size size' : RealsN} {s s' d d' : WordsE}
    {a7 a7' a8 a8' : (⟨S1x2000000, .f32⟩ : BufTy).Contents (Elt Ideal)}
    (h1 : conc = conc') (h2 : people = people') (h3 : size = size') (h4 : s = s') (h5 : d = d') (h6 : a7 = a7') (h7 : a8 = a8') :
    tailNode conc people size s d a7 a8 = tailNode conc' people' size' s' d' a7' a8' := by
  subst h1 h2 h3 h4 h5 h6 h7
  rfl

/-- The second result: the grid's first row in the result's shape. -/
theorem tail_out1 :
    Pipeline.afterTail₀ cfgs (dats m) 0 (V0 m) tailOps c main_v42 = cubeA ((dats m 0 c).arrAt 6 cfg0.N) := by
  unfold Pipeline.afterTail₀
  rw [tail_v42]
  exact congrArg cubeA (Pipeline.withArrays_arr spec0 launch0.win.arr_inj c _ _ (6 : Fin 9))

/-- The first result: the tail's term over the columns and rows the grid was entered with and the grid's two value rows. -/
theorem tail_out0 :
    Pipeline.afterTail₀ cfgs (dats m) 0 (V0 m) tailOps c main_v102
      = tailNode (V m c main_v1) (V m c main_v3) (V m c main_v5) (V m c main_v10) (V m c main_v12)
          ((dats m 0 c).arrAt 7 cfg0.N) ((dats m 0 c).arrAt 8 cfg0.N) := by
  unfold Pipeline.afterTail₀
  rw [tail_v102]
  exact tailNode_congr
    (Pipeline.withArrays_of_ne _ c (V0 m c) _ main_v1 (by exact (by decide : ∀ w, Pipeline.arrRef spec0 w ≠ main_v1)))
    (Pipeline.withArrays_of_ne _ c (V0 m c) _ main_v3 (by exact (by decide : ∀ w, Pipeline.arrRef spec0 w ≠ main_v3)))
    (Pipeline.withArrays_of_ne _ c (V0 m c) _ main_v5 (by exact (by decide : ∀ w, Pipeline.arrRef spec0 w ≠ main_v5)))
    (Pipeline.withArrays_of_ne _ c (V0 m c) _ main_v10 (by exact (by decide : ∀ w, Pipeline.arrRef spec0 w ≠ main_v10)))
    (Pipeline.withArrays_of_ne _ c (V0 m c) _ main_v12 (by exact (by decide : ∀ w, Pipeline.arrRef spec0 w ≠ main_v12)))
    (Pipeline.withArrays_arr spec0 launch0.win.arr_inj c _ _ (7 : Fin 9))
    (Pipeline.withArrays_arr spec0 launch0.win.arr_inj c _ _ (8 : Fin 9))

/-! ## The two results are the specification's -/

/-- Every edge's flow, once the grid's first row holds it. -/
theorem k_out1
    (hflat : ∀ e : Fin 2000000, (dats m 0 c).arrAt 6 cfg0.N (ix2 (0 : Fin 1) e) = flowOf (m ((c.tc : Thread nD τ).loc main_arg1)) (m ((c.tc : Thread nD τ).loc main_arg2)) (m ((c.tc : Thread nD τ).loc main_arg3)) e) :
    Pipeline.afterTail₀ cfgs (dats m) 0 (V0 m) tailOps c main_v42 = out1 (m ((c.tc : Thread nD τ).loc main_arg1)) (m ((c.tc : Thread nD τ).loc main_arg2)) (m ((c.tc : Thread nD τ).loc main_arg3)) := by
  rw [tail_out1]
  funext i
  obtain ⟨e, y, z, rfl⟩ : ∃ (e : Fin 2000000) (y z : Fin 1), i = ix3 e y z := ⟨i 0, i 1, i 2, eq_ix3 i⟩
  exact (cubeA_apply _ e y z).trans (hflat e)

/-- Every node's result, once the grid's second and third rows hold the two value rows. -/
theorem k_out0
    (hvsrc : ∀ e : Fin 2000000, (dats m 0 c).arrAt 7 cfg0.N (ix2 (0 : Fin 1) e)
      = v1 (concOf (m ((c.tc : Thread nD τ).loc main_arg0))) (Cert.Spec.sizeOf (m ((c.tc : Thread nD τ).loc main_arg0))) (srcOf (m ((c.tc : Thread nD τ).loc main_arg4))) (flowOf (m ((c.tc : Thread nD τ).loc main_arg1)) (m ((c.tc : Thread nD τ).loc main_arg2)) (m ((c.tc : Thread nD τ).loc main_arg3))) e)
    (hvdst : ∀ e : Fin 2000000, (dats m 0 c).arrAt 8 cfg0.N (ix2 (0 : Fin 1) e)
      = v2 (concOf (m ((c.tc : Thread nD τ).loc main_arg0))) (Cert.Spec.sizeOf (m ((c.tc : Thread nD τ).loc main_arg0))) (srcOf (m ((c.tc : Thread nD τ).loc main_arg4))) (dstOf (m ((c.tc : Thread nD τ).loc main_arg4))) (flowOf (m ((c.tc : Thread nD τ).loc main_arg1)) (m ((c.tc : Thread nD τ).loc main_arg2)) (m ((c.tc : Thread nD τ).loc main_arg3))) e) :
    Pipeline.afterTail₀ cfgs (dats m) 0 (V0 m) tailOps c main_v102
      = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [tail_out0]
  funext i
  obtain ⟨n, z, rfl⟩ : ∃ (n : Fin 100000) (z : Fin 1), i = ix2 n z := ⟨i 0, i 1, eq_ix2 i⟩
  exact tail_read _ _ _ _ _ _ _ _ _ _ _ _ _
    (Cert.KPrefix.conc_apply m c) (Cert.KPrefix.people_apply m c) (Cert.KPrefix.size_apply m c)
    (Cert.KPrefix.src_apply m c) (Cert.KPrefix.dst_apply m c) hvsrc hvdst n z

end Cert.KTail

end
-- ==== Proof.lean ====
/-
  The certificate: the kernel program (read at the word level and on the extended reals) and the reference each
  run to the end without a fault and leave their arguments unchanged; the idealised kernel is the kernel's own
  text read on the extended reals (no rewrite was made, so nothing is owed for it); and, when every node's size
  is different from zero, the idealised kernel and the idealised reference end with the same two results.

  The results.  For every edge the flow is the sum over sixteen channels of input times weight, plus a bias.
  For every node the result is its concentration, plus the value written last among the edges touching it —
  each valid edge writes `flow · conc[src] / size[src]` to its source and then `flow · conc[src] / size[dst]`
  to its target, the writes ordered by edge number, the last one winning — plus four times its head count over
  its size.  Both programs realise "the last write wins" by giving every write an order number, taking per node
  the largest order number that lands on it, keeping only the writes that carry that number, and summing them
  into the nodes.  The reference does this once over the 4000000 writes laid end to end; the kernel's program
  does it over the 2000000 source writes and the 2000000 target writes separately and takes the larger of the
  two maxima and the sum of the two sums.  The kernel also divides once per node (`conc/size`, `1/size`) and
  multiplies per edge where the reference divides per edge; these agree when no size is zero.

  One specification (`Cert.Spec`) states the two results entry by entry.  The kernel side reads its three
  per-edge output rows off the grid's blocks and then its host operations one at a time; the reference side
  reads its host operations one at a time and splits each 4000000-long fold and sum into its two halves.
-/
import proofs.«134914_j48275432407577_2_alg».proof.Defs
import proofs.«134914_j48275432407577_2_alg».proof.Proof.Gen.Kernel
import proofs.«134914_j48275432407577_2_alg».proof.Proof.Gen.KernelIdeal
import proofs.«134914_j48275432407577_2_alg».proof.Proof.Gen.ReferenceIdeal
import proofs.«134914_j48275432407577_2_alg».proof.Proof.Gen.Pre_finite_inputs
import proofs.«134914_j48275432407577_2_alg».proof.Proof.Gen.ReferenceIdeal.Read
import proofs.«134914_j48275432407577_2_alg».proof.Proof.KFrameK
import proofs.«134914_j48275432407577_2_alg».proof.Proof.KFrameI
import proofs.«134914_j48275432407577_2_alg».proof.Proof.Spec
import proofs.«134914_j48275432407577_2_alg».proof.Proof.PreSize
import proofs.«134914_j48275432407577_2_alg».proof.Proof.Bridge
import proofs.«134914_j48275432407577_2_alg».proof.Proof.RefValue
import proofs.«134914_j48275432407577_2_alg».proof.Proof.KValueBlocks
import proofs.«134914_j48275432407577_2_alg».proof.Proof.KValueTail

noncomputable section

namespace Cert.Proof

open Idealize.ShloMosaic Idealize.ShloMosaic.TcCoe Idealize.SL.Sem

/-- The word-level kernel program runs and keeps its arguments. -/
theorem frame_p : Cert.frame_Kernel := fun m ρ _ => Cert.Kernel.Fr.frame m ρ

/-- So does the kernel program read on the extended reals. -/
theorem frame_pi : Cert.frame_KernelIdeal := fun m ρ _ => Cert.KernelIdeal.Fr.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing of the kernel was rewritten for the extended reals. -/
theorem preserves : Cert.preserves_Kernel_KernelIdeal := trivial

/-- From memories that agree on the arguments, with every size nonzero, both programs end with the
    specification's two results. -/
theorem algebraic : Cert.algebraic_KernelIdeal_ReferenceIdeal := by
  intro m ρ m' ρ' hpre hagree
  refine ⟨fun c => Cert.Spec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.out1 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Fr.run_main (F := Ideal) m ρ)
    have hsz := Cert.PreSize.size_ne_zero _ _ _ _ _ (hpre c)
    have hvsrc : ∀ e : Fin 2000000, (Cert.KernelIdeal.Fr.dats m 0 c).arrAt 7 Cert.KernelIdeal.cfg0.N (ValueIdx.ix2 (0 : Fin 1) e)
        = Cert.Spec.v1 (Cert.Spec.concOf (m ((c.tc : Thread Cert.KernelIdeal.nD Cert.KernelIdeal.τ).loc Cert.KernelIdeal.main_arg0))) (Cert.Spec.sizeOf (m ((c.tc : Thread Cert.KernelIdeal.nD Cert.KernelIdeal.τ).loc Cert.KernelIdeal.main_arg0))) (Cert.Spec.srcOf (m ((c.tc : Thread Cert.KernelIdeal.nD Cert.KernelIdeal.τ).loc Cert.KernelIdeal.main_arg4))) (Cert.Spec.flowOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) e :=
      fun e => (Cert.KValue.vsrc_eq m c e).trans (Cert.Bridge.mul_div _ _ _ (hsz _))
    have hvdst : ∀ e : Fin 2000000, (Cert.KernelIdeal.Fr.dats m 0 c).arrAt 8 Cert.KernelIdeal.cfg0.N (ValueIdx.ix2 (0 : Fin 1) e)
        = Cert.Spec.v2 (Cert.Spec.concOf (m ((c.tc : Thread Cert.KernelIdeal.nD Cert.KernelIdeal.τ).loc Cert.KernelIdeal.main_arg0))) (Cert.Spec.sizeOf (m ((c.tc : Thread Cert.KernelIdeal.nD Cert.KernelIdeal.τ).loc Cert.KernelIdeal.main_arg0))) (Cert.Spec.srcOf (m ((c.tc : Thread Cert.KernelIdeal.nD Cert.KernelIdeal.τ).loc Cert.KernelIdeal.main_arg4))) (Cert.Spec.dstOf (m ((c.tc : Thread Cert.KernelIdeal.nD Cert.KernelIdeal.τ).loc Cert.KernelIdeal.main_arg4))) (Cert.Spec.flowOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) e :=
      fun e => (Cert.KValue.vdst_eq m c e).trans (Cert.Bridge.mul_recip _ _ (hsz _))
    exact ⟨((h c).2 Cert.KernelIdeal.main_v102 (Pipeline.mem_restRefs_of Cert.KernelIdeal.main_v102 (by decide) (by decide))).trans
        (Cert.KTail.k_out0 m c hvsrc hvdst),
      ((h c).2 Cert.KernelIdeal.main_v42 (Pipeline.mem_restRefs_of Cert.KernelIdeal.main_v42 (by decide) (by decide))).trans
        (Cert.KTail.k_out1 m c (Cert.KValue.flat_eq m c)),
      ((h c).2 Cert.KernelIdeal.main_arg0 (Pipeline.mem_restRefs_of Cert.KernelIdeal.main_arg0 (by decide) (by decide))).trans
        (Cert.KernelIdeal.Fr.W_main_arg0 m (Cert.KernelIdeal.Fr.dats m) c),
      ((h c).2 Cert.KernelIdeal.main_arg1 (Pipeline.mem_restRefs_of Cert.KernelIdeal.main_arg1 (by decide) (by decide))).trans
        (Cert.KernelIdeal.Fr.W_main_arg1 m (Cert.KernelIdeal.Fr.dats m) c),
      ((h c).2 Cert.KernelIdeal.main_arg2 (Pipeline.mem_restRefs_of Cert.KernelIdeal.main_arg2 (by decide) (by decide))).trans
        (Cert.KernelIdeal.Fr.W_main_arg2 m (Cert.KernelIdeal.Fr.dats m) c),
      ((h c).2 Cert.KernelIdeal.main_arg3 (Pipeline.mem_restRefs_of Cert.KernelIdeal.main_arg3 (by decide) (by decide))).trans
        (Cert.KernelIdeal.Fr.W_main_arg3 m (Cert.KernelIdeal.Fr.dats m) c),
      ((h c).2 Cert.KernelIdeal.main_arg4 (Pipeline.mem_restRefs_of Cert.KernelIdeal.main_arg4 (by decide) (by decide))).trans
        (Cert.KernelIdeal.Fr.W_main_arg4 m (Cert.KernelIdeal.Fr.dats m) c)⟩
  · refine (θ_run Cert.ReferenceIdeal.defs _ _).mono (fun r h c => ?_) (Cert.ReferenceIdeal.Value.run (F := Ideal) m' ρ')
    obtain ⟨h0, h1, hargs⟩ := h c
    refine ⟨?_, ?_, hargs⟩
    · rw [h0, Cert.ReferenceIdeal.Read.val_main_v89_eq, Cert.RefValue.ref_out0, (hagree c).1, (hagree c).2.1, (hagree c).2.2.1,
        (hagree c).2.2.2.1, (hagree c).2.2.2.2]
    · rw [h1, Cert.ReferenceIdeal.Read.val_main_v10_eq, Cert.RefValue.ref_out1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
